-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S2x800000 32) (main_arg2 : IVec S100000 32) (main_arg3 : FVec F S128x128 .f32) (main_arg4 : FVec F S128 .f32) (main_arg5 : FVec F S128x128 .f32) (main_arg6 : FVec F S128x128 .f32) (main_arg7 : FVec F S128 .f32) (main_arg8 : FVec F S128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_v13 main_v16
-- ==== Kernel.lean ====
abbrev S100000x128 : Shape := ⟨2, ![100000, 128]⟩
abbrev S2x800000 : Shape := ⟨2, ![2, 800000]⟩
abbrev S100000 : Shape := ⟨1, ![100000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000x1 : Shape := ⟨2, ![100000, 1]⟩
abbrev S100000x2 : Shape := ⟨2, ![100000, 2]⟩
abbrev S5000x2 : Shape := ⟨2, ![5000, 2]⟩
abbrev S5000x1 : Shape := ⟨2, ![5000, 1]⟩
abbrev S5000 : Shape := ⟨1, ![5000]⟩

abbrev nBuf : Space → Nat
  | .hbm => 43
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x128, .f32⟩
  | .hbm, ⟨11, _⟩ => ⟨S100000x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S100000x128, .f32⟩
  | .hbm, ⟨27, _⟩ => ⟨S800000x1, .i32⟩
  | .hbm, ⟨28, _⟩ => ⟨S100000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S100000, .f32⟩
  | .hbm, ⟨33, _⟩ => ⟨S800000x1, .i32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x1, .f32⟩
  | .hbm, ⟨38, _⟩ => ⟨S100000x2, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x2, .f32⟩
  | .local _ .vmem, ⟨13, _⟩ => ⟨S5000x2, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  shapeCasts_S5000x128_S5000x128 : S5000x128.ShapeCasts S5000x128
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  broadcasts_S5000x1_S5000x128 : S5000x1.Broadcasts S5000x128
  reduces_S5000x128_S5000 : S5000x128.Reduces [1] S5000
  shapeCasts_S5000_S5000x1 : S5000.ShapeCasts S5000x1
  dot_S5000x128_S128x128_S5000x128_1_0_0_1_n_n_wf : DotDims.WF S5000x128 S128x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x2.size a ≤ S100000x2.size a
  hwx1_3 : ∀ i : grid1.Coords, EltTy.bits .f32 = 32 ∨ (Rect.block (s := S100000x2) S5000x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x2.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v26) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S100000 : Shape := ⟨1, ![100000]⟩
abbrev S128x128 : Shape := ⟨2, ![128, 128]⟩
abbrev S128 : Shape := ⟨1, ![128]⟩
abbrev S_ : Shape := ⟨0, ![]⟩
abbrev S1x128 : Shape := ⟨2, ![1, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S100000x1 : Shape := ⟨2, ![100000, 1]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S100000x128, .f32⟩
  | .hbm, ⟨11, _⟩ => ⟨S_, .f32⟩
  | .hbm, ⟨12, _⟩ => ⟨S100000x128, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S100000x128, .i1⟩
  | .hbm, ⟨17, _⟩ => ⟨S100000x128, .f32⟩
  | .hbm, ⟨18, _⟩ => ⟨S100000x128, .f32⟩
  | .hbm, ⟨19, _⟩ => ⟨S100000x128, .f32⟩
  | .hbm, ⟨20, _⟩ => ⟨S100000x128, .f32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S1x800000, .i32⟩
  | .hbm, ⟨37, _⟩ => ⟨S800000, .i32⟩
  | .hbm, ⟨38, _⟩ => ⟨S1x800000, .i32⟩
  | .hbm, ⟨39, _⟩ => ⟨S800000, .i32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S100000x128, .f32⟩
  | .hbm, ⟨61, _⟩ => ⟨S800000x1, .i32⟩
  | .hbm, ⟨62, _⟩ => ⟨S100000x128, .f32⟩
  | .hbm, ⟨63, _⟩ => ⟨S100000, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000, .f32⟩
  | .hbm, ⟨78, _⟩ => ⟨S100000x1, .f32⟩
  | .hbm, ⟨79, _⟩ => ⟨S_, .f32⟩
  | .hbm, ⟨80, _⟩ => ⟨S100000x1, .f32⟩
  | .hbm, ⟨81, _⟩ => ⟨S100000x1, .f32⟩
  | .hbm, ⟨82, _⟩ => ⟨S_, .i32⟩
  | .hbm, ⟨83, _⟩ => ⟨S_, .f32⟩
  | .hbm, ⟨84, _⟩ => ⟨S100000, .f32⟩
  | .hbm, ⟨85, _⟩ => ⟨S100000x1, .f32⟩
  | .hbm, ⟨86, _⟩ => ⟨S_, .f32⟩
  | .hbm, ⟨87, _⟩ => ⟨S100000x1, .f32⟩
  | .hbm, ⟨88, _⟩ => ⟨S100000x1, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S100000, .f32⟩
  | .hbm, ⟨97, _⟩ => ⟨S100000x1, .f32⟩
  | .hbm, ⟨98, _⟩ => ⟨S100000x1, .f32⟩
  | .hbm, ⟨99, _⟩ => ⟨S100000x1, .f32⟩
  | .hbm, ⟨100, _⟩ => ⟨S_, .f32⟩
  | .hbm, ⟨101, _⟩ => ⟨S_, .i1⟩
  | .hbm, ⟨102, _⟩ => ⟨S_, .f32⟩
  | .hbm, ⟨103, _⟩ => ⟨S_, .f32⟩
  | .hbm, ⟨104, _⟩ => ⟨S100000x1, .f32⟩
  | .hbm, ⟨105, _⟩ => ⟨S100000x1, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x1, .f32⟩
  | .hbm, ⟨110, _⟩ => ⟨S100000x1, .f32⟩
  | .hbm, ⟨111, _⟩ => ⟨S100000x1, .f32⟩
  | .hbm, ⟨112, _⟩ => ⟨S100000x128, .f32⟩
  | .hbm, ⟨113, _⟩ => ⟨S100000x128, .f32⟩
  | .hbm, ⟨114, _⟩ => ⟨S1x128, .f32⟩
  | .hbm, ⟨115, _⟩ => ⟨S100000x128, .f32⟩
  | .hbm, ⟨116, _⟩ => ⟨S100000x128, .f32⟩
  | .hbm, ⟨117, _⟩ => ⟨S1x128, .f32⟩
  | .hbm, ⟨118, _⟩ => ⟨S100000x128, .f32⟩
  | .hbm, ⟨119, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v1 : Ref sig .tc := ⟨.hbm, 24, rfl⟩
abbrev main_cst : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_c : Ref sig .tc := ⟨.hbm, 40, rfl⟩
abbrev main_v16 : Ref sig .tc := ⟨.hbm, 41, rfl⟩
abbrev main_v17 : Ref sig .tc := ⟨.hbm, 42, rfl⟩
abbrev main_c_0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_1 : Ref sig .tc := ⟨.hbm, 49, rfl⟩
abbrev main_v23 : Ref sig .tc := ⟨.hbm, 50, rfl⟩
abbrev main_v24 : Ref sig .tc := ⟨.hbm, 51, rfl⟩
abbrev main_c_2 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_3 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_4 : Ref sig .tc := ⟨.hbm, 69, rfl⟩
abbrev main_v40 : Ref sig .tc := ⟨.hbm, 70, rfl⟩
abbrev main_v41 : Ref sig .tc := ⟨.hbm, 71, rfl⟩
abbrev main_cst_5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_6 : Ref sig .tc := ⟨.hbm, 76, rfl⟩
abbrev main_v45 : Ref sig .tc := ⟨.hbm, 77, rfl⟩
abbrev main_v46 : Ref sig .tc := ⟨.hbm, 78, rfl⟩
abbrev main_cst_7 : Ref sig .tc := ⟨.hbm, 79, rfl⟩
abbrev main_v47 : Ref sig .tc := ⟨.hbm, 80, rfl⟩
abbrev main_v48 : Ref sig .tc := ⟨.hbm, 81, rfl⟩
abbrev main_c_8 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_cst_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_cst_1 : Ref sig .tc := ⟨.hbm, 93, rfl⟩
abbrev main_call1_v8 : Ref sig .tc := ⟨.hbm, 94, rfl⟩
abbrev main_call1_cst_2 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_v12 : Ref sig .tc := ⟨.hbm, 99, rfl⟩
abbrev main_call1_cst_3 : Ref sig .tc := ⟨.hbm, 100, rfl⟩
abbrev main_call1_v13 : Ref sig .tc := ⟨.hbm, 101, rfl⟩
abbrev main_call1_cst_4 : Ref sig .tc := ⟨.hbm, 102, rfl⟩
abbrev main_call1_call0_v0 : Ref sig .tc := ⟨.hbm, 103, rfl⟩
abbrev main_call1_call0_v1 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_cst_9 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

class Facts : Prop extends Facts₀ where

variable [Facts]
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.KBody0.lean ====
/-
  The projection kernel's block at an index.  The first kernel multiplies a block of 5000 rows of x by the
  whole 128 × 128 weight on the matrix unit, into the zero accumulator, and adds the bias row to every row:
  at the block's local index (p, q) this is the plain sum over k of x (p, k) · W (k, q), plus the bias at q.
-/
import proofs.«181917_j74500502716662_2_alg».proof.Proof.Gen.KernelIdeal.Skeleton
import proofs.«181917_j74500502716662_2_alg».proof.Proof.LibPlainDot
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen
open scoped BigOperators

/-- The printed dimension numbers of the three products are the plain ones, rows × contraction by contraction × columns. -/
theorem dims_plain : dot_S5000x128_S128x128_S5000x128_1_0_0_1_n_n = DotDims.plain 5000 128 128 := rfl

/-- A block of rows times a whole weight, into the zero accumulator, at (p, q): the sum over the contraction. -/
theorem rows_times_weight (x0 : Vec Ideal S5000x128 .f32) (x1 : Vec Ideal S128x128 .f32) (p : Fin 5000) (q : Fin 128) :
    matmul (φ₁ := .f32) (φ₂ := .f32) dot_S5000x128_S128x128_S5000x128_1_0_0_1_n_n none x0 x1 (constant (F := Ideal) S5000x128 .f32 0x00000000#32) (ix2 p q)
      = ∑ k : Fin 128, x0 (ix2 p k) * x1 (ix2 k q) := by
  rw [dims_plain]
  exact Cert.Lib.PlainDot.matmul_plain_zero_apply none x0 x1 p q

/-- A [1, 128] row, re-cast to its own shape and broadcast over 5000 rows, at (p, q): the row at q. -/
theorem row_over_rows (x2 : Vec Ideal S1x128 .f32) (p : Fin 5000) (q : Fin 128) :
    broadcastTo S5000x128 (shapeCast S1x128 x2 shapeCasts_S1x128_S1x128) broadcasts_S1x128_S5000x128 (ix2 p q)
      = x2 (ix2 (0 : Fin 1) q) := by
  rw [shapeCast_self]
  exact broadcastTo_1b_ab_apply x2 broadcasts_S1x128_S5000x128 p q

/-- The first kernel's stored block at (p, q): row p of the x block against column q of the weight, plus the bias. -/
theorem pay0_apply (x0 : Vec Ideal S5000x128 .f32) (x1 : Vec Ideal S128x128 .f32) (x2 : Vec Ideal S1x128 .f32)
    (p : Fin 5000) (q : Fin 128) :
    k0_pay1 (F := Ideal) x0 x1 x2 (ix2 p q) = (∑ k : Fin 128, x0 (ix2 p k) * x1 (ix2 k q)) + x2 (ix2 (0 : Fin 1) q) := by
  unfold k0_pay1
  show matmul (φ₁ := .f32) (φ₂ := .f32) dot_S5000x128_S128x128_S5000x128_1_0_0_1_n_n none x0 x1 (constant (F := Ideal) S5000x128 .f32 0x00000000#32) (ix2 p q)
      + broadcastTo S5000x128 (shapeCast S1x128 x2 shapeCasts_S1x128_S1x128) broadcasts_S1x128_S5000x128 (ix2 p q) = _
  rw [rows_times_weight, row_over_rows]

end Cert.KernelIdeal.Body

end
-- ==== Proof.KRegion0.lean ====
/-
  The first kernel's result array.  Its grid has 20 points; point t loads rows 5000 t … 5000 t + 4999 of x, the
  whole weight and the bias row, and writes back the same rows of the result.  So, whatever the buffers hold when the
  region is entered, the result array ends as ONE function of the three operand arrays: at (r, q) the sum over k of
  x (r, k) · W (k, q), plus the bias at q.
-/
import proofs.«181917_j74500502716662_2_alg».proof.Proof.Gen.KernelIdeal.Frame
import proofs.«181917_j74500502716662_2_alg».proof.Proof.KBody0

set_option maxRecDepth 16384

noncomputable section

namespace Cert.KernelIdeal.Region

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Body
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- A projection at node r, lane q: row r of x against column q of the weight, plus the bias row at q. -/
def projAt (x : S100000x128.Idx → EReal) (w : S128x128.Idx → EReal) (b : S1x128.Idx → EReal) (r : Fin 100000) (q : Fin 128) : EReal :=
  (∑ k : Fin 128, x (ix2 r k) * w (ix2 k q)) + b (ix2 (0 : Fin 1) q)

/-- The projection as a whole array. -/
def projArr (x : S100000x128.Idx → EReal) (w : S128x128.Idx → EReal) (b : S1x128.Idx → EReal) : S100000x128.Idx → EReal :=
  fun i => projAt x w b ⟨(i 0).val, idx2_lt0 i⟩ ⟨(i 1).val, idx2_lt1 i⟩

theorem projArr_apply (x : S100000x128.Idx → EReal) (w : S128x128.Idx → EReal) (b : S1x128.Idx → EReal) (r : Fin 100000) (q : Fin 128) :
    projArr x w b (ix2 r q) = projAt x w b r q := rfl

/-- The grid has 20 points. -/
theorem t_lt (t : Fin cfg0.N) : t.val < 20 := by have h : cfg0.N = 20 := N_0; have := t.isLt; omega

/-- Row p of point t's block is row 5000 t + p of the array. -/
def rowOf (t : Fin cfg0.N) (p : Fin 5000) : Fin 100000 := ⟨t.val * 5000 + p.val, by have := t_lt t; have := p.isLt; omega⟩

/-- The printed index maps over the grid: the row windows sit at block t, the weight and the bias at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem emb_x (t : Fin cfg0.N) (p : Fin 5000) (k : Fin 128) :
    ((cfg0.win 0).blk t).view.emb (ix2 p k) = ix2 (rowOf t p) k := by
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem emb_w (t : Fin cfg0.N) (k q : Fin 128) :
    ((cfg0.win 1).blk t).view.emb (ix2 k q) = ix2 k q := by
  obtain ⟨-, -, e0, e1, -⟩ := idx_facts t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

theorem emb_b (t : Fin cfg0.N) (q : Fin 128) :
    ((cfg0.win 2).blk t).view.emb (ix2 (0 : Fin 1) q) = ix2 (0 : Fin 1) q := by
  obtain ⟨-, -, -, -, e0, e1, -⟩ := idx_facts t
  funext a; apply Fin.ext
  match a with
  | ⟨0, _⟩ => show win0_2.index t (0 : Fin 2) * 1 + 1 * 0 = 0; omega
  | ⟨1, _⟩ => show win0_2.index t (1 : Fin 2) * 128 + 1 * q.val = q.val; omega

theorem emb_o (t : Fin cfg0.N) (p : Fin 5000) (q : Fin 128) :
    ((cfg0.win 3).blk t).view.emb (ix2 p q) = ix2 (rowOf t p) q := by
  obtain ⟨-, -, -, -, -, -, e0, e1⟩ := idx_facts t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

/-- A stored block at (p, q), when row p of the x block is row r of x and the other two blocks are the whole operands:
    the projection at (r, q). -/
theorem block_eq (X : S100000x128.Idx → EReal) (W : S128x128.Idx → EReal) (B : S1x128.Idx → EReal)
    (x0 : Vec Ideal S5000x128 .f32) (x1 : Vec Ideal S128x128 .f32) (x2 : Vec Ideal S1x128 .f32) (p : Fin 5000) (q : Fin 128)
    (r : Fin 100000) (hx : ∀ k : Fin 128, x0 (ix2 p k) = X (ix2 r k)) (hw : ∀ k : Fin 128, x1 (ix2 k q) = W (ix2 k q))
    (hb : x2 (ix2 (0 : Fin 1) q) = B (ix2 (0 : Fin 1) q)) :
    k0_pay1 (F := Ideal) x0 x1 x2 (ix2 p q) = projAt X W B r q := by
  rw [pay0_apply]
  unfold projAt
  rw [hb]
  exact congrArg (· + _) (Finset.sum_congr rfl fun k _ => by rw [hx k, hw k])

/-- WHAT POINT t WRITES BACK is block t of the projection of the operand arrays as the region finds them. -/
theorem flushed_eq (c : Dev nD) (t : Fin cfg0.N) :
    (dat0 V c).flushed 3 t = ((cfg0.win 3).blk t).view.read (Elt Ideal)
      (projArr (V c main_arg0) (V c main_arg3) (V c main_v0)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (block_eq (V c main_arg0) (V c main_arg3) (V c main_v0) (iblk0 V c 0 t) (iblk0 V c 1 t) (iblk0 V c 2 t) p q (rowOf t p)
    (fun k => congrArg (V c main_arg0) (emb_x t p k)) (fun k => congrArg (V c main_arg3) (emb_w t k q))
    (congrArg (V c main_v0) (emb_b t q))).trans ?_
  exact ((congrArg (projArr (V c main_arg0) (V c main_arg3) (V c main_v0)) (emb_o t p q)).trans (projArr_apply _ _ _ _ _)).symm

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- Every index of the result array is in some point's block. -/
theorem cover (i : S100000x128.Idx) : ∃ t : Fin cfg0.N, (cfg0.win 3).flush t = true ∧ i ∈ ((cfg0.win 3).blk t).view.set := by
  have hN : cfg0.N = 20 := N_0
  have hi0 : (i 0).val < 100000 := idx2_lt0 i
  have hi1 : (i 1).val < 128 := idx2_lt1 i
  let t : Fin cfg0.N := ⟨(i 0).val / 5000, by omega⟩
  have ht : t.val = (i 0).val / 5000 := rfl
  obtain ⟨-, -, -, -, -, -, e0, e1⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE RESULT ARRAY of the first region, from any entry contents: the projection of the three operand arrays. -/
theorem final (c : Dev nD) :
    (dat0 V c).arrAt 3 cfg0.N = projArr (V c main_arg0) (V c main_arg3) (V c main_v0) :=
  (dat0 V c).arrAt_eq_of_cover 3 _ (fun t _ => flushed_eq V c t) cover

end Cert.KernelIdeal.Region

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.KArgs.lean ====
/-
  The argument arrays as the two kernel launches find them.  No host operation before the first launch writes an
  argument (the one operation there lays the projection bias out as a row), and the first launch writes only its
  result array; so when the first region is left each argument still holds its launch contents, the bias row holds
  the bias vector, and the first region's result array holds the projection of x (KRegion0.lean).
-/
import proofs.«181917_j74500502716662_2_alg».proof.Proof.KRegion0
import proofs.«181917_j74500502716662_2_alg».proof.Proof.LibRows
import Idealize.ShloMosaic.Lib.StableHlo.Run

set_option maxRecDepth 16384

noncomputable section

namespace Cert.KernelIdeal.KArgs

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- `main_arg0` when the first region is entered: as launched. -/
theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
/-- `main_arg1` when the first region is entered: as launched. -/
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
/-- `main_arg2` when the first region is entered: as launched. -/
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
/-- `main_arg3` when the first region is entered: as launched. -/
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
/-- `main_arg5` when the first region is entered: as launched. -/
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
/-- `main_arg6` when the first region is entered: as launched. -/
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
/-- `main_arg7` when the first region is entered: as launched. -/
theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
/-- `main_arg8` when the first region is entered: as launched. -/
theorem W1_main_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
/-- `main_arg9` when the first region is entered: as launched. -/
theorem W1_main_arg9 (c : Dev nD) : W1 m ρ c (Proc.devRef .tc main_arg9) = m ((c : Thread nD τ).loc main_arg9) :=
  (StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
/-- `main_arg0` when the first region is left: as launched. -/
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)
/-- `main_arg1` when the first region is left: as launched. -/
theorem W2_main_arg1 (c : Dev nD) : W2 m ρ c (Proc.devRef .tc main_arg1) = m ((c : Thread nD τ).loc main_arg1) :=
  (W2_of_ne m ρ c main_arg1 (by decide)).trans (W1_main_arg1 m ρ c)
/-- `main_arg2` when the first region is left: as launched. -/
theorem W2_main_arg2 (c : Dev nD) : W2 m ρ c (Proc.devRef .tc main_arg2) = m ((c : Thread nD τ).loc main_arg2) :=
  (W2_of_ne m ρ c main_arg2 (by decide)).trans (W1_main_arg2 m ρ c)
/-- `main_arg3` when the first region is left: as launched. -/
theorem W2_main_arg3 (c : Dev nD) : W2 m ρ c (Proc.devRef .tc main_arg3) = m ((c : Thread nD τ).loc main_arg3) :=
  ((W2_arr m ρ c 1).trans (((dat0 (V1 m ρ) c).arrAt_in 1 rfl _).trans (A_eq0 (V1 m ρ) c 1))).trans (W1_main_arg3 m ρ c)
/-- `main_arg5` when the first region is left: as launched. -/
theorem W2_main_arg5 (c : Dev nD) : W2 m ρ c (Proc.devRef .tc main_arg5) = m ((c : Thread nD τ).loc main_arg5) :=
  (W2_of_ne m ρ c main_arg5 (by decide)).trans (W1_main_arg5 m ρ c)
/-- `main_arg6` when the first region is left: as launched. -/
theorem W2_main_arg6 (c : Dev nD) : W2 m ρ c (Proc.devRef .tc main_arg6) = m ((c : Thread nD τ).loc main_arg6) :=
  (W2_of_ne m ρ c main_arg6 (by decide)).trans (W1_main_arg6 m ρ c)
/-- `main_arg7` when the first region is left: as launched. -/
theorem W2_main_arg7 (c : Dev nD) : W2 m ρ c (Proc.devRef .tc main_arg7) = m ((c : Thread nD τ).loc main_arg7) :=
  (W2_of_ne m ρ c main_arg7 (by decide)).trans (W1_main_arg7 m ρ c)
/-- `main_arg8` when the first region is left: as launched. -/
theorem W2_main_arg8 (c : Dev nD) : W2 m ρ c (Proc.devRef .tc main_arg8) = m ((c : Thread nD τ).loc main_arg8) :=
  (W2_of_ne m ρ c main_arg8 (by decide)).trans (W1_main_arg8 m ρ c)
/-- `main_arg9` when the first region is left: as launched. -/
theorem W2_main_arg9 (c : Dev nD) : W2 m ρ c (Proc.devRef .tc main_arg9) = m ((c : Thread nD τ).loc main_arg9) :=
  (W2_of_ne m ρ c main_arg9 (by decide)).trans (W1_main_arg9 m ρ c)

/-- The bias row when the first region is entered, at (0, q): the bias vector at q. -/
theorem W1_bias (c : Dev nD) (q : Fin 128) :
    (W1 m ρ c (Proc.devRef .tc main_v0) : S1x128.Idx → EReal) (ix2 (0 : Fin 1) q)
      = (m ((c : Thread nD τ).loc main_arg4) : S128.Idx → EReal) (ix1 q) := by
  have e : (W1 m ρ c (Proc.devRef .tc main_v0) : S1x128.Idx → EReal)
      = shapeCast S1x128 (m ((c : Thread nD τ).loc main_arg4) : S128.Idx → EReal) shapeCasts_S128_S1x128 := by
    show StableHlo.after hostOps0 _ (Proc.devRef .tc main_v0) = _
    after_results
    rfl
  rw [e]
  exact Cert.Lib.Rows.shapeCast_vec_row_apply _ shapeCasts_S128_S1x128 q

/-- The first region's result array when the region is left: the projection of x by the projection weight and the
    bias row. -/
theorem W2_proj (c : Dev nD) :
    W2 m ρ c (Proc.devRef .tc main_v1)
      = Cert.KernelIdeal.Region.projArr (m ((c : Thread nD τ).loc main_arg0)) (m ((c : Thread nD τ).loc main_arg3))
          (W1 m ρ c (Proc.devRef .tc main_v0)) := by
  refine ((W2_arr m ρ c 3).trans (Cert.KernelIdeal.Region.final (V1 m ρ) c)).trans ?_
  show Cert.KernelIdeal.Region.projArr (W1 m ρ c (Proc.devRef .tc main_arg0)) (W1 m ρ c (Proc.devRef .tc main_arg3))
      (W1 m ρ c (Proc.devRef .tc main_v0)) = _
  rw [W1_main_arg0, W1_main_arg3]

end Cert.KernelIdeal.KArgs

end
-- ==== Proof.Spec.lean ====
/-
  The layer's arithmetic on one node, as functions of extended reals.

  For a node with projection sums r, g (the rate and robustness products), an aggregated message a and a
  degree d, lane by lane:   rate = softplus r + eps,   y = (rate * a + g) / (1 + rate * d + eps),
  and the node's output is the layer normalisation of the row y over its 128 lanes:
  (y - mean) * rsqrt (var + eps') * gamma + beta, mean and var the plain averages over the lanes.
  The softplus is spelt as the programs spell it, max r 0 + log1p (exp (-|r - 0|)) guarded by a test
  r - 0 ≠ r - 0 that no extended real passes; the two programs differ in writing 0 - |r - 0| or -|r - 0|,
  which is one number.
-/
import Idealize.ShloMosaic.PureOps.Ideal.Laws
import Mathlib.Algebra.BigOperators.Fin

noncomputable section

namespace Cert.Layer

open Idealize.ShloMosaic
open scoped BigOperators

/-- The float zero word, as the programs write it. -/
abbrev z : EReal := Ideal.ofBits .f32 0x00000000#32
/-- The rate's and the denominator's epsilon, f32(1e-4). -/
abbrev eps1 : EReal := Ideal.ofBits .f32 0x38D1B717#32
/-- The variance's epsilon, f32(1e-5). -/
abbrev eps2 : EReal := Ideal.ofBits .f32 0x3727C5AC#32
/-- The float one. -/
abbrev one : EReal := Ideal.ofBits .f32 0x3F800000#32
/-- The lane count as a float, 128. -/
abbrev c128 : EReal := Ideal.ofBits .f32 0x43000000#32

theorem z_eq : z = 0 := Ideal.ofBits_zero_f32

/-- softplus, spelt with the difference from zero subtracted from zero. -/
def softplus (r : EReal) : EReal :=
  Scalar.select (Ideal.cmp .one (r - z) (r - z)) (r + z)
    (max r z + Ideal.log1p (Ideal.exp (z - max (r - z) (-(r - z)))))

/-- The same number with the absolute difference negated instead, and the unordered spelling of the test. -/
theorem softplus_neg (r : EReal) :
    Scalar.select (Ideal.cmp .une (r - z) (r - z)) (r + z)
      (max r z + Ideal.log1p (Ideal.exp (-(max (r - z) (-(r - z)))))) = softplus r := by
  unfold softplus
  rw [z_eq, zero_sub]
  rfl

/-- The rate of a lane. -/
def rate (r : EReal) : EReal := softplus r + eps1

/-- The lane's value before normalisation. -/
def pre (rt a g d : EReal) : EReal := Ideal.div (rt * a + g) (one + rt * d + eps1)

/-- The mean of a row of 128 lanes, summed from the zero word. -/
def mean (y : Fin 128 → EReal) : EReal := Ideal.div (z + ∑ k : Fin 128, y k) c128

/-- The variance of a row: the mean of the squared deviations. -/
def var (y : Fin 128 → EReal) : EReal :=
  Ideal.div (z + ∑ k : Fin 128, (y k - mean y) * (y k - mean y)) c128

/-- The layer normalisation of a row at lane q, with that lane's scale and shift. -/
def lnorm (y : Fin 128 → EReal) (ga be : EReal) (q : Fin 128) : EReal :=
  (y q - mean y) * Ideal.rsqrt (var y + eps2) * ga + be

end Cert.Layer

end
-- ==== Proof.LibIdxSums.lean ====
/-
  Sums over the entries of a vector and of a one-row matrix.

  An index of a vector of n entries is its one coordinate, and an index of a matrix [1, n] is its column (the row
  coordinate can only be 0). So a sum over all entries of such an array, in any commutative additive monoid, is the
  sum over the n positions: what a total sum of an array of shape [n] or [1, n] comes to, entry by entry.
-/
import Idealize.ShloMosaic.Lib.ValueIdx
import Mathlib.Algebra.BigOperators.Fin

noncomputable section

namespace Cert.Lib.IdxSums

open Idealize.ShloMosaic Idealize.ShloMosaic.ValueIdx
open scoped BigOperators

/-- A sum over the indices of a vector of n entries is the sum over its n positions. -/
theorem sum_idx1 {M : Type*} [AddCommMonoid M] {n : Nat} (f : (⟨1, ![n]⟩ : Shape).Idx → M) :
    ∑ j, f j = ∑ e : Fin n, f (ix1 e) :=
  Fintype.sum_equiv ⟨fun j => j 0, ix1, fun j => (eq_ix1 j).symm, fun _ => rfl⟩ f (fun e => f (ix1 e))
    (fun j => congrArg f (eq_ix1 j))

/-- A sum over the indices of a one-row matrix of n entries is the sum over its n columns. -/
theorem sum_row {M : Type*} [AddCommMonoid M] {n : Nat} (f : (⟨2, ![1, n]⟩ : Shape).Idx → M) :
    ∑ i, f i = ∑ e : Fin n, f (ix2 (0 : Fin 1) e) := by
  rw [sum_idx2, Fin.sum_univ_one]

end Cert.Lib.IdxSums

end
-- ==== Proof.LibScatterAdd.lean ====
/-
  The host's accumulating scatter (a segment sum) read at an index, at the ideal values.

  For an operand of N entries, a column of scatter indices `idx : [E, 1]` and E updates, the scatter with
  inserted window axis 0, scatter-dims-to-operand-dims [0] and index-vector axis 1 adds update e into the
  entry that the index word `idx[e, 0]`, read signed, names; an update whose word names no entry (negative,
  or N and beyond) is dropped — a scatter does not clamp.  At the ideal values the result at entry i is the
  operand's entry plus the plain sum, over all e, of the updates whose word names i: no order of addition is
  left in it.  The row form does the same for an [N, C] operand and [E, C] updates (update window axis 1):
  row e of the updates is added into the row its word names, lane by lane.
-/
import Idealize.ShloMosaic.Lib.ValueIdx
import Idealize.ShloMosaic.PureOps.Ideal
import Mathlib.Algebra.BigOperators.Fin
import proofs.«181917_j74500502716662_2_alg».proof.Proof.LibIdxSums

noncomputable section

namespace Cert.Lib.ScatterAdd

open Idealize.ShloMosaic Idealize.ShloMosaic.ValueIdx
open scoped BigOperators

/-- The dimension numbers of an entry scatter into a vector [N] at scatter indices [E, 1] of updates [E]; their
    conditions `wf` are decided on a program's literal shapes. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The dimension numbers of a row scatter into a table [N, C] at scatter indices [E, 1] of updates [E, C]. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

/-- Update e of an entry scatter lands at the position its index word, read signed, names. -/
theorem vec_landing (idx : IVec ⟨2, ![E, 1]⟩ w) (e : Fin E) (a : Fin 1) :
    (vecDims N E wf).start (ix1 e) idx a + ((vecDims N E wf).window (ix1 e) a : Int)
      = (idx (ix2 e (0 : Fin 1))).toInt := by
  obtain rfl : a = 0 := Subsingleton.elim _ _
  have h1 : (vecDims N E wf).start (ix1 e) idx 0 = (idx (ix2 e (0 : Fin 1))).toInt := by
    unfold ScatterDims.start
    rw [dif_pos (show (0 : Fin 1) ∈ (vecDims N E wf).scatterDimsToOperandDims from List.mem_singleton.mpr rfl)]
    have hsi : (vecDims N E wf).siIdx (ix1 e) ⟨List.idxOf (0 : Fin 1) (vecDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have h2 : (vecDims N E wf).window (ix1 e) 0 = 0 := by
    unfold ScatterDims.window
    rw [dif_neg (fun h => by simp [Shape.kept] at h)]
  rw [h1, h2]; simp

/-- Update e lands on entry i exactly when its index word, read signed, is i. -/
theorem vec_resultIdx_iff (idx : IVec ⟨2, ![E, 1]⟩ w) (e : Fin E) (i : (⟨1, ![N]⟩ : Shape).Idx) :
    (vecDims N E wf).resultIdx? (ix1 e) idx = some i ↔ (idx (ix2 e (0 : Fin 1))).toInt = ((i 0).val : Int) := by
  unfold ScatterDims.resultIdx?
  split
  · next h =>
    rw [Option.some.injEq]
    constructor
    · intro hf
      have h0 := congrArg (fun g : (⟨1, ![N]⟩ : Shape).Idx => (g 0).val) hf
      simp only at h0
      have hl := vec_landing wf idx e 0
      have hp := (h 0).1
      rw [hl] at h0 hp
      omega
    · intro hv
      funext a
      obtain rfl : a = 0 := Subsingleton.elim _ _
      refine Fin.ext ?_
      show ((vecDims N E wf).start (ix1 e) idx 0 + ((vecDims N E wf).window (ix1 e) 0 : Int)).toNat = (i 0).val
      rw [vec_landing wf idx e 0, hv]; simp
  · next h =>
    constructor
    · intro hf; cases hf
    · intro hv
      exfalso; apply h
      intro a
      obtain rfl : a = 0 := Subsingleton.elim _ _
      rw [vec_landing wf idx e 0, hv]
      exact ⟨Int.natCast_nonneg _, by exact_mod_cast (i 0).isLt⟩

/-- THE ENTRY SCATTER-ADD READ AT i: the operand's entry plus the sum of the updates whose word names i. -/
theorem scatterAdd_vec_apply {φ : FTy} (x : FVec Ideal ⟨1, ![N]⟩ φ) (idx : IVec ⟨2, ![E, 1]⟩ w)
    (upd : FVec Ideal ⟨1, ![E]⟩ φ) (i : (⟨1, ![N]⟩ : Shape).Idx) :
    (Host.scatterAdd (vecDims N E wf) x idx upd i : EReal)
      = x i + ∑ e : Fin E, if (idx (ix2 e (0 : Fin 1))).toInt = ((i 0).val : Int) then (upd (ix1 e) : EReal) else 0 := by
  show Ideal.hostScatterAdd (vecDims N E wf) x idx upd i = _
  unfold Ideal.hostScatterAdd
  congr 1
  rw [Finset.sum_filter]
  rw [Cert.Lib.IdxSums.sum_idx1]
  refine Finset.sum_congr rfl fun e _ => ?_
  simp only [vec_resultIdx_iff wf idx e i]

end Vec

section Row
variable {N E C w : Nat} (wf : ScatterDims.WF ⟨2, ![N, C]⟩ ⟨2, ![E, 1]⟩ ⟨2, ![E, C]⟩ [1] [0] [0] 1)

/-- Row e of the updates lands in the row its index word, read signed, names… -/
theorem row_landing0 (idx : IVec ⟨2, ![E, 1]⟩ w) (e : Fin E) (q : Fin C) :
    (rowDims N E C wf).start (ix2 e q) idx 0 + ((rowDims N E C wf).window (ix2 e q) 0 : Int)
      = (idx (ix2 e (0 : Fin 1))).toInt := by
  have h1 : (rowDims N E C wf).start (ix2 e q) idx 0 = (idx (ix2 e (0 : Fin 1))).toInt := by
    unfold ScatterDims.start
    rw [dif_pos (show (0 : Fin 2) ∈ (rowDims N E C wf).scatterDimsToOperandDims from List.mem_singleton.mpr rfl)]
    have hsi : (rowDims N E C wf).siIdx (ix2 e q) ⟨List.idxOf (0 : Fin 2) (rowDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have h2 : (rowDims N E C wf).window (ix2 e q) 0 = 0 := by
    unfold ScatterDims.window
    rw [dif_neg (fun h => by simp [Shape.kept] at h)]
  rw [h1, h2]; simp

/-- …lane for lane. -/
theorem row_landing1 (idx : IVec ⟨2, ![E, 1]⟩ w) (e : Fin E) (q : Fin C) :
    (rowDims N E C wf).start (ix2 e q) idx 1 + ((rowDims N E C wf).window (ix2 e q) 1 : Int) = (q.val : Int) := by
  have h1 : (rowDims N E C wf).start (ix2 e q) idx 1 = 0 := by
    unfold ScatterDims.start
    rw [dif_neg (fun h => absurd (show (1 : Nat) = 0 from congrArg Fin.val (List.mem_singleton.mp h)) Nat.one_ne_zero)]
  have h2 : (rowDims N E C wf).window (ix2 e q) 1 = q.val := by
    unfold ScatterDims.window
    rw [dif_pos (show (1 : Fin 2) ∈ (rowDims N E C wf).sKept by simp [Shape.kept])]
    rfl
  rw [h1, h2]; simp

/-- Update (e, q) lands on entry (r, c) exactly when its row's index word, read signed, is r and q = c. -/
theorem row_resultIdx_iff (idx : IVec ⟨2, ![E, 1]⟩ w) (e : Fin E) (q : Fin C) (r : Fin N) (c : Fin C) :
    (rowDims N E C wf).resultIdx? (ix2 e q) idx = some (ix2 r c)
      ↔ (idx (ix2 e (0 : Fin 1))).toInt = (r.val : Int) ∧ q = c := by
  unfold ScatterDims.resultIdx?
  split
  · next h =>
    rw [Option.some.injEq]
    constructor
    · intro hf
      have h0 := congrArg (fun g : (⟨2, ![N, C]⟩ : Shape).Idx => (g 0).val) hf
      have h1 := congrArg (fun g : (⟨2, ![N, C]⟩ : Shape).Idx => (g 1).val) hf
      simp only at h0 h1
      have hp := (h 0).1
      rw [row_landing0 wf idx e q] at h0 hp
      rw [row_landing1 wf idx e q] at h1
      refine ⟨?_, Fin.ext ?_⟩
      · change ((idx (ix2 e (0 : Fin 1))).toInt).toNat = r.val at h0
        omega
      · change ((q.val : Int)).toNat = c.val at h1
        omega
    · rintro ⟨hv, rfl⟩
      funext a
      refine Fin.ext ?_
      match a with
      | ⟨0, _⟩ =>
        show ((rowDims N E C wf).start (ix2 e q) idx 0 + ((rowDims N E C wf).window (ix2 e q) 0 : Int)).toNat = r.val
        rw [row_landing0 wf idx e q, hv]; simp
      | ⟨1, _⟩ =>
        show ((rowDims N E C wf).start (ix2 e q) idx 1 + ((rowDims N E C wf).window (ix2 e q) 1 : Int)).toNat = q.val
        rw [row_landing1 wf idx e q]; simp
  · next h =>
    constructor
    · intro hf; cases hf
    · rintro ⟨hv, rfl⟩
      exfalso; apply h
      intro a
      match a with
      | ⟨0, _⟩ =>
        show 0 ≤ (rowDims N E C wf).start (ix2 e q) idx 0 + ((rowDims N E C wf).window (ix2 e q) 0 : Int)
          ∧ (rowDims N E C wf).start (ix2 e q) idx 0 + ((rowDims N E C wf).window (ix2 e q) 0 : Int) < (N : Int)
        rw [row_landing0 wf idx e q, hv]
        exact ⟨Int.natCast_nonneg _, by exact_mod_cast r.isLt⟩
      | ⟨1, _⟩ =>
        show 0 ≤ (rowDims N E C wf).start (ix2 e q) idx 1 + ((rowDims N E C wf).window (ix2 e q) 1 : Int)
          ∧ (rowDims N E C wf).start (ix2 e q) idx 1 + ((rowDims N E C wf).window (ix2 e q) 1 : Int) < (C : Int)
        rw [row_landing1 wf idx e q]
        exact ⟨Int.natCast_nonneg _, by exact_mod_cast q.isLt⟩

/-- THE ROW SCATTER-ADD READ AT (r, c): the operand's entry plus the sum, over the update rows whose word names
    row r, of their lane c. -/
theorem scatterAdd_rows_apply {φ : FTy} (x : FVec Ideal ⟨2, ![N, C]⟩ φ) (idx : IVec ⟨2, ![E, 1]⟩ w)
    (upd : FVec Ideal ⟨2, ![E, C]⟩ φ) (r : Fin N) (c : Fin C) :
    (Host.scatterAdd (rowDims N E C wf) x idx upd (ix2 r c) : EReal)
      = x (ix2 r c)
        + ∑ e : Fin E, if (idx (ix2 e (0 : Fin 1))).toInt = (r.val : Int) then (upd (ix2 e c) : EReal) else 0 := by
  show Ideal.hostScatterAdd (rowDims N E C wf) x idx upd (ix2 r c) = _
  unfold Ideal.hostScatterAdd
  congr 1
  rw [Finset.sum_filter, sum_idx2]
  refine Finset.sum_congr rfl fun e _ => ?_
  simp only [row_resultIdx_iff wf idx e _ r c]
  by_cases hv : (idx (ix2 e (0 : Fin 1))).toInt = (r.val : Int)
  · simp only [hv, true_and, if_true]
    rw [Finset.sum_ite_eq' Finset.univ c (fun q => (upd (ix2 e q) : EReal))]
    simp
  · simp only [hv, false_and, if_false, Finset.sum_const_zero]

end Row

end Cert.Lib.ScatterAdd

end
-- ==== Proof.LibRowGather.lean ====
/-
  Gathering whole rows of a table.  For a table `x : [N, C]` and a column of start indices `idx : [E, 1]`,
  the gather with offset axis 1, collapsed axis 0, start-index map [0], index-vector axis 1 and slices of one
  row ([1, C]) reads, at result index (e, j), the table at row `idx[e, 0]` — the index word read signed and
  clamped into [0, N - 1], as every gather clamps its start indices — and column j.  This is what `x[idx]`
  of a two-axis table at a flat integer array lowers to.
-/
import Idealize.ShloMosaic.Lib.ValueIdx

noncomputable section

namespace Idealize.ShloMosaic.RowGather

open Idealize.ShloMosaic Idealize.ShloMosaic.ValueIdx

variable {α : Type}

/-- The dimension numbers of a row gather from a table [N, C] at start indices [E, 1] into [E, C]; their
    conditions `wf` are decided on a program's literal shapes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word names in a table of `N` rows: the word read signed, clamped into [0, N - 1]. -/
def clampRow (N : Nat) (hN : 0 < N) {w : Nat} (v : BitVec w) : Fin N :=
  ⟨min v.toInt.toNat (N - 1), by omega⟩

/-- THE ROW GATHER READ AT (e, j): the table at the clamped row `idx[e, 0]` and column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j)
      = x (ix2 (clampRow N hN (idx (ix2 e (0 : Fin 1)))) j) := by
  unfold Host.gather
  congr 1
  funext a
  refine Fin.ext ?_
  match a with
  | ⟨0, _⟩ =>
    show (rowDims N E C wf).start (ix2 e j) idx 0 + (rowDims N E C wf).batchCoord (ix2 e j) 0
      + (rowDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e j) idx 1 + (rowDims N E C wf).batchCoord (ix2 e j) 1
      + (rowDims N E C wf).offCoord (ix2 e j) 1 = j.val
    rw [GatherDims.batchCoord_eq_zero _ _ _ List.not_mem_nil]
    unfold GatherDims.start
    rw [dif_neg (show (1 : Fin 2) ∉ (rowDims N E C wf).startIndexMap from
      fun h => absurd (show (1 : Nat) = 0 from congrArg Fin.val (List.mem_singleton.mp h)) Nat.one_ne_zero)]
    unfold GatherDims.offCoord
    rw [dif_pos (show (1 : Fin 2) ∈ (rowDims N E C wf).sKept from (GatherDims.mem_sKept _ _).mpr
      ⟨fun h => absurd (show (1 : Nat) = 0 from congrArg Fin.val (List.mem_singleton.mp h)) Nat.one_ne_zero, List.not_mem_nil⟩)]
    simp only [Nat.zero_add]
    rfl

end Idealize.ShloMosaic.RowGather

end
-- ==== Proof.LibVecGather.lean ====
/-
  Gathering single entries of a vector.  For a vector `x : [N]` and a column of start indices `idx : [E, 1]`,
  the gather with no offset axis, collapsed axis 0, start-index map [0], index-vector axis 1 and slices of one
  entry ([1]) reads, at result index e, the vector at `idx[e, 0]` — the index word read signed and clamped into
  [0, N - 1], as every gather clamps its start indices.  This is what `x[idx]` of a one-axis array at a flat
  integer array lowers to; the clamped entry is the same `clampRow` a row gather of an [N, C] table takes.
-/
import proofs.«181917_j74500502716662_2_alg».proof.Proof.LibRowGather

noncomputable section

namespace Idealize.ShloMosaic.VecGather

open Idealize.ShloMosaic Idealize.ShloMosaic.ValueIdx Idealize.ShloMosaic.RowGather

variable {α : Type}

/-- The dimension numbers of an entry gather from a vector [N] at start indices [E, 1] into [E]; their
    conditions `wf` are decided on a program's literal shapes. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT e: the vector at the clamped entry `idx[e, 0]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (clampRow N hN (idx (ix2 e (0 : Fin 1))))) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Idealize.ShloMosaic.VecGather

end
-- ==== Proof.LibHostColumns.lean ====
/-
  A per-row value spread over the lanes by the host.  The host turns a vector [a] into the column [a, 1] by a
  broadcast onto axis 0, and spreads the column over b lanes by a broadcast onto axes 0 and 1.  Read at an
  index, the column at (i, 0) is the vector at i, and the spread array at (p, c) is the column at (p, 0): every
  lane of row p sees row p's value.  General facts, for any extents and entry type.
-/
import Idealize.ShloMosaic.Lib.Pipeline.Value
import Idealize.ShloMosaic.Lib.ValueIdx

noncomputable section

namespace Cert.Lib.HostColumns

open Idealize.ShloMosaic Idealize.ShloMosaic.ValueIdx

variable {α : Type}

/-- A vector [a] broadcast onto axis 0 of the column [a, 1] reads, at (i, u), the vector at i. -/
theorem bcast_vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply (![0] : Fin 1 → Fin 2) h x (ix2 i u) (ix1 i) (fun ax => ?_)
  match ax with
  | ⟨0, _⟩ =>
    show i.val = if a = 1 then 0 else i.val
    split
    · have := i.isLt; omega
    · rfl

/-- A column [a, 1] broadcast onto axes 0, 1 of [a, b] reads, at (p, c), the column at row p. -/
theorem bcast_col_lanes_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) (u : Fin 1) :
    broadcastInDim ⟨2, ![a, b]⟩ (![0, 1] : Fin 2 → Fin 2) h v (ix2 p c) = v (ix2 p u) := by
  refine broadcastInDim_apply (![0, 1] : Fin 2 → Fin 2) h v (ix2 p c) (ix2 p u) (fun ax => ?_)
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.HostColumns

end
-- ==== Proof.LibRowBroadcast.lean ====
/-
  The host's broadcasts of a row and of a scalar, read at an index, generic in the extents.

  A row [1, C] broadcast onto axes 0, 1 of [R, C] reads, at (r, c), the row at (0, c): the same bias is
  added to every row.  A scalar broadcast to any shape reads the scalar everywhere.
-/
import Idealize.ShloMosaic.Lib.ValueIdx
import Idealize.ShloMosaic.Lib.Pipeline.Value

noncomputable section

namespace Cert.Lib.RowBroadcast

open Idealize.ShloMosaic Idealize.ShloMosaic.ValueIdx

variable {α : Type}

/-- A row [1, C] broadcast onto axes 0, 1 of [R, C], read at (r, c), is the row at (0, c). -/
theorem broadcastInDim_row_apply {R C : Nat} (x : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim ⟨2, ![R, C]⟩ (![0, 1] : Fin 2 → Fin 2) h x (ix2 r c) = x (ix2 0 c) :=
  broadcastInDim_apply (![0, 1] : Fin 2 → Fin 2) h x (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A scalar broadcast to any shape reads the scalar at every index. -/
theorem broadcastInDim_scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply (![] : Fin 0 → Fin t.rank) h x j k (fun a => a.elim0)

end Cert.Lib.RowBroadcast

end
-- ==== Proof.LibGraphOps.lean ====
/-
  The host operations of a message-passing layer read at an index, for any extents.

  A graph layer on the host is built from a handful of composite steps, and each of them, read at an index, is a
  plain expression of its operands at indices:
    · a row of the [2, E] edge list, sliced out and flattened, at e is the edge list at (row, e);
    · jnp's indexing first wraps a negative index word around (w < 0 ↦ w + n), then a gather clamps it;
    · a per-edge value [M] made a column [M, 1] and spread over C lanes reads, at (e, c), the value at e;
    · a segment sum of constant updates into a constant array (the degree count) at i is the constant plus the
      sum, over the edges whose index word names i, of the update constant;
    · a segment sum of rows into a constant array (the aggregation) at (r, c) is the constant plus the sum,
      over the edges whose index word names r, of lane c of the edge's row;
    · the "where(d > 0, rsqrt(max(d, eps)), 0)" chain at i is one scalar function of d at i.
  The sums are exact sums on the extended reals: nothing depends on the order of the edges.
-/
import Idealize.ShloMosaic.Lib.ValueIdx
import Idealize.ShloMosaic.Lib.Pipeline.Value
import Idealize.ShloMosaic.PureOps.Ideal.Laws
import proofs.«181917_j74500502716662_2_alg».proof.Proof.LibScatterAdd
import proofs.«181917_j74500502716662_2_alg».proof.Proof.LibVecGather
import proofs.«181917_j74500502716662_2_alg».proof.Proof.LibHostColumns
import proofs.«181917_j74500502716662_2_alg».proof.Proof.LibRowBroadcast
import proofs.«181917_j74500502716662_2_alg».proof.Proof.LibRows

noncomputable section

namespace Cert.Lib.GraphOps

open Idealize.ShloMosaic Idealize.ShloMosaic.ValueIdx Idealize.ShloMosaic.RowGather
open Cert.Lib.HostColumns Cert.Lib.RowBroadcast Cert.Lib.ScatterAdd
open scoped BigOperators

/-- jnp's index normalisation on one word: a negative index counts from the end of an axis of extent n. -/
def wrapIdx (n : Nat) (v : BitVec 32) : BitVec 32 :=
  Scalar.select (IntOp.cmpi .slt v 0#32) (IntOp.addi v (BitVec.ofNat 32 n)) v

/-- The inverse square root of a degree, guarded as the layer guards it: 0 unless the degree is positive. -/
def invSqrtDeg (d : EReal) : EReal :=
  Scalar.select (FloatOps.cmpf (F := Ideal) (φ := .f32) .ogt d (Ideal.ofBits .f32 0x00000000#32))
    (FloatOps.hostUnary (F := Ideal) (φ := .f32) .rsqrt (FloatOps.maximumf (F := Ideal) (φ := .f32) d (Ideal.ofBits .f32 0x2B8CBCCC#32)))
    (Ideal.ofBits .f32 0x00000000#32)

section
variable {α : Type}

/-- Row o of the [2, E] edge list, sliced out as [1, E] and flattened to [E], at e: the edge list at (o, e). -/
theorem edge_row_apply {E : Nat} (o : Nat) (ho : o < 2) (x : (⟨2, ![2, E]⟩ : Shape).Idx → α)
    (hs : (⟨2, ![2, E]⟩ : Shape).Slices ![o, 0] ⟨2, ![1, E]⟩) (hc : (⟨2, ![1, E]⟩ : Shape).ShapeCasts ⟨1, ![E]⟩) (e : Fin E) :
    shapeCast ⟨1, ![E]⟩ (extractStridedSlice ⟨2, ![1, E]⟩ ![o, 0] x hs) hc (ix1 e) = x (ix2 (⟨o, ho⟩ : Fin 2) e) := by
  rw [shapeCast_apply _ hc (ix1 e) (ix2 (0 : Fin 1) e) (by
    rewrite [Shape.rowMajor_val_two, Shape.rowMajor_val_one]; show 0 * E + e.val = e.val; omega)]
  rw [Cert.Lib.Rows.slice_rows_apply x hs 0 e (by show o + 0 < 2; omega)]
  rfl

/-- A per-edge value made a column and spread over the lanes reads, at (e, c), the value at e. -/
theorem spread_apply {M C : Nat} (v : (⟨1, ![M]⟩ : Shape).Idx → α)
    (h1 : (⟨1, ![M]⟩ : Shape).BroadcastsInDim ⟨2, ![M, 1]⟩ (![0] : Fin 1 → Fin 2))
    (h2 : (⟨2, ![M, 1]⟩ : Shape).BroadcastsInDim ⟨2, ![M, C]⟩ (![0, 1] : Fin 2 → Fin 2)) (e : Fin M) (c : Fin C) :
    broadcastInDim ⟨2, ![M, C]⟩ (![0, 1] : Fin 2 → Fin 2) h2 (broadcastInDim ⟨2, ![M, 1]⟩ (![0] : Fin 1 → Fin 2) h1 v) (ix2 e c)
      = v (ix1 e) := by
  rw [bcast_col_lanes_apply _ h2 e c 0, bcast_vec_col_apply v h1 e 0]
end

/-- The wrapped index words as a column [M, 1], at (e, 0): the word at e, wrapped. -/
theorem wrapped_col_apply {M : Nat} (n : Nat) (w : IVec ⟨1, ![M]⟩ 32)
    (h0 : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2)) (e : Fin M) :
    broadcastInDim ⟨2, ![M, 1]⟩ (![0] : Fin 1 → Fin 2) h1
        (select (cmpi .slt w (broadcastInDim ⟨1, ![M]⟩ (![] : Fin 0 → Fin 1) h0 (constantI ⟨0, ![]⟩ 32 0#32)))
          (addi w (broadcastInDim ⟨1, ![M]⟩ (![] : Fin 0 → Fin 1) h0 (constantI ⟨0, ![]⟩ 32 (BitVec.ofNat 32 n)))) w)
        (ix2 e (0 : Fin 1))
      = wrapIdx n (w (ix1 e)) := by
  rw [bcast_vec_col_apply _ h1 e 0]
  show Scalar.select (IntOp.cmpi .slt (w (ix1 e))
        (broadcastInDim ⟨1, ![M]⟩ (![] : Fin 0 → Fin 1) h0 (constantI ⟨0, ![]⟩ 32 0#32) (ix1 e)))
      (IntOp.addi (w (ix1 e))
        (broadcastInDim ⟨1, ![M]⟩ (![] : Fin 0 → Fin 1) h0 (constantI ⟨0, ![]⟩ 32 (BitVec.ofNat 32 n)) (ix1 e)))
      (w (ix1 e)) = _
  rw [broadcastInDim_scalar_apply (constantI ⟨0, ![]⟩ 32 0#32) h0 (ix1 e) ix0,
    broadcastInDim_scalar_apply (constantI ⟨0, ![]⟩ 32 (BitVec.ofNat 32 n)) h0 (ix1 e) ix0]
  rfl

/-- THE DEGREE COUNT: a segment sum of the constant `ow` per edge into the constant `zw`, at node i. -/
theorem count_apply {N M : Nat} (wf : ScatterDims.WF ⟨1, ![N]⟩ ⟨2, ![M, 1]⟩ ⟨1, ![M]⟩ [] [0] [0] 1)
    (h0N : (⟨0, ![]⟩ : Shape).BroadcastsInDim ⟨1, ![N]⟩ (![] : Fin 0 → Fin 1))
    (h0M : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (w : IVec ⟨1, ![M]⟩ 32) (zw ow : BitVec 32) (i : Fin N) :
    (Host.scatterAdd (vecDims N M wf)
        (broadcastInDim ⟨1, ![N]⟩ (![] : Fin 0 → Fin 1) h0N (constant (F := Ideal) ⟨0, ![]⟩ .f32 zw))
        (broadcastInDim ⟨2, ![M, 1]⟩ (![0] : Fin 1 → Fin 2) h1 w)
        (broadcastInDim ⟨1, ![M]⟩ (![] : Fin 0 → Fin 1) h0M (constant (F := Ideal) ⟨0, ![]⟩ .f32 ow)) (ix1 i) : EReal)
      = Ideal.ofBits .f32 zw + ∑ e : Fin M, if (w (ix1 e)).toInt = (i.val : Int) then Ideal.ofBits .f32 ow else 0 := by
  rw [scatterAdd_vec_apply wf]
  rw [broadcastInDim_scalar_apply (constant (F := Ideal) ⟨0, ![]⟩ .f32 zw) h0N (ix1 i) ix0]
  refine congrArg₂ (fun a b : EReal => a + b) rfl (Finset.sum_congr rfl fun e _ => ?_)
  rw [bcast_vec_col_apply w h1 e 0,
    broadcastInDim_scalar_apply (constant (F := Ideal) ⟨0, ![]⟩ .f32 ow) h0M (ix1 e) ix0]
  rfl

/-- THE AGGREGATION: a segment sum of per-edge rows into the constant `zw`, at (r, c). -/
theorem aggregate_apply {N M C : Nat} (wf : ScatterDims.WF ⟨2, ![N, C]⟩ ⟨2, ![M, 1]⟩ ⟨2, ![M, C]⟩ [1] [0] [0] 1)
    (h0 : (⟨0, ![]⟩ : Shape).BroadcastsInDim ⟨2, ![N, C]⟩ (![] : Fin 0 → Fin 2))
    (h1 : (⟨1, ![M]⟩ : Shape).BroadcastsInDim ⟨2, ![M, 1]⟩ (![0] : Fin 1 → Fin 2))
    (w : IVec ⟨1, ![M]⟩ 32) (upd : FVec Ideal ⟨2, ![M, C]⟩ .f32) (zw : BitVec 32) (r : Fin N) (c : Fin C) :
    (Host.scatterAdd (rowDims N M C wf)
        (broadcastInDim ⟨2, ![N, C]⟩ (![] : Fin 0 → Fin 2) h0 (constant (F := Ideal) ⟨0, ![]⟩ .f32 zw))
        (broadcastInDim ⟨2, ![M, 1]⟩ (![0] : Fin 1 → Fin 2) h1 w) upd (ix2 r c) : EReal)
      = Ideal.ofBits .f32 zw + ∑ e : Fin M, if (w (ix1 e)).toInt = (r.val : Int) then (upd (ix2 e c) : EReal) else 0 := by
  rw [scatterAdd_rows_apply wf]
  rw [broadcastInDim_scalar_apply (constant (F := Ideal) ⟨0, ![]⟩ .f32 zw) h0 (ix2 r c) ix0]
  refine congrArg₂ (fun a b : EReal => a + b) rfl (Finset.sum_congr rfl fun e _ => ?_)
  rw [bcast_vec_col_apply w h1 e 0]

/-- The guarded inverse square root of the degrees, at node i: `invSqrtDeg` of the degree at i. -/
theorem invSqrtDeg_apply {N : Nat} (h0 : (⟨0, ![]⟩ : Shape).BroadcastsInDim ⟨1, ![N]⟩ (![] : Fin 0 → Fin 1))
    (d : FVec Ideal ⟨1, ![N]⟩ .f32) (i : Fin N) :
    (select (cmpf .ogt d (broadcastInDim ⟨1, ![N]⟩ (![] : Fin 0 → Fin 1) h0 (constant (F := Ideal) ⟨0, ![]⟩ .f32 0x00000000#32)))
        (Host.rsqrt (maximumf d (broadcastInDim ⟨1, ![N]⟩ (![] : Fin 0 → Fin 1) h0 (constant (F := Ideal) ⟨0, ![]⟩ .f32 0x2B8CBCCC#32))))
        (broadcastInDim ⟨1, ![N]⟩ (![] : Fin 0 → Fin 1) h0 (constant (F := Ideal) ⟨0, ![]⟩ .f32 0x00000000#32)) (ix1 i) : EReal)
      = invSqrtDeg (d (ix1 i)) := by
  show Scalar.select (FloatOps.cmpf .ogt (d (ix1 i))
        (broadcastInDim ⟨1, ![N]⟩ (![] : Fin 0 → Fin 1) h0 (constant (F := Ideal) ⟨0, ![]⟩ .f32 0x00000000#32) (ix1 i)))
      (FloatOps.hostUnary .rsqrt (FloatOps.maximumf (d (ix1 i))
        (broadcastInDim ⟨1, ![N]⟩ (![] : Fin 0 → Fin 1) h0 (constant (F := Ideal) ⟨0, ![]⟩ .f32 0x2B8CBCCC#32) (ix1 i))))
      (broadcastInDim ⟨1, ![N]⟩ (![] : Fin 0 → Fin 1) h0 (constant (F := Ideal) ⟨0, ![]⟩ .f32 0x00000000#32) (ix1 i)) = _
  rw [broadcastInDim_scalar_apply (constant (F := Ideal) ⟨0, ![]⟩ .f32 0x00000000#32) h0 (ix1 i) ix0,
    broadcastInDim_scalar_apply (constant (F := Ideal) ⟨0, ![]⟩ .f32 0x2B8CBCCC#32) h0 (ix1 i) ix0]
  rfl

end Cert.Lib.GraphOps

end
-- ==== Proof.GraphSpec.lean ====
/-
  The graph side of the layer, as functions of the edge list.

  The edge list is a [2, E] array of index words: row 0 holds each edge's destination, row 1 its source.  An edge e
  contributes to node r when its destination word, read signed, is r (a word that names no node contributes nowhere).
  The source row that edge e gathers is its source word wrapped around when negative and then clamped into the table.
  The kernel's program aggregates, for node r, the gathered source rows (`aggSrc`) and counts the contributing edges
  (`count`); the reference aggregates the sum of the gathered destination row and the gathered source row (`aggBoth`).
-/
import proofs.«181917_j74500502716662_2_alg».proof.Proof.Spec
import proofs.«181917_j74500502716662_2_alg».proof.Proof.LibGraphOps

noncomputable section

namespace Cert.Layer

open Idealize.ShloMosaic Idealize.ShloMosaic.ValueIdx Idealize.ShloMosaic.RowGather
open scoped BigOperators

/-- The edge list's shape, [2, 800000], the node table's, [100000, 128], and the degree vector's, [100000]. -/
abbrev SE : Shape := ⟨2, ![2, 800000]⟩
abbrev SN : Shape := ⟨2, ![100000, 128]⟩
abbrev SD : Shape := ⟨1, ![100000]⟩

/-- The table row an index word gathers: wrapped around if negative, then clamped into [0, 99999]. -/
def srcRow (w : BitVec 32) : Fin 100000 := clampRow 100000 (by decide) (Cert.Lib.GraphOps.wrapIdx 100000 w)

/-- The aggregation of the gathered source rows into node r, lane q. -/
def aggSrc (H : SN.Idx → EReal) (ei : IVec SE 32) (r : Fin 100000) (q : Fin 128) : EReal :=
  z + ∑ e : Fin 800000, if (ei (ix2 (0 : Fin 2) e)).toInt = (r.val : Int) then H (ix2 (srcRow (ei (ix2 (1 : Fin 2) e))) q) else 0

/-- The number of edges into node r, as a sum of float ones. -/
def count (ei : IVec SE 32) (r : Fin 100000) : EReal :=
  z + ∑ e : Fin 800000, if (ei (ix2 (0 : Fin 2) e)).toInt = (r.val : Int) then one else 0

/-- The aggregation of destination row plus source row into node r, lane q. -/
def aggBoth (H : SN.Idx → EReal) (ei : IVec SE 32) (r : Fin 100000) (q : Fin 128) : EReal :=
  z + ∑ e : Fin 800000, if (ei (ix2 (0 : Fin 2) e)).toInt = (r.val : Int)
    then H (ix2 (srcRow (ei (ix2 (0 : Fin 2) e))) q) + H (ix2 (srcRow (ei (ix2 (1 : Fin 2) e))) q) else 0

/-- A node's degree as a float: the degree word read signed. -/
def degree (dg : IVec SD 32) (r : Fin 100000) : EReal := (((dg (ix1 r)).toInt : ℝ) : EReal)

end Cert.Layer

end
-- ==== Proof.KHost.lean ====
/-
  The host operations between the kernel program's two launches, read at an index.

  Between the launches the program prepares, on the host, what the second launch reads: three parameter rows
  reshaped from [128] to [1, 128]; the aggregation of the gathered source rows of the first launch's result
  (the source words of the edge list wrapped around when negative, made a column, gathered, and added into a
  table of zeros at the rows the destination words name); and a two-column block of statistics per node, the
  count of the edges into the node (a sum of float ones) beside the node's degree word as a float.
  Each of these is stated for an arbitrary valuation of the buffers before the operations: what a buffer
  holds after them is the operations' term over the earlier contents, and that term read at an index is the
  graph-side function of the same name.
-/
import proofs.«181917_j74500502716662_2_alg».proof.Proof.Gen.KernelIdeal.Launch
import proofs.«181917_j74500502716662_2_alg».proof.Proof.GraphSpec
import proofs.«181917_j74500502716662_2_alg».proof.Proof.LibGraphOps
import proofs.«181917_j74500502716662_2_alg».proof.Proof.LibScatterAdd
import proofs.«181917_j74500502716662_2_alg».proof.Proof.LibRowGather
import proofs.«181917_j74500502716662_2_alg».proof.Proof.LibHostColumns
import proofs.«181917_j74500502716662_2_alg».proof.Proof.LibRowBroadcast
import proofs.«181917_j74500502716662_2_alg».proof.Proof.LibRows
import Idealize.ShloMosaic.Lib.StableHlo.Run
import Idealize.ShloMosaic.Lib.Pipeline.Value
import Idealize.ShloMosaic.Lib.ValueIdx
import Idealize.ShloMosaic.Lib.IdealHost

set_option maxRecDepth 16384

noncomputable section

namespace Cert.KernelIdeal.Host

open Idealize.ShloMosaic Idealize.ShloMosaic.TcCoe Idealize.ShloMosaic.ValueIdx Idealize.SL.Sem
open Idealize.ShloMosaic.StableHlo
open Cert.KernelIdeal Cert.KernelIdeal.Gen
open scoped BigOperators

variable (W : Valuation τ sig (Elt Ideal))

/-- The buffers after the host operations between the launches, from the contents W. -/
abbrev after1 : Valuation τ sig (Elt Ideal) := StableHlo.after (hostOps1 (F := Ideal)) W

/-! ## Buffers no operation of the stretch writes -/

/-- A reference no operation of the stretch writes keeps its contents. -/
theorem not_written (r : Ref sig .tc)
    (hr : (hostOps1 (F := Ideal)).Forall fun op => Proc.devRef (τ := τ) .tc r ∉ op.writes) :
    after1 W (Proc.devRef .tc r) = W (Proc.devRef .tc r) :=
  StableHlo.after_of_forall_not_mem (b := Proc.devRef .tc r) _ _ (List.forall_iff_forall_mem.mp hr)

/-- No operation of the stretch writes the reference r, given that r differs from each result reference. -/
macro "not_written_tac" : tactic =>
  `(tactic| (
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- The first argument, the node features, is not written. -/
theorem after1_main_arg0 : after1 W (Proc.devRef .tc main_arg0) = W (Proc.devRef .tc main_arg0) :=
  not_written W main_arg0 (by not_written_tac)

/-- The first launch's result is not written. -/
theorem after1_main_v1 : after1 W (Proc.devRef .tc main_v1) = W (Proc.devRef .tc main_v1) :=
  not_written W main_v1 (by not_written_tac)

/-- The two weight matrices the second launch reads are not written. -/
theorem after1_main_arg5 : after1 W (Proc.devRef .tc main_arg5) = W (Proc.devRef .tc main_arg5) :=
  not_written W main_arg5 (by not_written_tac)

theorem after1_main_arg6 : after1 W (Proc.devRef .tc main_arg6) = W (Proc.devRef .tc main_arg6) :=
  not_written W main_arg6 (by not_written_tac)

/-! ## The three reshaped parameter rows -/

/-- A [128] vector reshaped to [1, 128], at (0, q): the vector at q. -/
theorem after1_main_v24 (q : Fin 128) :
    (after1 W (Proc.devRef .tc main_v24) : S1x128.Idx → EReal) (ix2 (0 : Fin 1) q)
      = (W (Proc.devRef .tc main_arg7) : S128.Idx → EReal) (ix1 q) := by
  have e : (after1 W (Proc.devRef .tc main_v24) : S1x128.Idx → EReal)
      = shapeCast S1x128 (W (Proc.devRef .tc main_arg7) : S128.Idx → EReal) shapeCasts_S128_S1x128 := by
    show StableHlo.after (hostOps1 (F := Ideal)) W (Proc.devRef .tc main_v24) = _
    after_results
    rfl
  rw [e]
  exact Cert.Lib.Rows.shapeCast_vec_row_apply _ _ q

theorem after1_main_v25 (q : Fin 128) :
    (after1 W (Proc.devRef .tc main_v25) : S1x128.Idx → EReal) (ix2 (0 : Fin 1) q)
      = (W (Proc.devRef .tc main_arg8) : S128.Idx → EReal) (ix1 q) := by
  have e : (after1 W (Proc.devRef .tc main_v25) : S1x128.Idx → EReal)
      = shapeCast S1x128 (W (Proc.devRef .tc main_arg8) : S128.Idx → EReal) shapeCasts_S128_S1x128 := by
    show StableHlo.after (hostOps1 (F := Ideal)) W (Proc.devRef .tc main_v25) = _
    after_results
    rfl
  rw [e]
  exact Cert.Lib.Rows.shapeCast_vec_row_apply _ _ q

theorem after1_main_v26 (q : Fin 128) :
    (after1 W (Proc.devRef .tc main_v26) : S1x128.Idx → EReal) (ix2 (0 : Fin 1) q)
      = (W (Proc.devRef .tc main_arg9) : S128.Idx → EReal) (ix1 q) := by
  have e : (after1 W (Proc.devRef .tc main_v26) : S1x128.Idx → EReal)
      = shapeCast S1x128 (W (Proc.devRef .tc main_arg9) : S128.Idx → EReal) shapeCasts_S128_S1x128 := by
    show StableHlo.after (hostOps1 (F := Ideal)) W (Proc.devRef .tc main_v26) = _
    after_results
    rfl
  rw [e]
  exact Cert.Lib.Rows.shapeCast_vec_row_apply _ _ q

/-! ## The edge list's two rows -/

/-- The destination words: row 0 of the edge list, flattened. -/
abbrev dstW (ei : IVec S2x800000 32) : IVec S800000 32 :=
  shapeCast S800000 (extractStridedSlice S1x800000 ![0, 0] ei slices_S2x800000_S1x800000_0_0) shapeCasts_S1x800000_S800000

/-- The source words: row 1 of the edge list, flattened. -/
abbrev srcW (ei : IVec S2x800000 32) : IVec S800000 32 :=
  shapeCast S800000 (extractStridedSlice S1x800000 ![1, 0] ei slices_S2x800000_S1x800000_1_0) shapeCasts_S1x800000_S800000

theorem dstW_apply (ei : IVec S2x800000 32) (e : Fin 800000) : dstW ei (ix1 e) = ei (ix2 (0 : Fin 2) e) :=
  Cert.Lib.GraphOps.edge_row_apply 0 (by decide) ei slices_S2x800000_S1x800000_0_0 shapeCasts_S1x800000_S800000 e

theorem srcW_apply (ei : IVec S2x800000 32) (e : Fin 800000) : srcW ei (ix1 e) = ei (ix2 (1 : Fin 2) e) :=
  Cert.Lib.GraphOps.edge_row_apply 1 (by decide) ei slices_S2x800000_S1x800000_1_0 shapeCasts_S1x800000_S800000 e

/-- The source words wrapped around when negative, as a column. -/
abbrev srcCol (ei : IVec S2x800000 32) : IVec S800000x1 32 :=
  broadcastInDim S800000x1 ![0] bcast_S800000_S800000x1_0
    (select (cmpi .slt (srcW ei) (broadcastInDim S800000 ![] bcast_S_S800000 (constantI S_ 32 0#32)))
      (addi (srcW ei) (broadcastInDim S800000 ![] bcast_S_S800000 (constantI S_ 32 (BitVec.ofNat 32 100000)))) (srcW ei))

/-- The gathered source rows: edge e's row is the table's row its wrapped and clamped source word names. -/
theorem gathered_apply (H : S100000x128.Idx → EReal) (ei : IVec S2x800000 32) (e : Fin 800000) (q : Fin 128) :
    Host.gather (RowGather.rowDims 100000 800000 128 gather_S100000x128_S800000x1_S800000x128_1_0_n_n_0_1_1128_wf)
        H (srcCol ei) (ix2 e q)
      = H (ix2 (Cert.Layer.srcRow (ei (ix2 (1 : Fin 2) e))) q) := by
  rw [RowGather.gather_rows_apply (by decide : 0 < 100000)]
  unfold srcCol
  rw [Cert.Lib.GraphOps.wrapped_col_apply 100000 (srcW ei) bcast_S_S800000 bcast_S800000_S800000x1_0 e, srcW_apply]
  rfl

/-! ## The aggregated source rows -/

theorem after1_main_v15 (r : Fin 100000) (q : Fin 128) :
    (after1 W (Proc.devRef .tc main_v15) : S100000x128.Idx → EReal) (ix2 r q)
      = Cert.Layer.aggSrc (W (Proc.devRef .tc main_v1) : S100000x128.Idx → EReal)
          (W (Proc.devRef .tc main_arg1) : IVec S2x800000 32) r q := by
  show StableHlo.after (hostOps1 (F := Ideal)) W (Proc.devRef .tc main_v15) (ix2 r q) = _
  after_results
  show (Host.scatterAdd
      (Cert.Lib.ScatterAdd.rowDims 100000 800000 128 scatter_S100000x128_S800000x1_S800000x128_1_0_0_1_wf)
      (broadcastInDim S100000x128 ![] bcast_S_S100000x128 (constant (F := Ideal) S_ .f32 0x00000000#32))
      (broadcastInDim S800000x1 ![0] bcast_S800000_S800000x1_0 (dstW (W (Proc.devRef .tc main_arg1) : IVec S2x800000 32)))
      (Host.gather (RowGather.rowDims 100000 800000 128 gather_S100000x128_S800000x1_S800000x128_1_0_n_n_0_1_1128_wf)
        (W (Proc.devRef .tc main_v1) : S100000x128.Idx → EReal) (srcCol (W (Proc.devRef .tc main_arg1) : IVec S2x800000 32)))
      (ix2 r q) : EReal) = _
  rw [Cert.Lib.GraphOps.aggregate_apply]
  unfold Cert.Layer.aggSrc
  refine congrArg₂ (fun a b : EReal => a + b) rfl (Finset.sum_congr rfl fun e _ => ?_)
  rw [dstW_apply, gathered_apply]

/-! ## The statistics block -/

/-- The count column before it is made a column: the sum of float ones over the edges into each node. -/
abbrev countVec (ei : IVec S2x800000 32) : FVec Ideal S100000 .f32 :=
  Host.scatterAdd (Cert.Lib.ScatterAdd.vecDims 100000 800000 scatter_S100000_S800000x1_S800000_n_0_0_1_wf)
    (broadcastInDim S100000 ![] bcast_S_S100000 (constant (F := Ideal) S_ .f32 0x00000000#32))
    (broadcastInDim S800000x1 ![0] bcast_S800000_S800000x1_0 (dstW ei))
    (broadcastInDim S800000 ![] bcast_S_S800000 (constant (F := Ideal) S_ .f32 0x3F800000#32))

theorem countVec_apply (ei : IVec S2x800000 32) (r : Fin 100000) :
    (countVec ei (ix1 r) : EReal) = Cert.Layer.count ei r := by
  unfold countVec
  rw [Cert.Lib.GraphOps.count_apply]
  unfold Cert.Layer.count
  refine congrArg₂ (fun a b : EReal => a + b) rfl (Finset.sum_congr rfl fun e _ => ?_)
  rw [dstW_apply]

/-- The statistics block as the operations build it: the count column beside the degree column. -/
theorem after1_main_v23_eq :
    (after1 W (Proc.devRef .tc main_v23) : S100000x2.Idx → EReal)
      = concatenate S100000x2 1
          [⟨S100000x1, broadcastInDim S100000x1 ![0] bcast_S100000_S100000x1_0
              (countVec (W (Proc.devRef .tc main_arg1) : IVec S2x800000 32))⟩,
           ⟨S100000x1, broadcastInDim S100000x1 ![0] bcast_S100000_S100000x1_0
              (sitofp (F := Ideal) .f32 (W (Proc.devRef .tc main_arg2) : IVec S100000 32))⟩]
          concatenates_S100000x1_S100000x1_S100000x2_d1 := by
  show StableHlo.after (hostOps1 (F := Ideal)) W (Proc.devRef .tc main_v23) = _
  after_results
  rfl

theorem after1_main_v23_count (r : Fin 100000) :
    (after1 W (Proc.devRef .tc main_v23) : S100000x2.Idx → EReal) (ix2 r (0 : Fin 2))
      = Cert.Layer.count (W (Proc.devRef .tc main_arg1) : IVec S2x800000 32) r := by
  rw [after1_main_v23_eq]
  rw [concatenate_pair_apply_left (t := S100000x2) (s₁ := S100000x1) (s₂ := S100000x1) (1 : Fin 2) _ _
    concatenates_S100000x1_S100000x1_S100000x2_d1 (ix2 r (0 : Fin 2)) rfl (ix2 r (0 : Fin 1)) (fun b => by
      match b with
      | ⟨0, _⟩ => rfl
      | ⟨1, _⟩ => rfl)]
  rw [Cert.Lib.HostColumns.bcast_vec_col_apply _ bcast_S100000_S100000x1_0 r 0]
  exact countVec_apply _ r

theorem after1_main_v23_degree (r : Fin 100000) :
    (after1 W (Proc.devRef .tc main_v23) : S100000x2.Idx → EReal) (ix2 r (1 : Fin 2))
      = Cert.Layer.degree (W (Proc.devRef .tc main_arg2) : IVec S100000 32) r := by
  rw [after1_main_v23_eq]
  rw [concatenate_pair_apply_right (t := S100000x2) (s₁ := S100000x1) (s₂ := S100000x1) (1 : Fin 2) _ _
    concatenates_S100000x1_S100000x1_S100000x2_d1 (ix2 r (1 : Fin 2)) rfl rfl (ix2 r (0 : Fin 1))
    (fun b hb => by
      match b with
      | ⟨0, _⟩ => rfl
      | ⟨1, _⟩ => exact absurd rfl hb)
    rfl]
  rw [Cert.Lib.HostColumns.bcast_vec_col_apply _ bcast_S100000_S100000x1_0 r 0]
  rfl

end Cert.KernelIdeal.Host

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibColSlices.lean ====
/-
  A block of consecutive columns cut out of a matrix, read at an index.

  Columns o … o + C' − 1 of a matrix [R, C], as a unit-stride slice at offsets (0, o), read at (p, q) the matrix at
  (p, o + q).  General: any extents, offset and entry type.  (The twin for a block of rows is a slice at offsets
  (o, 0), read at (q, k) as the matrix at (o + q, k).)
-/
import Idealize.ShloMosaic.Lib.ValueIdx
import Idealize.ShloMosaic.Lib.Pipeline.Value

noncomputable section

namespace Cert.Lib.ColSlices

open Idealize.ShloMosaic Idealize.ShloMosaic.ValueIdx

variable {α : Type}

/-- Columns o … o + C' − 1 of a matrix [R, C], read at (p, q), are the matrix at (p, o + q). -/
theorem slice_cols_apply {R C C' o : Nat} (x : (⟨2, ![R, C]⟩ : Shape).Idx → α)
    (h : (⟨2, ![R, C]⟩ : Shape).Slices ![0, o] ⟨2, ![R, C']⟩) (p : Fin R) (q : Fin C') (hq : o + q.val < C) :
    extractStridedSlice ⟨2, ![R, C']⟩ ![0, o] x h (ix2 p q) = x (ix2 p ⟨o + q.val, hq⟩) :=
  extractStridedSlice_apply ![0, o] x h (ix2 p q) (ix2 p ⟨o + q.val, hq⟩) (fun a => by
    match a with
    | ⟨0, _⟩ => show p.val = 0 + p.val; omega
    | ⟨1, _⟩ => rfl)

end Cert.Lib.ColSlices

end
-- ==== Proof.KBody1.lean ====
/-
  The normalising kernel's block at an index.  On a block of 5000 nodes the second kernel recomputes the rate and the
  robustness term from the x block, combines them with the node's aggregated messages — the count column times the
  projected row, plus the aggregated row — and the degree column, and normalises each row over its 128 lanes.  At the
  block's local index (p, q) the stored value is the layer's arithmetic (Spec.lean) of row p of its operands.
-/
import proofs.«181917_j74500502716662_2_alg».proof.Proof.KBody0
import proofs.«181917_j74500502716662_2_alg».proof.Proof.Spec
import proofs.«181917_j74500502716662_2_alg».proof.Proof.LibColumns
import proofs.«181917_j74500502716662_2_alg».proof.Proof.LibColSlices

noncomputable section

namespace Cert.KernelIdeal.Body

open Idealize.ShloMosaic Idealize.ShloMosaic.ValueIdx Cert.KernelIdeal Cert.KernelIdeal.Gen
open scoped BigOperators

/-- A column [5000, 1] spread over the 128 lanes, at (p, k): the column at row p. -/
theorem col_over_lanes (v : FVec Ideal S5000x1 .f32) (p : Fin 5000) (k : Fin 128) :
    broadcastTo S5000x128 v broadcasts_S5000x1_S5000x128 (ix2 p k) = v (ix2 p (0 : Fin 1)) :=
  Cert.Columns.broadcastTo_a1_ab_apply v broadcasts_S5000x1_S5000x128 p k 0

/-- Column o of the two-column statistics block, spread over the lanes, at (p, k): the block at (p, o). -/
theorem stat_col0 (st : Vec Ideal S5000x2 .f32) (p : Fin 5000) (k : Fin 128) :
    broadcastTo S5000x128 (extractStridedSlice S5000x1 ![0, 0] (k1_pay2 (F := Ideal) st) slices_S5000x2_o0_0_S5000x1)
      broadcasts_S5000x1_S5000x128 (ix2 p k) = st (ix2 p (0 : Fin 2)) := by
  rw [col_over_lanes]
  unfold k1_pay2
  rw [shapeCast_self]
  exact Cert.Lib.ColSlices.slice_cols_apply (o := 0) st slices_S5000x2_o0_0_S5000x1 p (0 : Fin 1) (by decide)

theorem stat_col1 (st : Vec Ideal S5000x2 .f32) (p : Fin 5000) (k : Fin 128) :
    broadcastTo S5000x128 (extractStridedSlice S5000x1 ![0, 1] (k1_pay2 (F := Ideal) st) slices_S5000x2_o0_1_S5000x1)
      broadcasts_S5000x1_S5000x128 (ix2 p k) = st (ix2 p (1 : Fin 2)) := by
  rw [col_over_lanes]
  unfold k1_pay2
  rw [shapeCast_self]
  exact Cert.Lib.ColSlices.slice_cols_apply (o := 1) st slices_S5000x2_o0_1_S5000x1 p (0 : Fin 1) (by decide)

/-- The rate block at (p, k): the rate of row p of x against column k of the rate weight. -/
theorem pay3_apply (x0 : Vec Ideal S5000x128 .f32) (wr : Vec Ideal S128x128 .f32) (p : Fin 5000) (k : Fin 128) :
    k1_pay3 (F := Ideal) x0 wr (ix2 p k) = Cert.Layer.rate (∑ j : Fin 128, x0 (ix2 p j) * wr (ix2 j k)) := by
  rw [← rows_times_weight x0 wr p k]
  rfl

/-- The numerator block at (p, k). -/
theorem pay4_apply (x0 h a2 : Vec Ideal S5000x128 .f32) (st : Vec Ideal S5000x2 .f32) (wr wb : Vec Ideal S128x128 .f32)
    (br : Vec Ideal S1x128 .f32) (p : Fin 5000) (k : Fin 128) :
    k1_pay4 (F := Ideal) x0 h a2 st wr wb br (ix2 p k)
      = Cert.Layer.rate (∑ j : Fin 128, x0 (ix2 p j) * wr (ix2 j k)) * (st (ix2 p (0 : Fin 2)) * h (ix2 p k) + a2 (ix2 p k))
        + ((∑ j : Fin 128, x0 (ix2 p j) * wb (ix2 j k)) + br (ix2 (0 : Fin 1) k)) := by
  unfold k1_pay4
  show k1_pay3 (F := Ideal) x0 wr (ix2 p k)
        * (broadcastTo S5000x128 (extractStridedSlice S5000x1 ![0, 0] (k1_pay2 (F := Ideal) st) slices_S5000x2_o0_0_S5000x1)
              broadcasts_S5000x1_S5000x128 (ix2 p k)
            * shapeCast S5000x128 h shapeCasts_S5000x128_S5000x128 (ix2 p k)
          + shapeCast S5000x128 a2 shapeCasts_S5000x128_S5000x128 (ix2 p k))
      + (matmul (φ₁ := .f32) (φ₂ := .f32) dot_S5000x128_S128x128_S5000x128_1_0_0_1_n_n none x0 wb (constant (F := Ideal) S5000x128 .f32 0x00000000#32) (ix2 p k)
          + broadcastTo S5000x128 (shapeCast S1x128 br shapeCasts_S1x128_S1x128) broadcasts_S1x128_S5000x128 (ix2 p k)) = _
  rw [pay3_apply, stat_col0, shapeCast_self, shapeCast_self, rows_times_weight, row_over_rows]

/-- The rate-times-degree block at (p, k). -/
theorem pay5_apply (x0 : Vec Ideal S5000x128 .f32) (st : Vec Ideal S5000x2 .f32) (wr : Vec Ideal S128x128 .f32)
    (p : Fin 5000) (k : Fin 128) :
    k1_pay5 (F := Ideal) x0 st wr (ix2 p k)
      = Cert.Layer.rate (∑ j : Fin 128, x0 (ix2 p j) * wr (ix2 j k)) * st (ix2 p (1 : Fin 2)) := by
  unfold k1_pay5
  show k1_pay3 (F := Ideal) x0 wr (ix2 p k)
        * broadcastTo S5000x128 (extractStridedSlice S5000x1 ![0, 1] (k1_pay2 (F := Ideal) st) slices_S5000x2_o0_1_S5000x1)
              broadcasts_S5000x1_S5000x128 (ix2 p k) = _
  rw [pay3_apply, stat_col1]

end Cert.KernelIdeal.Body

end
-- ==== Proof.KBody1b.lean ====
/-
  The normalisation of the second kernel's block, at an index.  Given the numerator block n and the rate-times-degree
  block d, the kernel forms y = n / (1 + d + eps), takes each row's mean and variance by lane sums kept as columns,
  and stores (y - mean) * rsqrt (var + eps') * gamma + beta.  At (p, q) this is the layer normalisation (Spec.lean) of
  row p of y, with the scale and shift of lane q.
-/
import proofs.«181917_j74500502716662_2_alg».proof.Proof.KBody1

noncomputable section

namespace Cert.KernelIdeal.Body

open Idealize.ShloMosaic Idealize.ShloMosaic.ValueIdx Cert.KernelIdeal Cert.KernelIdeal.Gen
open scoped BigOperators

/-- A lane sum from the zero word kept as a column, at (p, 0): the sum of row p. -/
theorem lane_sum_col (v : FVec Ideal S5000x128 .f32) (p : Fin 5000) :
    shapeCast S5000x1 (multiReduction .add [1] S5000 v 0x00000000#32 reduces_S5000x128_S5000 (.inl rfl) rfl) shapeCasts_S5000_S5000x1
      (ix2 p (0 : Fin 1)) = ∑ k : Fin 128, v (ix2 p k) :=
  (Cert.Columns.shapeCast_a_a1_apply _ shapeCasts_S5000_S5000x1 p 0).trans
    (Cert.Columns.laneSum_apply v 0x00000000#32 reduces_S5000x128_S5000 (.inl rfl) rfl p)

/-- The rows' means as a column. -/
def meanCol (y : FVec Ideal S5000x128 .f32) : FVec Ideal S5000x1 .f32 :=
  divf (shapeCast S5000x1 (multiReduction .add [1] S5000 y 0x00000000#32 reduces_S5000x128_S5000 (.inl rfl) rfl) shapeCasts_S5000_S5000x1)
    (broadcast S5000x1 (Scalar.ofBits (F := Ideal) .f32 0x43000000#32))

theorem meanCol_apply (y : FVec Ideal S5000x128 .f32) (p : Fin 5000) :
    meanCol y (ix2 p (0 : Fin 1)) = Cert.Layer.mean (fun k => y (ix2 p k)) := by
  unfold meanCol Cert.Layer.mean
  show Ideal.div (shapeCast S5000x1 (multiReduction .add [1] S5000 y 0x00000000#32 reduces_S5000x128_S5000 (.inl rfl) rfl)
      shapeCasts_S5000_S5000x1 (ix2 p (0 : Fin 1))) Cert.Layer.c128 = _
  rw [lane_sum_col, Cert.Layer.z_eq, zero_add]

/-- The deviations from the row means. -/
def dev (y : FVec Ideal S5000x128 .f32) : FVec Ideal S5000x128 .f32 :=
  subf y (broadcastTo S5000x128 (meanCol y) broadcasts_S5000x1_S5000x128)

theorem dev_apply (y : FVec Ideal S5000x128 .f32) (p : Fin 5000) (k : Fin 128) :
    dev y (ix2 p k) = y (ix2 p k) - Cert.Layer.mean (fun k => y (ix2 p k)) := by
  unfold dev
  show y (ix2 p k) - broadcastTo S5000x128 (meanCol y) broadcasts_S5000x1_S5000x128 (ix2 p k) = _
  rw [col_over_lanes, meanCol_apply]

/-- The rows' variances as a column. -/
def varCol (y : FVec Ideal S5000x128 .f32) : FVec Ideal S5000x1 .f32 :=
  divf (shapeCast S5000x1 (multiReduction .add [1] S5000 (mulf (dev y) (dev y)) 0x00000000#32 reduces_S5000x128_S5000 (.inl rfl) rfl) shapeCasts_S5000_S5000x1)
    (broadcast S5000x1 (Scalar.ofBits (F := Ideal) .f32 0x43000000#32))

theorem varCol_apply (y : FVec Ideal S5000x128 .f32) (p : Fin 5000) :
    varCol y (ix2 p (0 : Fin 1)) = Cert.Layer.var (fun k => y (ix2 p k)) := by
  unfold varCol Cert.Layer.var
  show Ideal.div (shapeCast S5000x1 (multiReduction .add [1] S5000 (mulf (dev y) (dev y)) 0x00000000#32 reduces_S5000x128_S5000 (.inl rfl) rfl)
      shapeCasts_S5000_S5000x1 (ix2 p (0 : Fin 1))) Cert.Layer.c128 = _
  rw [lane_sum_col, Cert.Layer.z_eq, zero_add]
  refine congrArg (fun s : EReal => Ideal.div s Cert.Layer.c128) (Finset.sum_congr rfl fun k _ => ?_)
  show dev y (ix2 p k) * dev y (ix2 p k) = _
  rw [dev_apply]

/-- The stored block, from the numerator block n and the rate-times-degree block d, at (p, q). -/
theorem pay1_apply (n d : FVec Ideal S5000x128 .f32) (lg lb : Vec Ideal S1x128 .f32) (p : Fin 5000) (q : Fin 128) :
    k1_pay1 (F := Ideal) n d lg lb (ix2 p q)
      = Cert.Layer.lnorm (fun k => Ideal.div (n (ix2 p k)) (Cert.Layer.one + d (ix2 p k) + Cert.Layer.eps1))
          (lg (ix2 (0 : Fin 1) q)) (lb (ix2 (0 : Fin 1) q)) q := by
  unfold k1_pay1
  have hy : ∀ k : Fin 128, (divf n (addf (addf (broadcast S5000x128 (Scalar.ofBits (F := Ideal) .f32 0x3F800000#32)) d)
      (broadcast S5000x128 (Scalar.ofBits (F := Ideal) .f32 0x38D1B717#32)))) (ix2 p k)
      = Ideal.div (n (ix2 p k)) (Cert.Layer.one + d (ix2 p k) + Cert.Layer.eps1) := fun _ => rfl
  generalize divf n (addf (addf (broadcast S5000x128 (Scalar.ofBits (F := Ideal) .f32 0x3F800000#32)) d)
      (broadcast S5000x128 (Scalar.ofBits (F := Ideal) .f32 0x38D1B717#32))) = y at hy
  show dev y (ix2 p q)
        * broadcastTo S5000x128 (rsqrt (addf (varCol y) (broadcast S5000x1 (Scalar.ofBits (F := Ideal) .f32 0x3727C5AC#32))))
            broadcasts_S5000x1_S5000x128 (ix2 p q)
        * broadcastTo S5000x128 (shapeCast S1x128 lg shapeCasts_S1x128_S1x128) broadcasts_S1x128_S5000x128 (ix2 p q)
      + broadcastTo S5000x128 (shapeCast S1x128 lb shapeCasts_S1x128_S1x128) broadcasts_S1x128_S5000x128 (ix2 p q) = _
  rw [col_over_lanes, row_over_rows, row_over_rows, dev_apply]
  show (y (ix2 p q) - Cert.Layer.mean (fun k => y (ix2 p k))) * Ideal.rsqrt (varCol y (ix2 p (0 : Fin 1)) + Cert.Layer.eps2)
      * lg (ix2 (0 : Fin 1) q) + lb (ix2 (0 : Fin 1) q) = _
  rw [varCol_apply]
  have hrow : (fun k => y (ix2 p k)) = fun k => Ideal.div (n (ix2 p k)) (Cert.Layer.one + d (ix2 p k) + Cert.Layer.eps1) :=
    funext hy
  rw [hrow, hy q]
  rfl

/-- THE SECOND KERNEL'S STORED BLOCK at (p, q), from its nine loaded blocks. -/
theorem out_apply (x0 h a2 : Vec Ideal S5000x128 .f32) (st : Vec Ideal S5000x2 .f32) (wr wb : Vec Ideal S128x128 .f32)
    (br lg lb : Vec Ideal S1x128 .f32) (p : Fin 5000) (q : Fin 128) :
    k1_pay1 (F := Ideal) (k1_pay4 x0 h a2 st wr wb br) (k1_pay5 x0 st wr) lg lb (ix2 p q)
      = Cert.Layer.lnorm (fun k => Cert.Layer.pre (Cert.Layer.rate (∑ j : Fin 128, x0 (ix2 p j) * wr (ix2 j k)))
            (st (ix2 p (0 : Fin 2)) * h (ix2 p k) + a2 (ix2 p k))
            ((∑ j : Fin 128, x0 (ix2 p j) * wb (ix2 j k)) + br (ix2 (0 : Fin 1) k))
            (st (ix2 p (1 : Fin 2))))
          (lg (ix2 (0 : Fin 1) q)) (lb (ix2 (0 : Fin 1) q)) q := by
  rw [pay1_apply]
  refine congrArg (fun f => Cert.Layer.lnorm f (lg (ix2 (0 : Fin 1) q)) (lb (ix2 (0 : Fin 1) q)) q) (funext fun k => ?_)
  rw [pay4_apply, pay5_apply]
  rfl

end Cert.KernelIdeal.Body

end
-- ==== Proof.KRegion1.lean ====
/-
  The second kernel's result array.  Its grid has 20 points; point t loads rows 5000 t … 5000 t + 4999 of x, of the
  projected rows, of the aggregated rows and of the two-column statistics, the two whole weights and the three
  parameter rows, and writes back the same rows of the result.  So, whatever the buffers hold when the region is
  entered, the result array ends as ONE function of the nine operand arrays: at (r, q) the layer's arithmetic
  (Spec.lean) of row r of the operands, normalised over the lanes.
-/
import proofs.«181917_j74500502716662_2_alg».proof.Proof.Gen.KernelIdeal.Frame
import proofs.«181917_j74500502716662_2_alg».proof.Proof.KBody1b

set_option maxRecDepth 16384

noncomputable section

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Body
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The layer at node r, lane q, from the nine operand arrays. -/
def normAt (X H A2 : S100000x128.Idx → EReal) (ST : S100000x2.Idx → EReal) (Wr Wb : S128x128.Idx → EReal)
    (Br Lg Lb : S1x128.Idx → EReal) (r : Fin 100000) (q : Fin 128) : EReal :=
  Cert.Layer.lnorm (fun k => Cert.Layer.pre (Cert.Layer.rate (∑ j : Fin 128, X (ix2 r j) * Wr (ix2 j k)))
        (ST (ix2 r (0 : Fin 2)) * H (ix2 r k) + A2 (ix2 r k))
        ((∑ j : Fin 128, X (ix2 r j) * Wb (ix2 j k)) + Br (ix2 (0 : Fin 1) k))
        (ST (ix2 r (1 : Fin 2))))
    (Lg (ix2 (0 : Fin 1) q)) (Lb (ix2 (0 : Fin 1) q)) q

/-- The layer as a whole array. -/
def normArr (X H A2 : S100000x128.Idx → EReal) (ST : S100000x2.Idx → EReal) (Wr Wb : S128x128.Idx → EReal)
    (Br Lg Lb : S1x128.Idx → EReal) : S100000x128.Idx → EReal :=
  fun i => normAt X H A2 ST Wr Wb Br Lg Lb ⟨(i 0).val, idx2_lt0 i⟩ ⟨(i 1).val, idx2_lt1 i⟩

theorem normArr_apply (X H A2 : S100000x128.Idx → EReal) (ST : S100000x2.Idx → EReal) (Wr Wb : S128x128.Idx → EReal)
    (Br Lg Lb : S1x128.Idx → EReal) (r : Fin 100000) (q : Fin 128) :
    normArr X H A2 ST Wr Wb Br Lg Lb (ix2 r q) = normAt X H A2 ST Wr Wb Br Lg Lb r q := rfl

/-- A stored block at (p, q), when row p of each row block is row r of its array and the other blocks are the whole
    operands: the layer at (r, q). -/
theorem block_eq (X H A2 : S100000x128.Idx → EReal) (ST : S100000x2.Idx → EReal) (Wr Wb : S128x128.Idx → EReal)
    (Br Lg Lb : S1x128.Idx → EReal)
    (x0 h a2 : Vec Ideal S5000x128 .f32) (st : Vec Ideal S5000x2 .f32) (wr wb : Vec Ideal S128x128 .f32)
    (br lg lb : Vec Ideal S1x128 .f32) (p : Fin 5000) (q : Fin 128) (r : Fin 100000)
    (hx : ∀ k : Fin 128, x0 (ix2 p k) = X (ix2 r k)) (hh : ∀ k : Fin 128, h (ix2 p k) = H (ix2 r k))
    (ha : ∀ k : Fin 128, a2 (ix2 p k) = A2 (ix2 r k)) (hs : ∀ u : Fin 2, st (ix2 p u) = ST (ix2 r u))
    (hwr : ∀ j k : Fin 128, wr (ix2 j k) = Wr (ix2 j k)) (hwb : ∀ j k : Fin 128, wb (ix2 j k) = Wb (ix2 j k))
    (hbr : ∀ k : Fin 128, br (ix2 (0 : Fin 1) k) = Br (ix2 (0 : Fin 1) k))
    (hlg : ∀ k : Fin 128, lg (ix2 (0 : Fin 1) k) = Lg (ix2 (0 : Fin 1) k))
    (hlb : ∀ k : Fin 128, lb (ix2 (0 : Fin 1) k) = Lb (ix2 (0 : Fin 1) k)) :
    k1_pay1 (F := Ideal) (k1_pay4 x0 h a2 st wr wb br) (k1_pay5 x0 st wr) lg lb (ix2 p q)
      = normAt X H A2 ST Wr Wb Br Lg Lb r q := by
  rw [out_apply]
  unfold normAt
  simp only [hx, hh, ha, hs, hwr, hwb, hbr, hlg, hlb]

/-- The grid has 20 points. -/
theorem t_lt (t : Fin cfg1.N) : t.val < 20 := by have h : cfg1.N = 20 := N_1; have := t.isLt; omega

/-- Row p of point t's block is row 5000 t + p of the array. -/
def rowOf (t : Fin cfg1.N) (p : Fin 5000) : Fin 100000 := ⟨t.val * 5000 + p.val, by have := t_lt t; have := p.isLt; omega⟩

/-- The printed index maps over the grid: the row windows sit at block t, the weights and the parameter rows at block 0. -/
theorem idx_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_9.index t (0 : Fin 2) = t.val ∧ win1_9.index t (1 : Fin 2) = 0 :=
  (by decide +kernel : ∀ t : Fin grid1.N, _)

theorem idx_whole : ∀ t : Fin cfg1.N, win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

theorem emb_0 (t : Fin cfg1.N) (p : Fin 5000) (k : Fin 128) : ((cfg1.win 0).blk t).view.emb (ix2 p k) = ix2 (rowOf t p) k := by
  obtain ⟨e0, e1, -⟩ := idx_rows t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

theorem emb_1 (t : Fin cfg1.N) (p : Fin 5000) (k : Fin 128) : ((cfg1.win 1).blk t).view.emb (ix2 p k) = ix2 (rowOf t p) k := by
  obtain ⟨-, -, e0, e1, -⟩ := idx_rows t
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

theorem emb_2 (t : Fin cfg1.N) (p : Fin 5000) (k : Fin 128) : ((cfg1.win 2).blk t).view.emb (ix2 p k) = ix2 (rowOf t p) k := by
  obtain ⟨-, -, -, -, e0, e1, -⟩ := idx_rows t
  funext a; apply Fin.ext
  match a with
  | ⟨0, _⟩ => show win1_2.index t (0 : Fin 2) * 5000 + 1 * p.val = t.val * 5000 + p.val; omega
  | ⟨1, _⟩ => show win1_2.index t (1 : Fin 2) * 128 + 1 * k.val = k.val; omega

theorem emb_3 (t : Fin cfg1.N) (p : Fin 5000) (u : Fin 2) : ((cfg1.win 3).blk t).view.emb (ix2 p u) = ix2 (rowOf t p) u := by
  obtain ⟨-, -, -, -, -, -, e0, e1, -⟩ := idx_rows t
  funext a; apply Fin.ext
  match a with
  | ⟨0, _⟩ => show win1_3.index t (0 : Fin 2) * 5000 + 1 * p.val = t.val * 5000 + p.val; omega
  | ⟨1, _⟩ => show win1_3.index t (1 : Fin 2) * 2 + 1 * u.val = u.val; omega

theorem emb_9 (t : Fin cfg1.N) (p : Fin 5000) (k : Fin 128) : ((cfg1.win 9).blk t).view.emb (ix2 p k) = ix2 (rowOf t p) k := by
  obtain ⟨-, -, -, -, -, -, -, -, e0, e1⟩ := idx_rows t
  funext a; apply Fin.ext
  match a with
  | ⟨0, _⟩ => show win1_9.index t (0 : Fin 2) * 5000 + 1 * p.val = t.val * 5000 + p.val; omega
  | ⟨1, _⟩ => show win1_9.index t (1 : Fin 2) * 128 + 1 * k.val = k.val; omega

theorem emb_4 (t : Fin cfg1.N) (j k : Fin 128) : ((cfg1.win 4).blk t).view.emb (ix2 j k) = ix2 j k := by
  obtain ⟨e0, e1, -⟩ := idx_whole t
  funext a; apply Fin.ext
  match a with
  | ⟨0, _⟩ => show win1_4.index t (0 : Fin 2) * 128 + 1 * j.val = j.val; omega
  | ⟨1, _⟩ => show win1_4.index t (1 : Fin 2) * 128 + 1 * k.val = k.val; omega

theorem emb_5 (t : Fin cfg1.N) (j k : Fin 128) : ((cfg1.win 5).blk t).view.emb (ix2 j k) = ix2 j k := by
  obtain ⟨-, -, e0, e1, -⟩ := idx_whole t
  funext a; apply Fin.ext
  match a with
  | ⟨0, _⟩ => show win1_5.index t (0 : Fin 2) * 128 + 1 * j.val = j.val; omega
  | ⟨1, _⟩ => show win1_5.index t (1 : Fin 2) * 128 + 1 * k.val = k.val; omega

theorem emb_6 (t : Fin cfg1.N) (k : Fin 128) : ((cfg1.win 6).blk t).view.emb (ix2 (0 : Fin 1) k) = ix2 (0 : Fin 1) k := by
  obtain ⟨-, -, -, -, e0, e1, -⟩ := idx_whole t
  funext a; apply Fin.ext
  match a with
  | ⟨0, _⟩ => show win1_6.index t (0 : Fin 2) * 1 + 1 * 0 = 0; omega
  | ⟨1, _⟩ => show win1_6.index t (1 : Fin 2) * 128 + 1 * k.val = k.val; omega

theorem emb_7 (t : Fin cfg1.N) (k : Fin 128) : ((cfg1.win 7).blk t).view.emb (ix2 (0 : Fin 1) k) = ix2 (0 : Fin 1) k := by
  obtain ⟨-, -, -, -, -, -, e0, e1, -⟩ := idx_whole t
  funext a; apply Fin.ext
  match a with
  | ⟨0, _⟩ => show win1_7.index t (0 : Fin 2) * 1 + 1 * 0 = 0; omega
  | ⟨1, _⟩ => show win1_7.index t (1 : Fin 2) * 128 + 1 * k.val = k.val; omega

theorem emb_8 (t : Fin cfg1.N) (k : Fin 128) : ((cfg1.win 8).blk t).view.emb (ix2 (0 : Fin 1) k) = ix2 (0 : Fin 1) k := by
  obtain ⟨-, -, -, -, -, -, -, -, e0, e1⟩ := idx_whole t
  funext a; apply Fin.ext
  match a with
  | ⟨0, _⟩ => show win1_8.index t (0 : Fin 2) * 1 + 1 * 0 = 0; omega
  | ⟨1, _⟩ => show win1_8.index t (1 : Fin 2) * 128 + 1 * k.val = k.val; omega

/-- WHAT POINT t WRITES BACK is block t of the layer of the operand arrays as the region finds them. -/
theorem flushed_eq (c : Dev nD) (t : Fin cfg1.N) :
    (dat1 V c).flushed 9 t = ((cfg1.win 9).blk t).view.read (Elt Ideal)
      (normArr (V c main_arg0) (V c main_v1) (V c main_v15) (V c main_v23) (V c main_arg5) (V c main_arg6)
        (V c main_v24) (V c main_v25) (V c main_v26)) := by
  show (cfg1.win 9).cut (grid1.coords t) ((dat1 V c).after 9 t) = _
  rw [after1_9]
  unfold out1_9
  rw [View.canon_unit_zero hz]
  simp only [View.ld_unit_zero (S := S5000x128) hz, View.ld_unit_zero (S := S5000x2) hz, View.ld_unit_zero (S := S128x128) hz,
    View.ld_unit_zero (S := S1x128) hz]
  funext j
  obtain ⟨p, q, rfl⟩ : ∃ (p : Fin 5000) (q : Fin 128), j = ix2 p q := ⟨j 0, j 1, eq_ix2 j⟩
  refine (block_eq (V c main_arg0) (V c main_v1) (V c main_v15) (V c main_v23) (V c main_arg5) (V c main_arg6)
    (V c main_v24) (V c main_v25) (V c main_v26)
    (iblk1 V c 0 t) (iblk1 V c 1 t) (iblk1 V c 2 t) (iblk1 V c 3 t) (iblk1 V c 4 t) (iblk1 V c 5 t)
    (iblk1 V c 6 t) (iblk1 V c 7 t) (iblk1 V c 8 t) p q (rowOf t p)
    (fun k => congrArg (V c main_arg0) (emb_0 t p k)) (fun k => congrArg (V c main_v1) (emb_1 t p k))
    (fun k => congrArg (V c main_v15) (emb_2 t p k)) (fun u => congrArg (V c main_v23) (emb_3 t p u))
    (fun j k => congrArg (V c main_arg5) (emb_4 t j k)) (fun j k => congrArg (V c main_arg6) (emb_5 t j k))
    (fun k => congrArg (V c main_v24) (emb_6 t k)) (fun k => congrArg (V c main_v25) (emb_7 t k))
    (fun k => congrArg (V c main_v26) (emb_8 t k))).trans ?_
  exact ((congrArg (normArr (V c main_arg0) (V c main_v1) (V c main_v15) (V c main_v23) (V c main_arg5) (V c main_arg6)
    (V c main_v24) (V c main_v25) (V c main_v26)) (emb_9 t p q)).trans (normArr_apply _ _ _ _ _ _ _ _ _ _ _)).symm

/-- An index of the array is in point t's block iff each coordinate is in the block's range on its axis. -/
theorem mem_blk (t : Fin cfg1.N) (i : S100000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v27).slice (win1_9.rect t)).set ↔ _
  rw [View.set_slice_whole, Rect.mem_set_unit]
  exact Iff.rfl

/-- Every index of the result array is in some point's block. -/
theorem cover (i : S100000x128.Idx) : ∃ t : Fin cfg1.N, (cfg1.win 9).flush t = true ∧ i ∈ ((cfg1.win 9).blk t).view.set := by
  have hN : cfg1.N = 20 := N_1
  have hi0 : (i 0).val < 100000 := idx2_lt0 i
  have hi1 : (i 1).val < 128 := idx2_lt1 i
  let t : Fin cfg1.N := ⟨(i 0).val / 5000, by omega⟩
  have ht : t.val = (i 0).val / 5000 := rfl
  obtain ⟨-, -, -, -, -, -, -, -, e0, e1⟩ := idx_rows t
  refine ⟨t, flush1_9 t, ?_⟩
  rw [mem_blk]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

/-- THE RESULT ARRAY of the second region, from any entry contents: the layer of the nine operand arrays. -/
theorem final (c : Dev nD) :
    (dat1 V c).arrAt 9 cfg1.N = normArr (V c main_arg0) (V c main_v1) (V c main_v15) (V c main_v23) (V c main_arg5) (V c main_arg6)
        (V c main_v24) (V c main_v25) (V c main_v26) :=
  (dat1 V c).arrAt_eq_of_cover 9 _ (fun t _ => flushed_eq V c t) cover

end Cert.KernelIdeal.Region1

end
-- ==== Proof.LibReals.lean ====
/-
  Extended reals that are real numbers. At the ideal float values every float is an extended real; a
  value is FINITE when it is the image of a real number. This module collects, with no reference to any
  program: the predicate "every entry of a family is a real" and its closure under the exact operations
  (sum, product, difference, maximum, finite sums, division by a nonzero real, reciprocal square root
  of a positive real); the coercion of a finite real sum; and the identity between the two textbook
  forms of the variance of a finite family, (1/N) Σ (xᵢ − μ)² = (1/N) Σ xᵢ² − μ² with μ = (1/N) Σ xᵢ,
  first over the reals and then over real-valued extended reals, where each quotient is the ideal
  division and each sum may carry a leading zero summand; the variance is a real and is not negative.
-/
import Idealize.ShloMosaic.PureOps.Ideal

noncomputable section

namespace Cert.Reals

open Idealize.ShloMosaic
open scoped BigOperators

/-- An extended real that is (the image of) a real number. -/
def IsRealS (x : EReal) : Prop := ∃ r : ℝ, x = (r : EReal)

/-- Every entry of a family of extended reals is a real number. -/
def IsReal {ι : Type*} (f : ι → EReal) : Prop := ∀ i, ∃ r : ℝ, f i = (r : EReal)

/-- A family is real exactly when each entry is. -/
theorem isReal_iff {ι : Type*} (f : ι → EReal) : IsReal f ↔ ∀ i, IsRealS (f i) := Iff.rfl

/-- An entry of a real family is a real. -/
theorem IsReal.apply {ι : Type*} {f : ι → EReal} (h : IsReal f) (i : ι) : IsRealS (f i) := h i

/-- A real family is the coercion of a family of reals. -/
theorem IsReal.exists_eq {ι : Type*} {f : ι → EReal} (h : IsReal f) : ∃ r : ι → ℝ, f = fun i => (r i : EReal) := by
  choose r hr using h
  exact ⟨r, funext hr⟩

/-- The coercion of a family of reals is a real family. -/
theorem isReal_coe {ι : Type*} (r : ι → ℝ) : IsReal (fun i => (r i : EReal)) := fun i => ⟨r i, rfl⟩

/-- Re-indexing a real family gives a real family. -/
theorem IsReal.comp {ι κ : Type*} {f : ι → EReal} (h : IsReal f) (g : κ → ι) : IsReal (fun k => f (g k)) :=
  fun k => h (g k)

/-- A real number is a real. -/
theorem isRealS_coe (r : ℝ) : IsRealS (r : EReal) := ⟨r, rfl⟩

/-- Zero is a real. -/
theorem isRealS_zero : IsRealS 0 := ⟨0, rfl⟩

/-- One is a real. -/
theorem isRealS_one : IsRealS 1 := ⟨1, rfl⟩

/-- A real is not the upper infinity. -/
theorem IsRealS.ne_top {x : EReal} (h : IsRealS x) : x ≠ ⊤ := by
  obtain ⟨r, rfl⟩ := h; exact EReal.coe_ne_top r

/-- A real is not the lower infinity. -/
theorem IsRealS.ne_bot {x : EReal} (h : IsRealS x) : x ≠ ⊥ := by
  obtain ⟨r, rfl⟩ := h; exact EReal.coe_ne_bot r

/-- An extended real that is neither infinity is a real. -/
theorem isRealS_of_ne {x : EReal} (ht : x ≠ ⊤) (hb : x ≠ ⊥) : IsRealS x := by
  induction x using EReal.rec with
  | bot => exact absurd rfl hb
  | top => exact absurd rfl ht
  | coe r => exact ⟨r, rfl⟩

/-- The sum of two reals is a real. -/
theorem IsRealS.add {x y : EReal} (hx : IsRealS x) (hy : IsRealS y) : IsRealS (x + y) := by
  obtain ⟨a, rfl⟩ := hx; obtain ⟨b, rfl⟩ := hy
  exact ⟨a + b, (EReal.coe_add a b).symm⟩

/-- The product of two reals is a real. -/
theorem IsRealS.mul {x y : EReal} (hx : IsRealS x) (hy : IsRealS y) : IsRealS (x * y) := by
  obtain ⟨a, rfl⟩ := hx; obtain ⟨b, rfl⟩ := hy
  exact ⟨a * b, (EReal.coe_mul a b).symm⟩

/-- The negation of a real is a real. -/
theorem IsRealS.neg {x : EReal} (hx : IsRealS x) : IsRealS (-x) := by
  obtain ⟨a, rfl⟩ := hx
  exact ⟨-a, (EReal.coe_neg a).symm⟩

/-- The difference of two reals (the extended reals' subtraction, which the ideal values' subtraction is)
    is a real. -/
theorem IsRealS.sub {x y : EReal} (hx : IsRealS x) (hy : IsRealS y) : IsRealS (x - y) := by
  obtain ⟨a, rfl⟩ := hx; obtain ⟨b, rfl⟩ := hy
  exact ⟨a - b, (EReal.coe_sub a b).symm⟩

/-- The maximum of two reals is a real. -/
theorem IsRealS.max {x y : EReal} (hx : IsRealS x) (hy : IsRealS y) : IsRealS (max x y) := by
  rcases max_choice x y with h | h <;> rw [h] <;> assumption

/-- The minimum of two reals is a real. -/
theorem IsRealS.min {x y : EReal} (hx : IsRealS x) (hy : IsRealS y) : IsRealS (min x y) := by
  rcases min_choice x y with h | h <;> rw [h] <;> assumption

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_fintype_sum {ι : Type*} [Fintype ι] (f : ι → ℝ) :
    ((∑ i, f i : ℝ) : EReal) = ∑ i, (f i : EReal) := coe_finset_sum Finset.univ f

/-- A finite sum of reals is a real. -/
theorem isRealS_sum {ι : Type*} (s : Finset ι) (f : ι → EReal) (h : ∀ i ∈ s, IsRealS (f i)) :
    IsRealS (∑ i ∈ s, f i) := by
  classical
  induction s using Finset.induction_on with
  | empty => simpa using isRealS_zero
  | insert a s ha ih =>
    rw [Finset.sum_insert ha]
    exact (h a (Finset.mem_insert_self a s)).add (ih fun i hi => h i (Finset.mem_insert_of_mem hi))

/-- A sum over a finite set of entries of a real family is a real. -/
theorem IsReal.sum {ι : Type*} {f : ι → EReal} (h : IsReal f) (s : Finset ι) : IsRealS (∑ i ∈ s, f i) :=
  isRealS_sum s f fun i _ => h i

/-- A sum over a whole finite type of entries of a real family is a real. -/
theorem IsReal.sum_univ {ι : Type*} [Fintype ι] {f : ι → EReal} (h : IsReal f) : IsRealS (∑ i, f i) :=
  h.sum Finset.univ

/-- A finite sum of extended reals that are not negative is not negative. -/
theorem sum_nonneg {ι : Type*} (s : Finset ι) (f : ι → EReal) (h : ∀ i ∈ s, 0 ≤ f i) : 0 ≤ ∑ i ∈ s, f i :=
  Finset.sum_nonneg h

/-- The ideal quotient of two reals, the divisor not zero, is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The ideal quotient of a real by a nonzero real number is a real. -/
theorem IsRealS.div_coe {x : EReal} (hx : IsRealS x) {n : ℝ} (hn : n ≠ 0) : IsRealS (Ideal.div x (n : EReal)) := by
  obtain ⟨a, rfl⟩ := hx
  exact ⟨a / n, div_coe_coe a hn⟩

/-- The ideal quotient of a real by a real that is not zero is a real. -/
theorem IsRealS.div {x y : EReal} (hx : IsRealS x) (hy : IsRealS y) (hy0 : y ≠ 0) : IsRealS (Ideal.div x y) := by
  obtain ⟨n, rfl⟩ := hy
  exact hx.div_coe (by rintro rfl; exact hy0 rfl)

/-- The ideal quotient of a real that is not negative by a positive real is not negative. -/
theorem div_coe_nonneg {a n : ℝ} (ha : 0 ≤ a) (hn : 0 < n) : (0 : EReal) ≤ Ideal.div (a : EReal) (n : EReal) := by
  rw [div_coe_coe a hn.ne']
  exact EReal.coe_nonneg.mpr (div_nonneg ha hn.le)

/-- The ideal reciprocal square root of a positive real is the real reciprocal of its square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The ideal reciprocal square root of a positive real is a real. -/
theorem IsRealS.rsqrt {x : EReal} (hx : IsRealS x) (hpos : 0 < x) : IsRealS (Ideal.rsqrt x) := by
  obtain ⟨r, rfl⟩ := hx
  exact ⟨_, rsqrt_coe_pos (EReal.coe_pos.mp hpos)⟩

/-- The host's reciprocal square root at the ideal values is the same function. -/
theorem IsRealS.hostRsqrt {φ : FTy} {x : Ideal φ} (hx : IsRealS x) (hpos : (0 : EReal) < x) :
    IsRealS (FloatOps.hostUnary (F := Ideal) .rsqrt x) := by
  rw [Ideal.hostUnary_rsqrt_def]; exact hx.rsqrt hpos

/-- The ideal reciprocal square root of a positive real is positive. -/
theorem rsqrt_pos {x : EReal} (hx : IsRealS x) (hpos : 0 < x) : 0 < Ideal.rsqrt x := by
  obtain ⟨r, rfl⟩ := hx
  have hr : 0 < r := EReal.coe_pos.mp hpos
  rw [rsqrt_coe_pos hr]
  exact EReal.coe_pos.mpr (inv_pos.mpr (Real.sqrt_pos.mpr hr))

/-- An extended real that is not negative plus a positive one is positive. -/
theorem add_pos_of_nonneg_of_pos {v e : EReal} (hv : 0 ≤ v) (he : 0 < e) : 0 < v + e := by
  calc (0 : EReal) < e := he
    _ = 0 + e := (zero_add e).symm
    _ ≤ v + e := add_le_add hv le_rfl

/-- An extended real that is not negative, plus one, is at least one. -/
theorem one_le_add_one_of_nonneg {c : EReal} (hc : 0 ≤ c) : 1 ≤ c + 1 := by
  calc (1 : EReal) = 0 + 1 := (zero_add 1).symm
    _ ≤ c + 1 := add_le_add hc le_rfl

/-- An extended real that is at least one is positive. -/
theorem pos_of_one_le {x : EReal} (h : 1 ≤ x) : 0 < x := lt_of_lt_of_le zero_lt_one h

/-! ## The variance identity -/

/-- THE VARIANCE IDENTITY over the reals: for a finite family of N reals, N not zero, the mean of the
    squared deviations from the mean is the mean of the squares minus the square of the mean. -/
theorem variance_real {ι : Type*} [Fintype ι] (f : ι → ℝ) (N : ℝ) (hN : N = Fintype.card ι) (hN0 : N ≠ 0) :
    (∑ i, (f i - (∑ j, f j) / N) * (f i - (∑ j, f j) / N)) / N
      = (∑ i, f i * f i) / N - ((∑ j, f j) / N) * ((∑ j, f j) / N) := by
  have h1 : ∑ i, (f i - (∑ j, f j) / N) * (f i - (∑ j, f j) / N)
      = (∑ i, f i * f i) - 2 * ((∑ j, f j) / N) * (∑ j, f j) + N * (((∑ j, f j) / N) * ((∑ j, f j) / N)) := by
    have h2 : ∀ i, (f i - (∑ j, f j) / N) * (f i - (∑ j, f j) / N)
        = f i * f i - 2 * ((∑ j, f j) / N) * f i + ((∑ j, f j) / N) * ((∑ j, f j) / N) := fun i => by ring
    simp only [h2]
    rw [Finset.sum_add_distrib, Finset.sum_sub_distrib, ← Finset.mul_sum, Finset.sum_const, Finset.card_univ,
      nsmul_eq_mul, ← hN]
  rw [h1]
  field_simp
  ring

/-- The mean of the squared deviations is not negative. -/
theorem variance_real_nonneg {ι : Type*} [Fintype ι] (f : ι → ℝ) (N : ℝ) (hN0 : 0 < N) :
    0 ≤ (∑ i, (f i - (∑ j, f j) / N) * (f i - (∑ j, f j) / N)) / N :=
  div_nonneg (Finset.sum_nonneg fun i _ => mul_self_nonneg _) hN0.le

/-- The variance of a family of reals, in the deviation form. -/
def varR {ι : Type*} [Fintype ι] (f : ι → ℝ) (N : ℝ) : ℝ :=
  (∑ i, (f i - (∑ j, f j) / N) * (f i - (∑ j, f j) / N)) / N

/-- It is not negative. -/
theorem varR_nonneg {ι : Type*} [Fintype ι] (f : ι → ℝ) {N : ℝ} (hN0 : 0 < N) : 0 ≤ varR f N :=
  variance_real_nonneg f N hN0

/-- The deviation form of the variance over real-valued extended reals, each quotient the ideal division
    and each difference the extended reals' subtraction, is the coercion of the real variance. -/
theorem variance_dev_coe {ι : Type*} [Fintype ι] (r : ι → ℝ) {N : ℝ} (hN0 : N ≠ 0) :
    Ideal.div (∑ i, ((r i : EReal) - Ideal.div (∑ j, (r j : EReal)) (N : EReal))
        * ((r i : EReal) - Ideal.div (∑ j, (r j : EReal)) (N : EReal))) (N : EReal)
      = ((varR r N : ℝ) : EReal) := by
  rw [← coe_fintype_sum, div_coe_coe _ hN0]
  simp only [← EReal.coe_sub, ← EReal.coe_mul]
  rw [← coe_fintype_sum, div_coe_coe _ hN0]
  rfl

/-- The moment form of the variance over real-valued extended reals is the coercion of the real variance,
    when the divisor is the number of entries. -/
theorem variance_mom_coe {ι : Type*} [Fintype ι] (r : ι → ℝ) {N : ℝ} (hN : N = Fintype.card ι) (hN0 : N ≠ 0) :
    Ideal.div (∑ i, (r i : EReal) * (r i : EReal)) (N : EReal)
        - Ideal.div (∑ j, (r j : EReal)) (N : EReal) * Ideal.div (∑ j, (r j : EReal)) (N : EReal)
      = ((varR r N : ℝ) : EReal) := by
  simp only [← EReal.coe_mul]
  rw [← coe_fintype_sum, ← coe_fintype_sum, div_coe_coe _ hN0, div_coe_coe _ hN0, ← EReal.coe_mul, ← EReal.coe_sub,
    varR, variance_real r N hN hN0]

/-- THE VARIANCE IDENTITY over real-valued extended reals: the deviation form (the mean of the squared
    differences from the mean) is the moment form (the mean of the squares minus the squared mean); every
    quotient is the ideal division by the real N, the number of entries. -/
theorem variance_ereal {ι : Type*} [Fintype ι] (x : ι → EReal) (hx : IsReal x) {N : ℝ} (hN : N = Fintype.card ι)
    (hN0 : N ≠ 0) :
    Ideal.div (∑ i, (x i - Ideal.div (∑ j, x j) (N : EReal)) * (x i - Ideal.div (∑ j, x j) (N : EReal))) (N : EReal)
      = Ideal.div (∑ i, x i * x i) (N : EReal) - Ideal.div (∑ j, x j) (N : EReal) * Ideal.div (∑ j, x j) (N : EReal) := by
  obtain ⟨r, rfl⟩ := hx.exists_eq
  rw [variance_dev_coe r hN0, variance_mom_coe r hN hN0]

/-- The same with every sum carrying the leading zero summand of a host reduction. -/
theorem variance_ereal_zero_add {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (0 + ∑ i, x i * x i) (N : EReal)
          - Ideal.div (0 + ∑ j, x j) (N : EReal) * Ideal.div (0 + ∑ j, x j) (N : EReal) := by
  simp only [zero_add]
  exact variance_ereal x hx hN hN0

/-- The deviation form with the host's leading zeros is the moment form without them. -/
theorem variance_ereal_zero_add_left {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (∑ i, x i * x i) (N : EReal) - Ideal.div (∑ j, x j) (N : EReal) * Ideal.div (∑ j, x j) (N : EReal) := by
  simp only [zero_add]
  exact variance_ereal x hx hN hN0

/-- The deviation form of the variance of a real family is a real that is not negative (N positive). -/
theorem variance_dev_real_nonneg {ι : Type*} [Fintype ι] (x : ι → EReal) (hx : IsReal x) {N : ℝ} (hN0 : 0 < N) :
    ∃ v : ℝ, 0 ≤ v ∧
      Ideal.div (∑ i, (x i - Ideal.div (∑ j, x j) (N : EReal)) * (x i - Ideal.div (∑ j, x j) (N : EReal))) (N : EReal)
        = (v : EReal) := by
  obtain ⟨r, rfl⟩ := hx.exists_eq
  exact ⟨varR r N, varR_nonneg r hN0, variance_dev_coe r hN0.ne'⟩

/-- The moment form likewise, when N is the number of entries. -/
theorem variance_mom_real_nonneg {ι : Type*} [Fintype ι] (x : ι → EReal) (hx : IsReal x) {N : ℝ}
    (hN : N = Fintype.card ι) (hN0 : 0 < N) :
    ∃ v : ℝ, 0 ≤ v ∧
      Ideal.div (∑ i, x i * x i) (N : EReal) - Ideal.div (∑ j, x j) (N : EReal) * Ideal.div (∑ j, x j) (N : EReal)
        = (v : EReal) := by
  obtain ⟨r, rfl⟩ := hx.exists_eq
  exact ⟨varR r N, varR_nonneg r hN0, variance_mom_coe r hN hN0.ne'⟩

/-- A real that is not negative, as the two facts a later step uses. -/
theorem isRealS_and_nonneg_of_exists {y : EReal} (h : ∃ v : ℝ, 0 ≤ v ∧ y = (v : EReal)) : IsRealS y ∧ 0 ≤ y := by
  obtain ⟨v, hv, rfl⟩ := h
  exact ⟨⟨v, rfl⟩, EReal.coe_nonneg.mpr hv⟩

end Cert.Reals

end
-- ==== Proof.SegSum.lean ====
/-
  A segmented sum split into a count times a constant plus a segmented sum.

  For a fixed node and lane, one side adds, over the edges e selected by a condition c (the edge's
  destination is the node), the terms a + g e, where a does not depend on the edge; the other side
  first counts the selected edges (the sum over them of the float one), multiplies the count by a,
  and adds the sum over the selected edges of g e.  Over the real numbers these agree:
      Σ_{c e} (a + g e) = (Σ_{c e} 1) · a + Σ_{c e} g e.
  Over the extended reals the product does not distribute over sums in general, so the identity is
  proved for real entries: the witnesses are chosen, every sum becomes the image of a real sum, and
  the identity is checked term by term in the reals.  Each sum carries the leading summand zero of a
  reduction that starts from the float zero.

  Beside it: a dot product of real rows plus a real bias is a real.
-/
import Mathlib
import Idealize.ShloMosaic.PureOps.Ideal.Laws
import Idealize.ShloMosaic.Lib.IdealHost
import proofs.«181917_j74500502716662_2_alg».proof.Proof.LibReals

noncomputable section

namespace Cert.SegSum

open Idealize.ShloMosaic Cert.Reals
open scoped BigOperators

/-- Over the reals: the sum over the selected indices of a + g e is the number of selected indices
    times a, plus the sum over the selected indices of g e. -/
theorem seg_split_real {E : Nat} (c : Fin E → Prop) [DecidablePred c] (a : ℝ) (g : Fin E → ℝ) :
    ∑ e : Fin E, (if c e then a + g e else 0)
      = (∑ e : Fin E, (if c e then (1 : ℝ) else 0)) * a + ∑ e : Fin E, (if c e then g e else 0) := by
  rw [Finset.sum_mul, ← Finset.sum_add_distrib]
  refine Finset.sum_congr rfl fun e _ => ?_
  split_ifs <;> ring

/-- The segmented sum of a + g e over the selected edges, started from the float zero, is the count of
    the selected edges (the sum of the float one over them, started from the float zero) times a, plus
    the segmented sum of g e started from the float zero — when a and every g e are real numbers. -/
theorem seg_split {E : Nat} (c : Fin E → Prop) [DecidablePred c] (a : EReal) (g : Fin E → EReal)
    (ha : ∃ r : ℝ, a = (r : EReal)) (hg : ∀ e, ∃ r : ℝ, g e = (r : EReal)) :
    (Ideal.ofBits .f32 0x00000000#32 : EReal) + ∑ e : Fin E, (if c e then a + g e else 0)
      = ((Ideal.ofBits .f32 0x00000000#32 : EReal)
            + ∑ e : Fin E, (if c e then (Ideal.ofBits .f32 0x3F800000#32 : EReal) else 0)) * a
        + ((Ideal.ofBits .f32 0x00000000#32 : EReal) + ∑ e : Fin E, (if c e then g e else 0)) := by
  obtain ⟨ra, rfl⟩ := ha
  choose rg hrg using hg
  obtain rfl : g = fun e => (rg e : EReal) := funext hrg
  rw [Ideal.ofBits_zero_f32, Ideal.ofBits_one_f32]
  simp only [zero_add]
  have e1 : ∀ e, (if c e then (ra : EReal) + (rg e : EReal) else 0)
      = ((if c e then ra + rg e else 0 : ℝ) : EReal) := fun e => by
    split_ifs
    · exact (EReal.coe_add ra (rg e)).symm
    · exact EReal.coe_zero.symm
  have e2 : ∀ e, (if c e then (1 : EReal) else 0) = ((if c e then (1 : ℝ) else 0 : ℝ) : EReal) := fun e => by
    split_ifs
    · exact EReal.coe_one.symm
    · exact EReal.coe_zero.symm
  have e3 : ∀ e, (if c e then (rg e : EReal) else 0) = ((if c e then rg e else 0 : ℝ) : EReal) := fun e => by
    split_ifs
    · rfl
    · exact EReal.coe_zero.symm
  simp only [e1, e2, e3]
  rw [← coe_fintype_sum, ← coe_fintype_sum, ← coe_fintype_sum, ← EReal.coe_mul, ← EReal.coe_add,
    seg_split_real c ra rg]

/-- A dot product of two real rows plus a real bias is a real number. -/
theorem dot_bias_real {K : Nat} (x w : Fin K → EReal) (b : EReal) (hx : ∀ k, ∃ r : ℝ, x k = r)
    (hw : ∀ k, ∃ r : ℝ, w k = r) (hb : ∃ r : ℝ, b = r) :
    ∃ r : ℝ, (∑ k : Fin K, x k * w k) + b = (r : EReal) :=
  IsRealS.add (isRealS_sum _ _ fun k _ => IsRealS.mul (hx k) (hw k)) hb

end Cert.SegSum

end
-- ==== Proof.OutSpec.lean ====
/-
  The two programs' results as functions of the ten argument arrays, and why they are one function on finite inputs.

  Both programs compute, for node r and lane q, the layer normalisation of the row
    y k = (rate k · agg k + gamma k) / (1 + rate k · degree + eps),
  with rate, gamma and the projection h products of row r of x.  They differ in agg only: the reference sums, over the
  edges e into r, h[dst e] + h[src e]; the kernel's program forms count r · h r + the sum over those edges of h[src e].
  An edge into r has destination word r, which the gather's wrap and clamp leave at row r, so its first term is h r;
  and on REAL entries a sum of |S| copies of a number is |S| times the number.  That is where finiteness of the
  float inputs is used: h r k is a finite sum of products of reals.
-/
import proofs.«181917_j74500502716662_2_alg».proof.Proof.GraphSpec
import proofs.«181917_j74500502716662_2_alg».proof.Proof.SegSum
import Idealize.ShloMosaic.Lib.Affine

noncomputable section

namespace Cert.Layer

open Idealize.ShloMosaic Idealize.ShloMosaic.ValueIdx Idealize.ShloMosaic.RowGather
open scoped BigOperators

abbrev SW : Shape := ⟨2, ![128, 128]⟩
abbrev SV : Shape := ⟨1, ![128]⟩

/-- The projection h at node r, lane q. -/
def hAt (a0 : SN.Idx → EReal) (a3 : SW.Idx → EReal) (a4 : SV.Idx → EReal) (r : Fin 100000) (q : Fin 128) : EReal :=
  (∑ k : Fin 128, a0 (ix2 r k) * a3 (ix2 k q)) + a4 (ix1 q)

/-- The projection as a whole table. -/
def hArr (a0 : SN.Idx → EReal) (a3 : SW.Idx → EReal) (a4 : SV.Idx → EReal) : SN.Idx → EReal :=
  fun i => hAt a0 a3 a4 ⟨(i 0).val, idx2_lt0 i⟩ ⟨(i 1).val, idx2_lt1 i⟩

theorem hArr_apply (a0 : SN.Idx → EReal) (a3 : SW.Idx → EReal) (a4 : SV.Idx → EReal) (r : Fin 100000) (q : Fin 128) :
    hArr a0 a3 a4 (ix2 r q) = hAt a0 a3 a4 r q := rfl

/-- The layer's output with the aggregate given. -/
def outWith (agg : Fin 128 → EReal) (a0 : SN.Idx → EReal) (a2 : IVec SD 32) (a5 a6 : SW.Idx → EReal)
    (a7 a8 a9 : SV.Idx → EReal) (r : Fin 100000) (q : Fin 128) : EReal :=
  lnorm (fun k => pre (rate (∑ j : Fin 128, a0 (ix2 r j) * a5 (ix2 j k))) (agg k)
      ((∑ j : Fin 128, a0 (ix2 r j) * a6 (ix2 j k)) + a7 (ix1 k)) (degree a2 r)) (a8 (ix1 q)) (a9 (ix1 q)) q

/-- The kernel's program at (r, q). -/
def kernelOut (a0 : SN.Idx → EReal) (a1 : IVec SE 32) (a2 : IVec SD 32) (a3 : SW.Idx → EReal) (a4 : SV.Idx → EReal)
    (a5 a6 : SW.Idx → EReal) (a7 a8 a9 : SV.Idx → EReal) (r : Fin 100000) (q : Fin 128) : EReal :=
  outWith (fun k => count a1 r * hAt a0 a3 a4 r k + aggSrc (hArr a0 a3 a4) a1 r k) a0 a2 a5 a6 a7 a8 a9 r q

/-- The reference at (r, q). -/
def refOut (a0 : SN.Idx → EReal) (a1 : IVec SE 32) (a2 : IVec SD 32) (a3 : SW.Idx → EReal) (a4 : SV.Idx → EReal)
    (a5 a6 : SW.Idx → EReal) (a7 a8 a9 : SV.Idx → EReal) (r : Fin 100000) (q : Fin 128) : EReal :=
  outWith (fun k => aggBoth (hArr a0 a3 a4) a1 r k) a0 a2 a5 a6 a7 a8 a9 r q

/-- An index word that names node r gathers row r: it is not negative, so it is not wrapped, and it is below the
    table's extent, so it is not clamped. -/
theorem srcRow_of_hit (w : BitVec 32) (r : Fin 100000) (h : w.toInt = (r.val : Int)) : srcRow w = r := by
  unfold srcRow Cert.Lib.GraphOps.wrapIdx
  have hn : ¬ IntOp.cmpi .slt w 0#32 = (1 : BitVec 1) := by
    intro hh
    have h1 : w.toInt < (0#32 : BitVec 32).toInt := IntOp.cmpi_slt.mp hh
    have h0 : (0#32 : BitVec 32).toInt = 0 := by decide
    rw [h0, h] at h1; omega
  unfold Scalar.select
  rw [if_neg hn]
  unfold clampRow
  apply Fin.ext
  show min w.toInt.toNat (100000 - 1) = r.val
  rw [h]
  have := r.isLt
  simp only [Int.toNat_natCast]
  omega

/-- THE TWO AGGREGATES AGREE on a table of real entries. -/
theorem agg_eq (H : SN.Idx → EReal) (hH : ∀ i, ∃ x : ℝ, H i = (x : EReal)) (a1 : IVec SE 32) (r : Fin 100000) (k : Fin 128) :
    count a1 r * H (ix2 r k) + aggSrc H a1 r k = aggBoth H a1 r k := by
  unfold count aggSrc aggBoth
  have e := Cert.SegSum.seg_split (fun e : Fin 800000 => (a1 (ix2 (0 : Fin 2) e)).toInt = (r.val : Int)) (H (ix2 r k))
    (fun e => H (ix2 (srcRow (a1 (ix2 (1 : Fin 2) e))) k)) (hH _) (fun e => hH _)
  refine Eq.trans ?_ (Eq.trans e.symm ?_)
  · rfl
  · refine congrArg (z + ·) (Finset.sum_congr rfl fun e _ => ?_)
    by_cases hc : (a1 (ix2 (0 : Fin 2) e)).toInt = (r.val : Int)
    · rw [if_pos hc, if_pos hc, srcRow_of_hit _ r hc]
    · rw [if_neg hc, if_neg hc]

/-- THE TWO PROGRAMS' RESULTS AGREE when x, the projection weight and its bias are real. -/
theorem kernelOut_eq_refOut (a0 : SN.Idx → EReal) (a1 : IVec SE 32) (a2 : IVec SD 32) (a3 : SW.Idx → EReal) (a4 : SV.Idx → EReal)
    (a5 a6 : SW.Idx → EReal) (a7 a8 a9 : SV.Idx → EReal)
    (h0 : ∀ i, ∃ x : ℝ, a0 i = (x : EReal)) (h3 : ∀ i, ∃ x : ℝ, a3 i = (x : EReal)) (h4 : ∀ i, ∃ x : ℝ, a4 i = (x : EReal))
    (r : Fin 100000) (q : Fin 128) :
    kernelOut a0 a1 a2 a3 a4 a5 a6 a7 a8 a9 r q = refOut a0 a1 a2 a3 a4 a5 a6 a7 a8 a9 r q := by
  unfold kernelOut refOut
  refine congrArg (fun f => outWith f a0 a2 a5 a6 a7 a8 a9 r q) (funext fun k => ?_)
  have hH : ∀ i, ∃ x : ℝ, hArr a0 a3 a4 i = (x : EReal) := fun i =>
    Cert.SegSum.dot_bias_real (fun k => a0 (ix2 _ k)) (fun k => a3 (ix2 k _)) (a4 (ix1 _)) (fun _ => h0 _) (fun _ => h3 _) (h4 _)
  rw [← hArr_apply a0 a3 a4 r k]
  exact agg_eq (hArr a0 a3 a4) hH a1 r k

end Cert.Layer

end
-- ==== Proof.KBridge.lean ====
/-
  The second kernel's whole-array function meets the layer's closed form.  If the nine operand arrays of the
  normalising kernel hold, at row r, what the program's host operations put there — x itself, the projection h, the
  aggregated source rows, the count and the degree as the two statistics columns, the two weights, and the three
  parameter vectors laid out as rows — then the kernel's value at (r, q) is the kernel program's closed form.
-/
import proofs.«181917_j74500502716662_2_alg».proof.Proof.KRegion1
import proofs.«181917_j74500502716662_2_alg».proof.Proof.OutSpec

noncomputable section

namespace Cert.KernelIdeal.Region1

open Idealize.ShloMosaic Idealize.ShloMosaic.ValueIdx Cert.KernelIdeal Cert.Layer
open scoped BigOperators

theorem normAt_eq_kernelOut (X H A2 : S100000x128.Idx → EReal) (ST : S100000x2.Idx → EReal) (Wr Wb : S128x128.Idx → EReal)
    (Br Lg Lb : S1x128.Idx → EReal)
    (a0 : SN.Idx → EReal) (a1 : IVec SE 32) (a2 : IVec SD 32) (a3 : SW.Idx → EReal) (a4 : SV.Idx → EReal)
    (a5 a6 : SW.Idx → EReal) (a7 a8 a9 : SV.Idx → EReal) (r : Fin 100000) (q : Fin 128)
    (hX : ∀ j : Fin 128, X (ix2 r j) = a0 (ix2 r j)) (hH : ∀ k : Fin 128, H (ix2 r k) = hAt a0 a3 a4 r k)
    (hA : ∀ k : Fin 128, A2 (ix2 r k) = aggSrc (hArr a0 a3 a4) a1 r k)
    (hS0 : ST (ix2 r (0 : Fin 2)) = count a1 r) (hS1 : ST (ix2 r (1 : Fin 2)) = degree a2 r)
    (hWr : ∀ j k : Fin 128, Wr (ix2 j k) = a5 (ix2 j k)) (hWb : ∀ j k : Fin 128, Wb (ix2 j k) = a6 (ix2 j k))
    (hBr : ∀ k : Fin 128, Br (ix2 (0 : Fin 1) k) = a7 (ix1 k)) (hLg : ∀ k : Fin 128, Lg (ix2 (0 : Fin 1) k) = a8 (ix1 k))
    (hLb : ∀ k : Fin 128, Lb (ix2 (0 : Fin 1) k) = a9 (ix1 k)) :
    normAt X H A2 ST Wr Wb Br Lg Lb r q = kernelOut a0 a1 a2 a3 a4 a5 a6 a7 a8 a9 r q := by
  unfold normAt kernelOut outWith
  simp only [hX, hH, hA, hS0, hS1, hWr, hWb, hBr, hLg, hLb]

end Cert.KernelIdeal.Region1

end
-- ==== Proof.KValue.lean ====
/-
  The kernel program's result as one function of its ten argument arrays.  Followed through the program's segments:
  the first launch leaves the projection h of x in its result array; the host operations between the launches
  aggregate the gathered rows of h, count the edges into each node, convert the degrees and lay the three parameter
  vectors out as rows; the second launch leaves in the result array, at (r, q), the layer of row r of those operands.
  Unfolded, that is the closed form `Cert.Layer.kernelOut` of the argument arrays as launched.
-/
import proofs.«181917_j74500502716662_2_alg».proof.Proof.KArgs
import proofs.«181917_j74500502716662_2_alg».proof.Proof.KHost
import proofs.«181917_j74500502716662_2_alg».proof.Proof.KBridge

set_option maxRecDepth 16384

noncomputable section

namespace Cert.KernelIdeal.KValue

open Idealize.ShloMosaic Idealize.ShloMosaic.TcCoe Idealize.ShloMosaic.ValueIdx
open Idealize.SL Idealize.SL.Sem
open Cert.KernelIdeal Cert.KernelIdeal.Gen Cert.KernelIdeal.KArgs Cert.KernelIdeal.Host Cert.Layer

variable (m : (ℓ : Loc nD τ sig) → Buf (Elt Ideal) ℓ) (ρ : Dev nD → PrngReg)

/-- The projection array the first region leaves is the table h of the argument arrays. -/
theorem proj_eq (c : Dev nD) :
    (W2 m ρ c (Proc.devRef .tc main_v1) : S100000x128.Idx → EReal)
      = hArr (m ((c : Thread nD τ).loc main_arg0)) (m ((c : Thread nD τ).loc main_arg3)) (m ((c : Thread nD τ).loc main_arg4)) := by
  rw [W2_proj]
  funext i
  unfold Cert.KernelIdeal.Region.projArr Cert.KernelIdeal.Region.projAt hArr hAt
  rw [W1_bias]

/-- The result array after the run, at (r, q): the kernel program's closed form of the argument arrays. -/
theorem out_apply (c : Dev nD) (r : Fin 100000) (q : Fin 128) :
    (W4 m ρ c (Proc.devRef .tc main_v27) : S100000x128.Idx → EReal) (ix2 r q)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) r q := by
  have hfin : W4 m ρ c (Proc.devRef .tc main_v27) = _ := (W4_arr m ρ c 9).trans (Cert.KernelIdeal.Region1.final (V3 m ρ) c)
  rw [hfin, Cert.KernelIdeal.Region1.normArr_apply]
  refine Cert.KernelIdeal.Region1.normAt_eq_kernelOut _ _ _ _ _ _ _ _ _ _ _ _ _ _ _ _ _ _ _ r q ?_ ?_ ?_ ?_ ?_ ?_ ?_ ?_ ?_ ?_
  · intro j
    show (after1 (W2 m ρ c) (Proc.devRef .tc main_arg0) : S100000x128.Idx → EReal) (ix2 r j) = _
    rw [after1_main_arg0, W2_main_arg0]
  · intro k
    show (after1 (W2 m ρ c) (Proc.devRef .tc main_v1) : S100000x128.Idx → EReal) (ix2 r k) = _
    rw [after1_main_v1, proj_eq, hArr_apply]
  · intro k
    show (after1 (W2 m ρ c) (Proc.devRef .tc main_v15) : S100000x128.Idx → EReal) (ix2 r k) = _
    rw [after1_main_v15, proj_eq, W2_main_arg1]
  · show (after1 (W2 m ρ c) (Proc.devRef .tc main_v23) : S100000x2.Idx → EReal) (ix2 r (0 : Fin 2)) = _
    rw [after1_main_v23_count, W2_main_arg1]
  · show (after1 (W2 m ρ c) (Proc.devRef .tc main_v23) : S100000x2.Idx → EReal) (ix2 r (1 : Fin 2)) = _
    rw [after1_main_v23_degree, W2_main_arg2]
  · intro j k
    show (after1 (W2 m ρ c) (Proc.devRef .tc main_arg5) : S128x128.Idx → EReal) (ix2 j k) = _
    rw [after1_main_arg5, W2_main_arg5]
  · intro j k
    show (after1 (W2 m ρ c) (Proc.devRef .tc main_arg6) : S128x128.Idx → EReal) (ix2 j k) = _
    rw [after1_main_arg6, W2_main_arg6]
  · intro k
    show (after1 (W2 m ρ c) (Proc.devRef .tc main_v24) : S1x128.Idx → EReal) (ix2 (0 : Fin 1) k) = _
    rw [after1_main_v24, W2_main_arg7]
  · intro k
    show (after1 (W2 m ρ c) (Proc.devRef .tc main_v25) : S1x128.Idx → EReal) (ix2 (0 : Fin 1) k) = _
    rw [after1_main_v25, W2_main_arg8]
  · intro k
    show (after1 (W2 m ρ c) (Proc.devRef .tc main_v26) : S1x128.Idx → EReal) (ix2 (0 : Fin 1) k) = _
    rw [after1_main_v26, W2_main_arg9]

end Cert.KernelIdeal.KValue

end
-- ==== Proof.RefRunOps.lean ====
/- The idealized reference as a straight line of operations.

   The reference is a host-only program: a straight line of tensor operations, three of them calls of outlined
   functions (the softplus; the row variance, which itself calls the elementwise choice). A call runs the callee's
   body on the operands, each value of the body in a buffer of its own, so the whole program is ONE straight line:
   the 110 operations listed below in program order, each callee's operations standing at its call site over that
   call's buffers. From that list the run is read back: every weakly fair execution terminates, the result buffer
   holds the operations' composed value of the ten argument arrays, and the argument arrays are unchanged (the next
   module); here the list, and the program's equality with it. -/
import proofs.«181917_j74500502716662_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 110 operations, in order. Operation 1 is the first matrix product; 2-15 are the softplus of it
    (the zero and its three broadcasts, the maximum with zero, the difference from zero and its self-comparison, the
    sum with zero, absolute value, negation, exponential, log(1+·), the sum and the final choice); 16-73 the rest of the
    first window (the two other affine maps, the edge index columns normalized and gathered, the scatter-sum over
    the source index, the degree column, the gated quotient, its row mean); 74-93 the row variance of the quotient
    (row sum, mean, centered squares, their row sum, the divisor 128 - 0, the comparison that guards it), 94-96 the
    guarded choice; 97-110 the normalization, scale and shift. -/
abbrev ops : List (HloOp τ sig (Elt F)) :=
  [ binary main_arg0 main_arg5 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v0) main_call0.v0 main_call0.v1 maximumf,
    TRef.unary main_call0.cst main_call0.v2 (broadcastInDim S100000x128 ![] bcast_S_S100000x128),
    TRef.binary (.of main_v0) main_call0.v2 main_call0.v3 subf,
    TRef.binary main_call0.v3 main_call0.v3 main_call0.v4 (cmpf .une),
    TRef.unary main_call0.cst main_call0.v5 (broadcastInDim S100000x128 ![] bcast_S_S100000x128),
    TRef.binary (.of main_v0) main_call0.v5 main_call0.v6 addf,
    TRef.unary main_call0.v3 main_call0.v7 Host.absf,
    TRef.unary main_call0.v7 main_call0.v8 Host.negf,
    TRef.unary main_call0.v8 main_call0.v9 Host.exp,
    TRef.unary main_call0.v9 main_call0.v10 Host.log1p,
    TRef.binary main_call0.v1 main_call0.v10 main_call0.v11 addf,
    TRef.ternary main_call0.v4 main_call0.v6 main_call0.v11 main_call0.v12 select,
    nullary main_cst (constant S_ .f32 0x38D1B717#32),
    unary main_cst main_v2 (broadcastInDim S100000x128 ![] bcast_S_S100000x128 : (⟨S_, .f32⟩ : BufTy).Contents (Elt F) → (⟨S100000x128, .f32⟩ : BufTy).Contents (Elt F)),
    binary main_v1 main_v2 main_v3 (addf : (⟨S100000x128, .f32⟩ : BufTy).Contents (Elt F) → (⟨S100000x128, .f32⟩ : BufTy).Contents (Elt F) → (⟨S100000x128, .f32⟩ : BufTy).Contents (Elt F)),
    binary main_arg0 main_arg6 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v5 (broadcastInDim S1x128 ![1] bcast_S128_S1x128_1 : (⟨S128, .f32⟩ : BufTy).Contents (Elt F) → (⟨S1x128, .f32⟩ : BufTy).Contents (Elt F)),
    unary main_v5 main_v6 (broadcastInDim S100000x128 ![0, 1] bcast_S1x128_S100000x128_0_1 : (⟨S1x128, .f32⟩ : BufTy).Contents (Elt F) → (⟨S100000x128, .f32⟩ : BufTy).Contents (Elt F)),
    binary main_v4 main_v6 main_v7 (addf : (⟨S100000x128, .f32⟩ : BufTy).Contents (Elt F) → (⟨S100000x128, .f32⟩ : BufTy).Contents (Elt F) → (⟨S100000x128, .f32⟩ : BufTy).Contents (Elt F)),
    binary main_arg0 main_arg3 main_v8 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v9 (broadcastInDim S1x128 ![1] bcast_S128_S1x128_1 : (⟨S128, .f32⟩ : BufTy).Contents (Elt F) → (⟨S1x128, .f32⟩ : BufTy).Contents (Elt F)),
    unary main_v9 main_v10 (broadcastInDim S100000x128 ![0, 1] bcast_S1x128_S100000x128_0_1 : (⟨S1x128, .f32⟩ : BufTy).Contents (Elt F) → (⟨S100000x128, .f32⟩ : BufTy).Contents (Elt F)),
    binary main_v8 main_v10 main_v11 (addf : (⟨S100000x128, .f32⟩ : BufTy).Contents (Elt F) → (⟨S100000x128, .f32⟩ : BufTy).Contents (Elt F) → (⟨S100000x128, .f32⟩ : BufTy).Contents (Elt F)),
    unary main_arg1 main_v12 ((extractStridedSlice S1x800000 ![0, 0] · slices_S2x800000_S1x800000_0_0) : (⟨S2x800000, .i32⟩ : BufTy).Contents (Elt F) → (⟨S1x800000, .i32⟩ : BufTy).Contents (Elt F)),
    reshape main_v12 main_v13 rfl shapeCasts_S1x800000_S800000,
    unary main_arg1 main_v14 ((extractStridedSlice S1x800000 ![1, 0] · slices_S2x800000_S1x800000_1_0) : (⟨S2x800000, .i32⟩ : BufTy).Contents (Elt F) → (⟨S1x800000, .i32⟩ : BufTy).Contents (Elt F)),
    reshape main_v14 main_v15 rfl shapeCasts_S1x800000_S800000,
    nullary main_c (constantI S_ 32 0#32),
    unary main_c main_v16 (broadcastInDim S800000 ![] bcast_S_S800000 : (⟨S_, .i32⟩ : BufTy).Contents (Elt F) → (⟨S800000, .i32⟩ : BufTy).Contents (Elt F)),
    binary main_v13 main_v16 main_v17 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v18 (broadcastInDim S800000 ![] bcast_S_S800000 : (⟨S_, .i32⟩ : BufTy).Contents (Elt F) → (⟨S800000, .i32⟩ : BufTy).Contents (Elt F)),
    binary main_v13 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v13 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v11 main_v21 main_v22 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    nullary main_c_1 (constantI S_ 32 0#32),
    unary main_c_1 main_v23 (broadcastInDim S800000 ![] bcast_S_S800000 : (⟨S_, .i32⟩ : BufTy).Contents (Elt F) → (⟨S800000, .i32⟩ : BufTy).Contents (Elt F)),
    binary main_v15 main_v23 main_v24 (cmpi .slt : (⟨S800000, .i32⟩ : BufTy).Contents (Elt F) → (⟨S800000, .i32⟩ : BufTy).Contents (Elt F) → (⟨S800000, .i1⟩ : BufTy).Contents (Elt F)),
    nullary main_c_2 (constantI S_ 32 100000#32),
    unary main_c_2 main_v25 (broadcastInDim S800000 ![] bcast_S_S800000 : (⟨S_, .i32⟩ : BufTy).Contents (Elt F) → (⟨S800000, .i32⟩ : BufTy).Contents (Elt F)),
    binary main_v15 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_v15 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v11 main_v28 main_v29 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    binary main_v22 main_v29 main_v30 (addf : (⟨S800000x128, .f32⟩ : BufTy).Contents (Elt F) → (⟨S800000x128, .f32⟩ : BufTy).Contents (Elt F) → (⟨S800000x128, .f32⟩ : BufTy).Contents (Elt F)),
    nullary main_cst_3 (constant S_ .f32 0x00000000#32),
    unary main_cst_3 main_v31 (broadcastInDim S100000x128 ![] bcast_S_S100000x128 : (⟨S_, .f32⟩ : BufTy).Contents (Elt F) → (⟨S100000x128, .f32⟩ : BufTy).Contents (Elt F)),
    unary main_v13 main_v32 (broadcastInDim S800000x1 ![0] bcast_S800000_S800000x1_0 : (⟨S800000, .i32⟩ : BufTy).Contents (Elt F) → (⟨S800000x1, .i32⟩ : BufTy).Contents (Elt F)),
    ternary main_v31 main_v32 main_v30 main_v33 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    unary main_arg2 main_v34 (sitofp .f32 : (⟨S100000, .i32⟩ : BufTy).Contents (Elt F) → (⟨S100000, .f32⟩ : BufTy).Contents (Elt F)),
    unary main_v34 main_v35 (broadcastInDim S100000x1 ![0] bcast_S100000_S100000x1_0 : (⟨S100000, .f32⟩ : BufTy).Contents (Elt F) → (⟨S100000x1, .f32⟩ : BufTy).Contents (Elt F)),
    binary main_v3 main_v33 main_v36 (mulf : (⟨S100000x128, .f32⟩ : BufTy).Contents (Elt F) → (⟨S100000x128, .f32⟩ : BufTy).Contents (Elt F) → (⟨S100000x128, .f32⟩ : BufTy).Contents (Elt F)),
    binary main_v36 main_v7 main_v37 (addf : (⟨S100000x128, .f32⟩ : BufTy).Contents (Elt F) → (⟨S100000x128, .f32⟩ : BufTy).Contents (Elt F) → (⟨S100000x128, .f32⟩ : BufTy).Contents (Elt F)),
    unary main_v35 main_v38 (broadcastInDim S100000x128 ![0, 1] bcast_S100000x1_S100000x128_0_1 : (⟨S100000x1, .f32⟩ : BufTy).Contents (Elt F) → (⟨S100000x128, .f32⟩ : BufTy).Contents (Elt F)),
    binary main_v3 main_v38 main_v39 (mulf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3F800000#32),
    unary main_cst_4 main_v40 (broadcastInDim S100000x128 ![] bcast_S_S100000x128 : (⟨S_, .f32⟩ : BufTy).Contents (Elt F) → (⟨S100000x128, .f32⟩ : BufTy).Contents (Elt F)),
    binary main_v40 main_v39 main_v41 (addf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x38D1B717#32),
    unary main_cst_5 main_v42 (broadcastInDim S100000x128 ![] bcast_S_S100000x128 : (⟨S_, .f32⟩ : BufTy).Contents (Elt F) → (⟨S100000x128, .f32⟩ : BufTy).Contents (Elt F)),
    binary main_v41 main_v42 main_v43 (addf : (⟨S100000x128, .f32⟩ : BufTy).Contents (Elt F) → (⟨S100000x128, .f32⟩ : BufTy).Contents (Elt F) → (⟨S100000x128, .f32⟩ : BufTy).Contents (Elt F)),
    binary main_v37 main_v43 main_v44 (Host.divf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x00000000#32),
    binary main_v44 main_cst_6 main_v45 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    nullary main_cst_7 (constant S_ .f32 0x43000000#32),
    unary main_cst_7 main_v47 (broadcastInDim S100000x1 ![] bcast_S_S100000x1 : (⟨S_, .f32⟩ : BufTy).Contents (Elt F) → (⟨S100000x1, .f32⟩ : BufTy).Contents (Elt F)),
    binary main_v46 main_v47 main_v48 (Host.divf : (⟨S100000x1, .f32⟩ : BufTy).Contents (Elt F) → (⟨S100000x1, .f32⟩ : BufTy).Contents (Elt F) → (⟨S100000x1, .f32⟩ : BufTy).Contents (Elt F)),
    nullary main_c_8 (constantI S_ 32 0#32),
    TRef.nullary main_call1.cst (constant S_ .f32 0x00000000#32),
    TRef.binary (.of main_v44) main_call1.cst main_call1.v0 (fun x v => Host.reduceAdd x v reducesTo_S100000x128_S100000_d1 h_S_),
    TRef.unary main_call1.v0 main_call1.v1 (broadcastInDim S100000x1 ![0] bcast_S100000_S100000x1_0),
    TRef.nullary main_call1.cst_0 (constant S_ .f32 0x43000000#32),
    TRef.unary main_call1.cst_0 main_call1.v2 (broadcastInDim S100000x1 ![] bcast_S_S100000x1),
    TRef.binary main_call1.v1 main_call1.v2 main_call1.v3 Host.divf,
    TRef.unary main_call1.v3 main_call1.v4 (broadcastInDim S100000x128 ![0, 1] bcast_S100000x1_S100000x128_0_1),
    TRef.binary (.of main_v44) main_call1.v4 main_call1.v5 subf,
    TRef.binary main_call1.v5 main_call1.v5 main_call1.v6 mulf,
    TRef.unary (.of main_c_8) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x128_S100000_d1 h_S_),
    TRef.unary main_call1.v9 main_call1.v10 (broadcastInDim S100000x1 ![0] bcast_S100000_S100000x1_0),
    TRef.unary main_call1.v8 main_call1.v11 (broadcastInDim S100000x1 ![] bcast_S_S100000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S100000x1 ![] bcast_S_S100000x1),
    TRef.ternary main_call1.v13 main_call1.v12 main_call1.call0.v1 main_call1.call0.v2 (fun p a b => select (broadcastInDim S100000x1 ![] bcast_S_S100000x1 p) a b),
    unary main_v48 main_v50 (broadcastInDim S100000x128 ![0, 1] bcast_S100000x1_S100000x128_0_1 : (⟨S100000x1, .f32⟩ : BufTy).Contents (Elt F) → (⟨S100000x128, .f32⟩ : BufTy).Contents (Elt F)),
    binary main_v44 main_v50 main_v51 (subf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x3727C5AC#32),
    unary main_cst_9 main_v52 (broadcastInDim S100000x1 ![] bcast_S_S100000x1 : (⟨S_, .f32⟩ : BufTy).Contents (Elt F) → (⟨S100000x1, .f32⟩ : BufTy).Contents (Elt F)),
    binary main_v49 main_v52 main_v53 (addf : (⟨S100000x1, .f32⟩ : BufTy).Contents (Elt F) → (⟨S100000x1, .f32⟩ : BufTy).Contents (Elt F) → (⟨S100000x1, .f32⟩ : BufTy).Contents (Elt F)),
    unary main_v53 main_v54 (Host.rsqrt : (⟨S100000x1, .f32⟩ : BufTy).Contents (Elt F) → (⟨S100000x1, .f32⟩ : BufTy).Contents (Elt F)),
    unary main_v54 main_v55 (broadcastInDim S100000x128 ![0, 1] bcast_S100000x1_S100000x128_0_1 : (⟨S100000x1, .f32⟩ : BufTy).Contents (Elt F) → (⟨S100000x128, .f32⟩ : BufTy).Contents (Elt F)),
    binary main_v51 main_v55 main_v56 (mulf : (⟨S100000x128, .f32⟩ : BufTy).Contents (Elt F) → (⟨S100000x128, .f32⟩ : BufTy).Contents (Elt F) → (⟨S100000x128, .f32⟩ : BufTy).Contents (Elt F)),
    unary main_arg8 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v56 main_v58 main_v59 (mulf : (⟨S100000x128, .f32⟩ : BufTy).Contents (Elt F) → (⟨S100000x128, .f32⟩ : BufTy).Contents (Elt F) → (⟨S100000x128, .f32⟩ : BufTy).Contents (Elt F)),
    unary main_arg9 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v59 main_v61 main_v62 (addf : (⟨S100000x128, .f32⟩ : BufTy).Contents (Elt F) → (⟨S100000x128, .f32⟩ : BufTy).Contents (Elt F) → (⟨S100000x128, .f32⟩ : BufTy).Contents (Elt F)) ]

-- one hundred and ten binds re-associated: the rewrite under the chain recurses once per statement
set_option maxRecDepth 8192 in
set_option maxHeartbeats 4000000 in
/-- The printed program is that straight line: its two windows in order, the three functions' bodies unfolded at
    their calls over the calls' buffer records; both sides are one chain of steps once sequencing is re-associated. -/
theorem main_eq (c : Dev nD) : main (F := F) c = seq ops := by
  simp only [main, main_part0, main_part1, fn_softplus.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., nullary_bufs_sub .., unary_bufs_sub .., binary_bufs_sub ..,
    binary_bufs_sub .., unary_bufs_sub .., unary_bufs_sub .., binary_bufs_sub .., binary_bufs_sub .., unary_bufs_sub ..,
    unary_bufs_sub .., binary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., unary_bufs_sub .., ternary_bufs_sub .., unary_bufs_sub ..,
    unary_bufs_sub .., binary_bufs_sub .., binary_bufs_sub .., unary_bufs_sub .., binary_bufs_sub .., nullary_bufs_sub ..,
    unary_bufs_sub .., binary_bufs_sub .., nullary_bufs_sub .., unary_bufs_sub .., binary_bufs_sub .., binary_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

end Cert.ReferenceIdeal.RefRun

end
-- ==== Proof.RefRun.lean ====
/- The run of the idealized reference: its value and its frame.

   The reference is one straight line of 110 tensor operations (the previous module). Here the operations'
   functions are composed, stage by stage, into ONE function `val_out` of the ten argument arrays, and the run is read
   back from the line: every weakly fair execution terminates, the result buffer holds `val_out` of the argument
   arrays' launch contents, and the argument arrays are unchanged. -/
import proofs.«181917_j74500502716662_2_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The value

The operations' functions composed, stage by stage, as functions of the argument arrays. The constants are the
program's: `0x00000000` is 0, `0x38D1B717` is 1e-4, `0x3F800000` is 1, `0x43000000` is 128, `0x3727C5AC` is 1e-5,
`0x7FC00000` the not-a-number the guarded choice falls back to. -/

/-- A scalar constant at every position of a node-by-feature array. -/
def fill (b : BitVec 32) : (⟨S100000x128, .f32⟩ : BufTy).Contents (Elt F) :=
  broadcastInDim S100000x128 ![] bcast_S_S100000x128 (constant S_ .f32 b)

/-- A scalar at every position of a column. -/
def fillCol (s : (⟨S_, .f32⟩ : BufTy).Contents (Elt F)) : (⟨S100000x1, .f32⟩ : BufTy).Contents (Elt F) :=
  broadcastInDim S100000x1 ![] bcast_S_S100000x1 s

/-- A feature vector repeated down the rows. -/
def rowB (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- A column repeated across the features. -/
def colB (c : (⟨S100000x1, .f32⟩ : BufTy).Contents (Elt F)) : (⟨S100000x128, .f32⟩ : BufTy).Contents (Elt F) :=
  broadcastInDim S100000x128 ![0, 1] bcast_S100000x1_S100000x128_0_1 c

/-- A per-node vector as a column. -/
def asCol (v : (⟨S100000, .f32⟩ : BufTy).Contents (Elt F)) : (⟨S100000x1, .f32⟩ : BufTy).Contents (Elt F) :=
  broadcastInDim S100000x1 ![0] bcast_S100000_S100000x1_0 v

/-- The sum of each row, from zero. -/
def rowSum (x : (⟨S100000x128, .f32⟩ : BufTy).Contents (Elt F)) : (⟨S100000, .f32⟩ : BufTy).Contents (Elt F) :=
  Host.reduceAdd x (constant S_ .f32 0x00000000#32) reducesTo_S100000x128_S100000_d1 h_S_

/-- The matrix product `a · w`. -/
def dot (a : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none a w

/-- The softplus as the program computes it: `max x 0 + log (1 + exp (-|x - 0|))`, and `x + 0` where `x - 0` differs
    from itself. -/
def softplus (x : (⟨S100000x128, .f32⟩ : BufTy).Contents (Elt F)) : (⟨S100000x128, .f32⟩ : BufTy).Contents (Elt F) :=
  select (cmpf .une (subf x (fill 0x00000000#32)) (subf x (fill 0x00000000#32))) (addf x (fill 0x00000000#32))
    (addf (maximumf x (fill 0x00000000#32)) (Host.log1p (Host.exp (Host.negf (Host.absf (subf x (fill 0x00000000#32)))))))

/-- The gate: softplus of the first affine map, plus 1e-4 (value `%3`). -/
def gate (a0 : (⟨S100000x128, .f32⟩ : BufTy).Contents (Elt F)) (a5 : (⟨S128x128, .f32⟩ : BufTy).Contents (Elt F)) : (⟨S100000x128, .f32⟩ : BufTy).Contents (Elt F) :=
  addf (softplus (dot a0 a5)) (fill 0x38D1B717#32)

/-- The skip term: the second affine map (value `%7`). -/
def skip (a0 : (⟨S100000x128, .f32⟩ : BufTy).Contents (Elt F)) (a6 : (⟨S128x128, .f32⟩ : BufTy).Contents (Elt F)) (a7 : (⟨S128, .f32⟩ : BufTy).Contents (Elt F)) : (⟨S100000x128, .f32⟩ : BufTy).Contents (Elt F) :=
  addf (dot a0 a6) (rowB a7)

/-- The message: the third affine map (value `%11`). -/
def msg (a0 : (⟨S100000x128, .f32⟩ : BufTy).Contents (Elt F)) (a3 : (⟨S128x128, .f32⟩ : BufTy).Contents (Elt F)) (a4 : (⟨S128, .f32⟩ : BufTy).Contents (Elt F)) : (⟨S100000x128, .f32⟩ : BufTy).Contents (Elt F) :=
  addf (dot a0 a3) (rowB a4)

/-- Row 0 of the edge table, as a vector (value `%13`). -/
def edge0 (a1 : (⟨S2x800000, .i32⟩ : BufTy).Contents (Elt F)) : (⟨S800000, .i32⟩ : BufTy).Contents (Elt F) :=
  shapeCast S800000 (extractStridedSlice S1x800000 ![0, 0] a1 slices_S2x800000_S1x800000_0_0) shapeCasts_S1x800000_S800000

/-- Row 1 of the edge table, as a vector (value `%15`). -/
def edge1 (a1 : (⟨S2x800000, .i32⟩ : BufTy).Contents (Elt F)) : (⟨S800000, .i32⟩ : BufTy).Contents (Elt F) :=
  shapeCast S800000 (extractStridedSlice S1x800000 ![1, 0] a1 slices_S2x800000_S1x800000_1_0) shapeCasts_S1x800000_S800000

/-- An index vector as the column of gather indices: a negative index has the node count 100000 added first. -/
def wrapIdx (e : (⟨S800000, .i32⟩ : BufTy).Contents (Elt F)) : (⟨S800000x1, .i32⟩ : BufTy).Contents (Elt F) :=
  broadcastInDim S800000x1 ![0] bcast_S800000_S800000x1_0
    (select (cmpi .slt e (broadcastInDim S800000 ![] bcast_S_S800000 (constantI S_ 32 0#32)))
      (addi e (broadcastInDim S800000 ![] bcast_S_S800000 (constantI S_ 32 100000#32))) e)

/-- The rows of `x` the index column names. -/
def gatherRows (x : (⟨S100000x128, .f32⟩ : BufTy).Contents (Elt F)) (i : (⟨S800000x1, .i32⟩ : BufTy).Contents (Elt F)) : (⟨S800000x128, .f32⟩ : BufTy).Contents (Elt F) :=
  Host.gather gather_S100000x128_S800000x1_S800000x128_1_0_n_n_0_1_1128 x i

/-- The aggregation: per edge the sum of the messages at its two ends, summed into the row its first end names, from
    zero (value `%33`). -/
def agg (h : (⟨S100000x128, .f32⟩ : BufTy).Contents (Elt F)) (e0 e1 : (⟨S800000, .i32⟩ : BufTy).Contents (Elt F)) : (⟨S100000x128, .f32⟩ : BufTy).Contents (Elt F) :=
  Host.scatterAdd scatter_S100000x128_S800000x1_S800000x128_1_0_0_1 (fill 0x00000000#32)
    (broadcastInDim S800000x1 ![0] bcast_S800000_S800000x1_0 e0) (addf (gatherRows h (wrapIdx e0)) (gatherRows h (wrapIdx e1)))

/-- The per-node count as a float, across the features (value `%38`). -/
def deg (a2 : (⟨S100000, .i32⟩ : BufTy).Contents (Elt F)) : (⟨S100000x128, .f32⟩ : BufTy).Contents (Elt F) :=
  colB (asCol (sitofp .f32 a2))

/-- The gated quotient `(g · agg + s) / ((1 + g · deg) + 1e-4)` (value `%44`). -/
def quot (a0 : (⟨S100000x128, .f32⟩ : BufTy).Contents (Elt F)) (a1 : (⟨S2x800000, .i32⟩ : BufTy).Contents (Elt F)) (a2 : (⟨S100000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128x128, .f32⟩ : BufTy).Contents (Elt F)) (a7 : (⟨S128, .f32⟩ : BufTy).Contents (Elt F)) : (⟨S100000x128, .f32⟩ : BufTy).Contents (Elt F) :=
  Host.divf (addf (mulf (gate a0 a5) (agg (msg a0 a3 a4) (edge0 a1) (edge1 a1))) (skip a0 a6 a7))
    (addf (addf (fill 0x3F800000#32) (mulf (gate a0 a5) (deg a2))) (fill 0x38D1B717#32))

/-- The mean of each row: its sum over 128, as a column (values `%48`, and `%3` of the variance). -/
def rowMean (q : (⟨S100000x128, .f32⟩ : BufTy).Contents (Elt F)) : (⟨S100000x1, .f32⟩ : BufTy).Contents (Elt F) :=
  Host.divf (asCol (rowSum q)) (fillCol (constant S_ .f32 0x43000000#32))

/-- The variance's divisor `128 - 0`, a scalar. -/
def varCount : (⟨S_, .f32⟩ : BufTy).Contents (Elt F) :=
  subf (constant S_ .f32 0x43000000#32) (sitofp .f32 (constantI S_ 32 0#32))

/-- The variance of each row: the sum of the squared deviations from the row mean over `128 - 0`, where that divisor is
    positive, and not-a-number elsewhere (value `%49`). -/
def rowVar (q : (⟨S100000x128, .f32⟩ : BufTy).Contents (Elt F)) : (⟨S100000x1, .f32⟩ : BufTy).Contents (Elt F) :=
  select (broadcastInDim S100000x1 ![] bcast_S_S100000x1 (cmpf .ogt (varCount (F := F)) (constant S_ .f32 0x00000000#32)))
    (Host.divf (asCol (rowSum (mulf (subf q (colB (rowMean q))) (subf q (colB (rowMean q)))))) (fillCol (varCount (F := F))))
    (fillCol (id (constant S_ .f32 0x7FC00000#32)))

/-- The normalization of `q`'s rows, scaled and shifted: `(q - mean) · rsqrt (var + 1e-5) · a8 + a9` (value `%62`). -/
def normed (q : (⟨S100000x128, .f32⟩ : BufTy).Contents (Elt F)) (a8 a9 : (⟨S128, .f32⟩ : BufTy).Contents (Elt F)) : (⟨S100000x128, .f32⟩ : BufTy).Contents (Elt F) :=
  addf (mulf (mulf (subf q (colB (rowMean q))) (colB (Host.rsqrt (addf (rowVar q) (fillCol (constant S_ .f32 0x3727C5AC#32))))))
    (rowB a8)) (rowB a9)

/-- The program's result as a function of its ten argument arrays. -/
def val_out (a0 : (⟨S100000x128, .f32⟩ : BufTy).Contents (Elt F)) (a1 : (⟨S2x800000, .i32⟩ : BufTy).Contents (Elt F)) (a2 : (⟨S100000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128x128, .f32⟩ : BufTy).Contents (Elt F)) (a7 : (⟨S128, .f32⟩ : BufTy).Contents (Elt F))
    (a8 a9 : (⟨S128, .f32⟩ : BufTy).Contents (Elt F)) : (⟨S100000x128, .f32⟩ : BufTy).Contents (Elt F) :=
  normed (quot a0 a1 a2 a3 a4 a5 a6 a7) a8 a9

/-! ## The result buffer after the line

Each operation's result at its own buffer is its function of its operands' contents, and any other buffer keeps what it
held; unfolding the line at the result buffer, operation by operation, gives the composed value, and at an argument
buffer, which no operation writes, what was there. -/

set_option maxRecDepth 8192 in
set_option maxHeartbeats 4000000 in
theorem out_eq (V : Valuation τ sig (Elt F)) :
    after ops V (main_v62 : DevRef τ sig) = val_out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  rfl

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

set_option maxRecDepth 8192 in
set_option maxHeartbeats 4000000 in
theorem arg3_eq (V : Valuation τ sig (Elt F)) :
    after ops V (main_arg3 : DevRef τ sig) = V (main_arg3 : DevRef τ sig) := by
  after_results_simp

set_option maxRecDepth 8192 in
set_option maxHeartbeats 4000000 in
theorem arg4_eq (V : Valuation τ sig (Elt F)) :
    after ops V (main_arg4 : DevRef τ sig) = V (main_arg4 : DevRef τ sig) := by
  after_results_simp

set_option maxRecDepth 8192 in
set_option maxHeartbeats 4000000 in
theorem arg5_eq (V : Valuation τ sig (Elt F)) :
    after ops V (main_arg5 : DevRef τ sig) = V (main_arg5 : DevRef τ sig) := by
  after_results_simp

set_option maxRecDepth 8192 in
set_option maxHeartbeats 4000000 in
theorem arg6_eq (V : Valuation τ sig (Elt F)) :
    after ops V (main_arg6 : DevRef τ sig) = V (main_arg6 : DevRef τ sig) := by
  after_results_simp

set_option maxRecDepth 8192 in
set_option maxHeartbeats 4000000 in
theorem arg7_eq (V : Valuation τ sig (Elt F)) :
    after ops V (main_arg7 : DevRef τ sig) = V (main_arg7 : DevRef τ sig) := by
  after_results_simp

set_option maxRecDepth 8192 in
set_option maxHeartbeats 4000000 in
theorem arg8_eq (V : Valuation τ sig (Elt F)) :
    after ops V (main_arg8 : DevRef τ sig) = V (main_arg8 : DevRef τ sig) := by
  after_results_simp

set_option maxRecDepth 8192 in
set_option maxHeartbeats 4000000 in
theorem arg9_eq (V : Valuation τ sig (Elt F)) :
    after ops V (main_arg9 : DevRef τ sig) = V (main_arg9 : DevRef τ sig) := by
  after_results_simp

/-! ## The run -/

-- the list's freshness side condition is read off its 110 cons cells, one case each
set_option maxRecDepth 8192 in
set_option maxHeartbeats 4000000 in
/-- On every device, for any float values, from any memory with zero counters: every weakly fair execution of the
    program terminates with the result buffer at `val_out` of the argument arrays' launch contents and the argument
    arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62) = val_out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v62).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.RefRun

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«181917_j74500502716662_2_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibRowForms.lean ====
/-
  A vector laid out as a row in two ways.

  A vector [C] becomes the row [1, C] either by a reshape or by a broadcast onto axis 1: both read, at (0, c),
  the vector at c, so they are the same row.
-/
import proofs.«181917_j74500502716662_2_alg».proof.Proof.LibRows

noncomputable section

namespace Cert.Lib.RowForms

open Idealize.ShloMosaic Idealize.ShloMosaic.ValueIdx

variable {α : Type}

/-- A vector [C] broadcast onto axis 1 of [1, C] is the vector reshaped to [1, C]. -/
theorem broadcastInDim_row_eq_shapeCast {C : Nat} (b : (⟨1, ![C]⟩ : Shape).Idx → α)
    (hb : (⟨1, ![C]⟩ : Shape).BroadcastsInDim ⟨2, ![1, C]⟩ (![1] : Fin 1 → Fin 2))
    (hs : (⟨1, ![C]⟩ : Shape).ShapeCasts ⟨2, ![1, C]⟩) :
    broadcastInDim ⟨2, ![1, C]⟩ (![1] : Fin 1 → Fin 2) hb b = shapeCast ⟨2, ![1, C]⟩ b hs := by
  funext j
  obtain ⟨p, q, rfl⟩ : ∃ (p : Fin 1) (q : Fin C), j = ix2 p q := ⟨j 0, j 1, eq_ix2 j⟩
  obtain rfl : p = 0 := Subsingleton.elim _ _
  rw [Cert.Lib.Rows.shapeCast_vec_row_apply]
  refine broadcastInDim_apply (![1] : Fin 1 → Fin 2) hb b (ix2 0 q) (ix1 q) (fun a => ?_)
  match a with
  | ⟨0, _⟩ =>
    show q.val = if C = 1 then 0 else q.val
    by_cases hC : C = 1
    · rw [if_pos hC]; have := q.isLt; omega
    · rw [if_neg hC]

end Cert.Lib.RowForms

end
-- ==== Proof.RefValueBase.lean ====
/- The reference's elementwise and affine stages read at an index, at the ideal values.

   At the ideal values a float is an extended real and every operation its exact one, so each stage of the
   reference's value, read at a node r and a lane k, is a plain expression of the argument arrays at indices: a
   scalar constant spread over an array reads the constant; a feature vector repeated down the rows reads its
   entry at the lane; the matrix product reads the sum over the contracted axis; the softplus reads the scalar
   softplus of the entry; and the gate, the skip term, the message and the degree array read the layer's scalar
   functions of those. No finiteness is used: each equation is a reading. -/
import proofs.«181917_j74500502716662_2_alg».proof.Proof.RefRun
import proofs.«181917_j74500502716662_2_alg».proof.Proof.OutSpec
import proofs.«181917_j74500502716662_2_alg».proof.Proof.LibRowBlocks
import proofs.«181917_j74500502716662_2_alg».proof.Proof.LibRowBroadcast
import proofs.«181917_j74500502716662_2_alg».proof.Proof.LibRowForms
import proofs.«181917_j74500502716662_2_alg».proof.Proof.LibHostColumns
import Idealize.ShloMosaic.Lib.IdealHost

noncomputable section

namespace Cert.ReferenceIdeal.RefValue

open Cert.ReferenceIdeal Cert.ReferenceIdeal.Gen Idealize.ShloMosaic Idealize.ShloMosaic.ValueIdx
open scoped BigOperators

/-- A scalar constant spread over the node-by-feature array reads the constant's value everywhere. -/
theorem fill_apply (b : BitVec 32) (i : S100000x128.Idx) : RefRun.fill (F := Ideal) b i = Ideal.ofBits .f32 b := by
  unfold RefRun.fill
  exact ValueIdx.broadcastInDim_scalar_apply bcast_S_S100000x128 (constant (F := Ideal) S_ .f32 b) i

/-- A feature vector repeated down the rows reads, at (r, k), its entry at k. -/
theorem rowB_apply (b : (⟨S128, .f32⟩ : BufTy).Contents (Elt Ideal)) (r : Fin 100000) (k : Fin 128) : RefRun.rowB b (ix2 r k) = b (ix1 k) := by
  unfold RefRun.rowB
  rw [Cert.Lib.RowBroadcast.broadcastInDim_row_apply (R := 100000) (C := 128) _ bcast_S1x128_S100000x128_0_1 r k,
    Cert.Lib.RowForms.broadcastInDim_row_eq_shapeCast (C := 128) b bcast_S128_S1x128_1 (by decide),
    Cert.Lib.Rows.shapeCast_vec_row_apply]

/-- The matrix product reads, at (r, k), the sum over the contracted axis. -/
theorem dot_apply (a : (⟨S100000x128, .f32⟩ : BufTy).Contents (Elt Ideal)) (w : (⟨S128x128, .f32⟩ : BufTy).Contents (Elt Ideal)) (r : Fin 100000) (k : Fin 128) :
    RefRun.dot a w (ix2 r k) = ∑ j : Fin 128, a (ix2 r j) * w (ix2 j k) := by
  unfold RefRun.dot
  exact Cert.Lib.RowBlocks.dotGeneral_plain_apply (M := 100000) (K := 128) (N := 128) none a w r k

/-- The softplus reads, at every index, the scalar softplus of the entry there. -/
theorem softplus_apply (x : (⟨S100000x128, .f32⟩ : BufTy).Contents (Elt Ideal)) (i : S100000x128.Idx) : RefRun.softplus x i = Cert.Layer.softplus (x i) := by
  rw [← Cert.Layer.softplus_neg (x i)]
  show Scalar.select (Ideal.cmp .une (x i - RefRun.fill (F := Ideal) 0x00000000#32 i) (x i - RefRun.fill (F := Ideal) 0x00000000#32 i))
      (x i + RefRun.fill (F := Ideal) 0x00000000#32 i)
      (max (x i) (RefRun.fill (F := Ideal) 0x00000000#32 i)
        + Ideal.log1p (Ideal.exp (-(max (x i - RefRun.fill (F := Ideal) 0x00000000#32 i) (-(x i - RefRun.fill (F := Ideal) 0x00000000#32 i)))))) = _
  rw [fill_apply]

/-- The gate reads, at (r, k), the layer's rate of the first product's entry. -/
theorem gate_apply (a0 : (⟨S100000x128, .f32⟩ : BufTy).Contents (Elt Ideal)) (a5 : (⟨S128x128, .f32⟩ : BufTy).Contents (Elt Ideal)) (r : Fin 100000) (k : Fin 128) :
    RefRun.gate a0 a5 (ix2 r k) = Cert.Layer.rate (∑ j : Fin 128, a0 (ix2 r j) * a5 (ix2 j k)) := by
  show RefRun.softplus (RefRun.dot a0 a5) (ix2 r k) + RefRun.fill (F := Ideal) 0x38D1B717#32 (ix2 r k) = _
  rw [softplus_apply, dot_apply, fill_apply]
  rfl

/-- The skip term reads, at (r, k), the second product's entry plus the bias at k. -/
theorem skip_apply (a0 : (⟨S100000x128, .f32⟩ : BufTy).Contents (Elt Ideal)) (a6 : (⟨S128x128, .f32⟩ : BufTy).Contents (Elt Ideal)) (a7 : (⟨S128, .f32⟩ : BufTy).Contents (Elt Ideal)) (r : Fin 100000) (k : Fin 128) :
    RefRun.skip a0 a6 a7 (ix2 r k) = (∑ j : Fin 128, a0 (ix2 r j) * a6 (ix2 j k)) + a7 (ix1 k) := by
  show RefRun.dot a0 a6 (ix2 r k) + RefRun.rowB a7 (ix2 r k) = _
  rw [dot_apply, rowB_apply]

/-- The message reads, at (r, k), the layer's projection of node r at lane k. -/
theorem msg_apply (a0 : (⟨S100000x128, .f32⟩ : BufTy).Contents (Elt Ideal)) (a3 : (⟨S128x128, .f32⟩ : BufTy).Contents (Elt Ideal)) (a4 : (⟨S128, .f32⟩ : BufTy).Contents (Elt Ideal)) (r : Fin 100000) (k : Fin 128) :
    RefRun.msg a0 a3 a4 (ix2 r k) = Cert.Layer.hAt a0 a3 a4 r k := by
  show RefRun.dot a0 a3 (ix2 r k) + RefRun.rowB a4 (ix2 r k) = _
  rw [dot_apply, rowB_apply]
  rfl

/-- The message is the layer's projection table. -/
theorem msg_eq (a0 : (⟨S100000x128, .f32⟩ : BufTy).Contents (Elt Ideal)) (a3 : (⟨S128x128, .f32⟩ : BufTy).Contents (Elt Ideal)) (a4 : (⟨S128, .f32⟩ : BufTy).Contents (Elt Ideal)) : RefRun.msg a0 a3 a4 = Cert.Layer.hArr a0 a3 a4 := by
  funext i
  obtain ⟨r, k, rfl⟩ : ∃ (r : Fin 100000) (k : Fin 128), i = ix2 r k := ⟨i 0, i 1, eq_ix2 i⟩
  rw [msg_apply, Cert.Layer.hArr_apply]

/-- The degree array reads, at (r, k), node r's degree word as a float. -/
theorem deg_apply (a2 : (⟨S100000, .i32⟩ : BufTy).Contents (Elt Ideal)) (r : Fin 100000) (k : Fin 128) : RefRun.deg a2 (ix2 r k) = Cert.Layer.degree a2 r := by
  unfold RefRun.deg RefRun.colB RefRun.asCol
  rw [Cert.Lib.HostColumns.bcast_col_lanes_apply (a := 100000) (b := 128) _ bcast_S100000x1_S100000x128_0_1 r k 0,
    Cert.Lib.HostColumns.bcast_vec_col_apply (a := 100000) _ bcast_S100000_S100000x1_0 r 0]
  rfl

end Cert.ReferenceIdeal.RefValue

end
-- ==== Proof.RefValueQuot.lean ====
/- The reference's gated quotient read at an index, at the ideal values.

   At node r and lane k the quotient is the layer's scalar `pre` of four readings: the rate of the first
   product's entry, the aggregate of the projection table over the edges into r, the second product's entry plus
   its bias, and node r's degree. The quotient is the host's division at each element, the numerator and the
   divisor sums and products at each element, so the reading is the four stage readings put together. -/
import proofs.«181917_j74500502716662_2_alg».proof.Proof.RefValueBase

noncomputable section

namespace Cert.ReferenceIdeal.RefValue

open Cert.ReferenceIdeal Cert.ReferenceIdeal.Gen Idealize.ShloMosaic Idealize.ShloMosaic.ValueIdx
open scoped BigOperators

/-- The quotient at (r, k), given the aggregate's reading. -/
theorem quot_apply_of
    (hagg : ∀ (h : (⟨S100000x128, .f32⟩ : BufTy).Contents (Elt Ideal)) (a1 : (⟨S2x800000, .i32⟩ : BufTy).Contents (Elt Ideal)) (r : Fin 100000) (k : Fin 128),
      RefRun.agg (F := Ideal) h (RefRun.edge0 a1) (RefRun.edge1 a1) (ix2 r k) = Cert.Layer.aggBoth h a1 r k)
    (a0 : (⟨S100000x128, .f32⟩ : BufTy).Contents (Elt Ideal)) (a1 : (⟨S2x800000, .i32⟩ : BufTy).Contents (Elt Ideal)) (a2 : (⟨S100000, .i32⟩ : BufTy).Contents (Elt Ideal))
    (a3 : (⟨S128x128, .f32⟩ : BufTy).Contents (Elt Ideal)) (a4 : (⟨S128, .f32⟩ : BufTy).Contents (Elt Ideal)) (a5 a6 : (⟨S128x128, .f32⟩ : BufTy).Contents (Elt Ideal)) (a7 : (⟨S128, .f32⟩ : BufTy).Contents (Elt Ideal))
    (r : Fin 100000) (k : Fin 128) :
    RefRun.quot a0 a1 a2 a3 a4 a5 a6 a7 (ix2 r k)
      = Cert.Layer.pre (Cert.Layer.rate (∑ j : Fin 128, a0 (ix2 r j) * a5 (ix2 j k))) (Cert.Layer.aggBoth (Cert.Layer.hArr a0 a3 a4) a1 r k)
          ((∑ j : Fin 128, a0 (ix2 r j) * a6 (ix2 j k)) + a7 (ix1 k)) (Cert.Layer.degree a2 r) := by
  show Ideal.div (RefRun.gate a0 a5 (ix2 r k) * RefRun.agg (RefRun.msg a0 a3 a4) (RefRun.edge0 a1) (RefRun.edge1 a1) (ix2 r k)
        + RefRun.skip a0 a6 a7 (ix2 r k))
      ((RefRun.fill (F := Ideal) 0x3F800000#32 (ix2 r k) + RefRun.gate a0 a5 (ix2 r k) * RefRun.deg a2 (ix2 r k))
        + RefRun.fill (F := Ideal) 0x38D1B717#32 (ix2 r k)) = _
  rw [gate_apply, msg_eq, hagg, skip_apply, deg_apply, fill_apply, fill_apply]
  rfl

end Cert.ReferenceIdeal.RefValue

end
-- ==== Proof.RefAgg.lean ====
/-
  The reference's aggregation read at an index.

  The reference aggregates, into node r and lane k, over the edges whose destination word names r, the sum of
  the gathered destination row and the gathered source row of the message table: each of the two index words
  of an edge is wrapped around when negative, made a column and gathered (the gather clamps it into the
  table), the two gathered rows are added, and the sums are added into a table of zeros at the rows the
  destination words, unwrapped, name.  Read at (r, k) this is the graph-side function of the edge list.
-/
import proofs.«181917_j74500502716662_2_alg».proof.Proof.RefRun
import proofs.«181917_j74500502716662_2_alg».proof.Proof.GraphSpec
import proofs.«181917_j74500502716662_2_alg».proof.Proof.LibGraphOps
import proofs.«181917_j74500502716662_2_alg».proof.Proof.LibScatterAdd
import proofs.«181917_j74500502716662_2_alg».proof.Proof.LibRowGather
import proofs.«181917_j74500502716662_2_alg».proof.Proof.LibHostColumns
import proofs.«181917_j74500502716662_2_alg».proof.Proof.LibRowBroadcast
import proofs.«181917_j74500502716662_2_alg».proof.Proof.LibRows
import Idealize.ShloMosaic.Lib.ValueIdx
import Idealize.ShloMosaic.Lib.IdealHost

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.RefRun
open scoped BigOperators

/-- Row 0 of the edge list flattened, at e: the destination word of edge e. -/
theorem edge0_apply (a1 : IVec S2x800000 32) (e : Fin 800000) :
    edge0 (F := Ideal) a1 (ix1 e) = a1 (ix2 (0 : Fin 2) e) :=
  Cert.Lib.GraphOps.edge_row_apply 0 (by decide) a1 slices_S2x800000_S1x800000_0_0 shapeCasts_S1x800000_S800000 e

/-- Row 1 of the edge list flattened, at e: the source word of edge e. -/
theorem edge1_apply (a1 : IVec S2x800000 32) (e : Fin 800000) :
    edge1 (F := Ideal) a1 (ix1 e) = a1 (ix2 (1 : Fin 2) e) :=
  Cert.Lib.GraphOps.edge_row_apply 1 (by decide) a1 slices_S2x800000_S1x800000_1_0 shapeCasts_S1x800000_S800000 e

/-- The wrapped index column at (e, 0): the word at e, wrapped around when negative. -/
theorem wrapIdx_apply (w : IVec S800000 32) (e : Fin 800000) :
    RefRun.wrapIdx (F := Ideal) w (ix2 e (0 : Fin 1)) = Cert.Lib.GraphOps.wrapIdx 100000 (w (ix1 e)) :=
  Cert.Lib.GraphOps.wrapped_col_apply 100000 w bcast_S_S800000 bcast_S800000_S800000x1_0 e

/-- The rows gathered at the wrapped words: edge e's row is the table's row its word, wrapped and clamped, names. -/
theorem gatherRows_apply (h : FVec Ideal S100000x128 .f32) (w : IVec S800000 32) (e : Fin 800000) (k : Fin 128) :
    (gatherRows (F := Ideal) h (RefRun.wrapIdx (F := Ideal) w) (ix2 e k) : EReal)
      = h (ix2 (Cert.Layer.srcRow (w (ix1 e))) k) := by
  show Host.gather
      (RowGather.rowDims 100000 800000 128 gather_S100000x128_S800000x1_S800000x128_1_0_n_n_0_1_1128_wf)
      h (RefRun.wrapIdx (F := Ideal) w) (ix2 e k) = _
  rw [RowGather.gather_rows_apply (by decide : 0 < 100000), wrapIdx_apply]
  rfl

/-- THE AGGREGATION of the reference at node r, lane k. -/
theorem agg_apply (h : FVec Ideal S100000x128 .f32) (a1 : IVec S2x800000 32) (r : Fin 100000) (k : Fin 128) :
    agg (F := Ideal) h (edge0 (F := Ideal) a1) (edge1 (F := Ideal) a1) (ix2 r k) = Cert.Layer.aggBoth h a1 r k := by
  show (Host.scatterAdd
      (Cert.Lib.ScatterAdd.rowDims 100000 800000 128 scatter_S100000x128_S800000x1_S800000x128_1_0_0_1_wf)
      (broadcastInDim S100000x128 ![] bcast_S_S100000x128 (constant (F := Ideal) S_ .f32 0x00000000#32))
      (broadcastInDim S800000x1 ![0] bcast_S800000_S800000x1_0 (edge0 (F := Ideal) a1))
      (addf (gatherRows (F := Ideal) h (RefRun.wrapIdx (F := Ideal) (edge0 (F := Ideal) a1)))
        (gatherRows (F := Ideal) h (RefRun.wrapIdx (F := Ideal) (edge1 (F := Ideal) a1))))
      (ix2 r k) : EReal) = _
  rw [Cert.Lib.GraphOps.aggregate_apply]
  unfold Cert.Layer.aggBoth
  refine congrArg₂ (fun a b : EReal => a + b) rfl (Finset.sum_congr rfl fun e _ => ?_)
  rw [edge0_apply]
  refine congrArg (fun t : EReal => if (a1 (ix2 (0 : Fin 2) e)).toInt = (r.val : Int) then t else 0) ?_
  show (gatherRows (F := Ideal) h (RefRun.wrapIdx (F := Ideal) (edge0 (F := Ideal) a1)) (ix2 e k) : EReal)
      + (gatherRows (F := Ideal) h (RefRun.wrapIdx (F := Ideal) (edge1 (F := Ideal) a1)) (ix2 e k) : EReal) = _
  rw [gatherRows_apply, gatherRows_apply, edge0_apply, edge1_apply]

end Cert.ReferenceIdeal.RefValue

end
-- ==== Proof.LibHostRows2.lean ====
/-
  The host's reductions over the last axis of a rank-2 array, read at a row, at the ideal values and for any extents.

  A one-operand host reduce with a maximum body over the last axis of an [a, n] array is, at row p, the running
  maximum from the initial value over the n entries of row p; the host's sum over the last axis is, at row p, the
  initial value plus the sum of the n entries of row p.
-/
import Idealize.ShloMosaic.Lib.ValueIdx
import Idealize.ShloMosaic.PureOps.Ideal.Laws

noncomputable section

namespace Cert.Lib.HostRows2

open Idealize.ShloMosaic Idealize.ShloMosaic.ValueIdx

/-- The host's maximum over the last axis of an [a, n] array, from the initial value, read at row p: the running
    maximum over the row. -/
theorem hostMax_last2_apply {a n : ℕ} {φ : FTy} {u : Shape} (x : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  refine (Host.reduce_eq_fold_single FloatOps.maximumf x init h' h hu (ix1 p)).trans ?_
  show (Finset.univ : Finset (Fin n)).fold max (init (Shape.Idx.first hu)) (x ∘ h.lift (ix1 p)) = _
  refine congrArg (fun f => (Finset.univ : Finset (Fin n)).fold max (init (Shape.Idx.first hu)) f) (funext fun k => congrArg x ?_)
  exact funext fun ax => Fin.ext (by match ax with | ⟨0, _⟩ => rfl | ⟨1, _⟩ => rfl)

/-- The host's sum over the last axis of an [a, n] array, from the initial value, read at row p: the initial value
    plus the sum over the row. -/
theorem hostSum_last2_apply {a n : ℕ} {φ : FTy} {u : Shape} (x : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduceAdd x init h' hu (ix1 p) = init (Shape.Idx.first hu) + ∑ k : Fin n, x (ix2 p k) := by
  show Ideal.hostReduceAdd h' x (init (Shape.Idx.first hu)) (ix1 p) = _
  rw [Ideal.hostReduceAdd_single h' h]
  refine congrArg (_ + ·) (Finset.sum_congr rfl fun k _ => congrArg x ?_)
  exact funext fun ax => Fin.ext (by match ax with | ⟨0, _⟩ => rfl | ⟨1, _⟩ => rfl)

end Cert.Lib.HostRows2

end
-- ==== Proof.RefTail.lean ====
/-
  The reference's normalisation read at an index.  The reference takes each row's mean as the host's sum over the
  lanes divided by 128, the variance as the host's sum of squared deviations divided by 128 - 0 (chosen by a test
  128 - 0 > 0 that holds), and returns (y - mean) * rsqrt (var + eps') * gamma + beta.  At (r, q) this is the layer
  normalisation (Spec.lean) of row r, with the scale and shift of lane q.
-/
import proofs.«181917_j74500502716662_2_alg».proof.Proof.RefRun
import proofs.«181917_j74500502716662_2_alg».proof.Proof.Spec
import proofs.«181917_j74500502716662_2_alg».proof.Proof.LibHostRows2
import proofs.«181917_j74500502716662_2_alg».proof.Proof.LibHostColumns
import proofs.«181917_j74500502716662_2_alg».proof.Proof.LibRowBroadcast
import proofs.«181917_j74500502716662_2_alg».proof.Proof.LibRowForms
import Idealize.ShloMosaic.Lib.IdealHost
import Idealize.ShloMosaic.Lib.KernelVsHost

noncomputable section

namespace Cert.ReferenceIdeal.RefTail

open Idealize.ShloMosaic Idealize.ShloMosaic.ValueIdx Cert.ReferenceIdeal Cert.ReferenceIdeal.Gen Cert.ReferenceIdeal.RefRun
open scoped BigOperators

/-- The word 0x43000000 is the number 128. -/
theorem c128_eq : Cert.Layer.c128 = ((128 : ℝ) : EReal) := by
  simp [Cert.Layer.c128, Ideal.ofBits, Ideal.ieee]
  rw [← EReal.coe_mul]
  norm_num

theorem colB_apply (c : FVec Ideal S100000x1 .f32) (r : Fin 100000) (k : Fin 128) :
    colB (F := Ideal) c (ix2 r k) = c (ix2 r (0 : Fin 1)) :=
  Cert.Lib.HostColumns.bcast_col_lanes_apply c bcast_S100000x1_S100000x128_0_1 r k 0

theorem asCol_apply (v : FVec Ideal S100000 .f32) (r : Fin 100000) :
    asCol (F := Ideal) v (ix2 r (0 : Fin 1)) = v (ix1 r) :=
  Cert.Lib.HostColumns.bcast_vec_col_apply v bcast_S100000_S100000x1_0 r 0

theorem fillCol_apply (s : FVec Ideal S_ .f32) (r : Fin 100000) :
    fillCol (F := Ideal) s (ix2 r (0 : Fin 1)) = s ix0 :=
  Cert.Lib.RowBroadcast.broadcastInDim_scalar_apply s bcast_S_S100000x1 (ix2 r (0 : Fin 1)) ix0

theorem rowB_apply (b : FVec Ideal S128 .f32) (r : Fin 100000) (q : Fin 128) :
    rowB (F := Ideal) b (ix2 r q) = b (ix1 q) := by
  unfold rowB
  rw [Cert.Lib.RowBroadcast.broadcastInDim_row_apply _ bcast_S1x128_S100000x128_0_1 r q,
    Cert.Lib.RowForms.broadcastInDim_row_eq_shapeCast b bcast_S128_S1x128_1 (by decide)]
  exact Cert.Lib.Rows.shapeCast_vec_row_apply b _ q

theorem rowSum_apply (x : FVec Ideal S100000x128 .f32) (r : Fin 100000) :
    rowSum (F := Ideal) x (ix1 r) = Cert.Layer.z + ∑ k : Fin 128, x (ix2 r k) :=
  Cert.Lib.HostRows2.hostSum_last2_apply x (constant (F := Ideal) S_ .f32 0x00000000#32) reducesTo_S100000x128_S100000_d1
    (by decide) h_S_ r

theorem rowMean_apply (y : FVec Ideal S100000x128 .f32) (r : Fin 100000) :
    rowMean (F := Ideal) y (ix2 r (0 : Fin 1)) = Cert.Layer.mean (fun k => y (ix2 r k)) := by
  unfold rowMean Cert.Layer.mean
  show Ideal.div (asCol (F := Ideal) (rowSum (F := Ideal) y) (ix2 r (0 : Fin 1))) (fillCol (F := Ideal) (constant (F := Ideal) S_ .f32 0x43000000#32) (ix2 r (0 : Fin 1))) = _
  rw [asCol_apply, rowSum_apply, fillCol_apply]
  rfl

/-- The variance's divisor is 128. -/
theorem varCount_eq : varCount (F := Ideal) ix0 = Cert.Layer.c128 := by
  unfold varCount
  show Cert.Layer.c128 - (Scalar.sitofp (F := Ideal) .f32 0#32 : EReal) = _
  rw [sitofp_zero, sub_zero]

theorem rowVar_apply (y : FVec Ideal S100000x128 .f32) (r : Fin 100000) :
    rowVar (F := Ideal) y (ix2 r (0 : Fin 1)) = Cert.Layer.var (fun k => y (ix2 r k)) := by
  unfold rowVar Cert.Layer.var
  have hc : broadcastInDim S100000x1 ![] bcast_S_S100000x1 (cmpf .ogt (varCount (F := Ideal)) (constant (F := Ideal) S_ .f32 0x00000000#32))
      (ix2 r (0 : Fin 1)) = 1#1 := by
    rw [Cert.Lib.RowBroadcast.broadcastInDim_scalar_apply _ bcast_S_S100000x1 (ix2 r (0 : Fin 1)) ix0]
    show Ideal.cmp .ogt (varCount (F := Ideal) ix0) Cert.Layer.z = 1#1
    rw [varCount_eq, Cert.Layer.z_eq, c128_eq]
    unfold Ideal.cmp
    simp
  show Scalar.select (broadcastInDim S100000x1 ![] bcast_S_S100000x1 (cmpf .ogt (varCount (F := Ideal)) (constant (F := Ideal) S_ .f32 0x00000000#32)) (ix2 r (0 : Fin 1)))
      (Ideal.div (asCol (F := Ideal) (rowSum (F := Ideal) (mulf (subf y (colB (F := Ideal) (rowMean (F := Ideal) y))) (subf y (colB (F := Ideal) (rowMean (F := Ideal) y))))) (ix2 r (0 : Fin 1)))
        (fillCol (F := Ideal) (varCount (F := Ideal)) (ix2 r (0 : Fin 1))))
      (fillCol (F := Ideal) (id (constant (F := Ideal) S_ .f32 0x7FC00000#32)) (ix2 r (0 : Fin 1))) = _
  rw [hc]
  show Ideal.div (asCol (F := Ideal) (rowSum (F := Ideal) (mulf (subf y (colB (F := Ideal) (rowMean (F := Ideal) y))) (subf y (colB (F := Ideal) (rowMean (F := Ideal) y))))) (ix2 r (0 : Fin 1)))
        (fillCol (F := Ideal) (varCount (F := Ideal)) (ix2 r (0 : Fin 1))) = _
  rw [asCol_apply, rowSum_apply, fillCol_apply, varCount_eq]
  refine congrArg (fun s : EReal => Ideal.div (Cert.Layer.z + s) Cert.Layer.c128) (Finset.sum_congr rfl fun k _ => ?_)
  show (y (ix2 r k) - colB (F := Ideal) (rowMean (F := Ideal) y) (ix2 r k)) * (y (ix2 r k) - colB (F := Ideal) (rowMean (F := Ideal) y) (ix2 r k)) = _
  rw [colB_apply, rowMean_apply]

/-- THE REFERENCE'S NORMALISATION at (r, q). -/
theorem normed_apply (y : FVec Ideal S100000x128 .f32) (a8 a9 : FVec Ideal S128 .f32) (r : Fin 100000) (q : Fin 128) :
    normed (F := Ideal) y a8 a9 (ix2 r q)
      = Cert.Layer.lnorm (fun k => y (ix2 r k)) (a8 (ix1 q)) (a9 (ix1 q)) q := by
  unfold normed Cert.Layer.lnorm
  show (y (ix2 r q) - colB (F := Ideal) (rowMean (F := Ideal) y) (ix2 r q))
        * colB (F := Ideal) (Host.rsqrt (addf (rowVar (F := Ideal) y) (fillCol (F := Ideal) (constant (F := Ideal) S_ .f32 0x3727C5AC#32))) : FVec Ideal S100000x1 .f32) (ix2 r q)
        * rowB (F := Ideal) a8 (ix2 r q) + rowB (F := Ideal) a9 (ix2 r q) = _
  rw [colB_apply, colB_apply, rowB_apply, rowB_apply, rowMean_apply]
  show (y (ix2 r q) - Cert.Layer.mean fun k => y (ix2 r k))
        * Ideal.rsqrt (rowVar (F := Ideal) y (ix2 r (0 : Fin 1)) + fillCol (F := Ideal) (constant (F := Ideal) S_ .f32 0x3727C5AC#32) (ix2 r (0 : Fin 1)))
        * a8 (ix1 q) + a9 (ix1 q) = _
  rw [rowVar_apply, fillCol_apply]
  rfl

end Cert.ReferenceIdeal.RefTail

end
-- ==== Proof.RefValue.lean ====
/- The reference's value read at an index, at the ideal values.

   The result at node r and lane q is the layer normalisation of row r of the gated quotient, scaled and shifted by
   lane q's entries of the last two arguments; the quotient at (r, k) is the layer's scalar `pre` of the rate, the
   aggregate over the edges into r, the skip term and the degree. Put together, the value at (r, q) is the layer's
   reference function of the ten argument arrays at (r, q). No finiteness is used: the equation is a reading. -/
import proofs.«181917_j74500502716662_2_alg».proof.Proof.RefValueQuot
import proofs.«181917_j74500502716662_2_alg».proof.Proof.RefAgg
import proofs.«181917_j74500502716662_2_alg».proof.Proof.RefTail

noncomputable section

namespace Cert.ReferenceIdeal.RefValue

open Cert.ReferenceIdeal Cert.ReferenceIdeal.Gen Idealize.ShloMosaic Idealize.ShloMosaic.ValueIdx
open scoped BigOperators

/-- The gated quotient at (r, k). -/
theorem quot_apply (a0 : (⟨S100000x128, .f32⟩ : BufTy).Contents (Elt Ideal)) (a1 : (⟨S2x800000, .i32⟩ : BufTy).Contents (Elt Ideal)) (a2 : (⟨S100000, .i32⟩ : BufTy).Contents (Elt Ideal))
    (a3 : (⟨S128x128, .f32⟩ : BufTy).Contents (Elt Ideal)) (a4 : (⟨S128, .f32⟩ : BufTy).Contents (Elt Ideal)) (a5 a6 : (⟨S128x128, .f32⟩ : BufTy).Contents (Elt Ideal)) (a7 : (⟨S128, .f32⟩ : BufTy).Contents (Elt Ideal))
    (r : Fin 100000) (k : Fin 128) :
    RefRun.quot a0 a1 a2 a3 a4 a5 a6 a7 (ix2 r k)
      = Cert.Layer.pre (Cert.Layer.rate (∑ j : Fin 128, a0 (ix2 r j) * a5 (ix2 j k))) (Cert.Layer.aggBoth (Cert.Layer.hArr a0 a3 a4) a1 r k)
          ((∑ j : Fin 128, a0 (ix2 r j) * a6 (ix2 j k)) + a7 (ix1 k)) (Cert.Layer.degree a2 r) :=
  quot_apply_of agg_apply a0 a1 a2 a3 a4 a5 a6 a7 r k

/-- THE REFERENCE'S VALUE AT (r, q): the layer's reference function of the argument arrays there. -/
theorem val_out_apply (a0 : (⟨S100000x128, .f32⟩ : BufTy).Contents (Elt Ideal)) (a1 : (⟨S2x800000, .i32⟩ : BufTy).Contents (Elt Ideal)) (a2 : (⟨S100000, .i32⟩ : BufTy).Contents (Elt Ideal))
    (a3 : (⟨S128x128, .f32⟩ : BufTy).Contents (Elt Ideal)) (a4 : (⟨S128, .f32⟩ : BufTy).Contents (Elt Ideal)) (a5 a6 : (⟨S128x128, .f32⟩ : BufTy).Contents (Elt Ideal)) (a7 a8 a9 : (⟨S128, .f32⟩ : BufTy).Contents (Elt Ideal))
    (r : Fin 100000) (q : Fin 128) :
    RefRun.val_out a0 a1 a2 a3 a4 a5 a6 a7 a8 a9 (ix2 r q) = Cert.Layer.refOut a0 a1 a2 a3 a4 a5 a6 a7 a8 a9 r q := by
  unfold RefRun.val_out
  rw [Cert.ReferenceIdeal.RefTail.normed_apply]
  unfold Cert.Layer.refOut Cert.Layer.outWith
  refine congrArg (fun y => Cert.Layer.lnorm y (a8 (ix1 q)) (a9 (ix1 q)) q) (funext fun k => ?_)
  exact quot_apply a0 a1 a2 a3 a4 a5 a6 a7 r k

end Cert.ReferenceIdeal.RefValue

end
-- ==== Proof.Finite.lean ====
/-
  Finiteness of the float inputs, read back from the precondition.

  The precondition is a conjunction, over the eight float arguments, of
  "every entry x has |x| < +infinity".  At the ideal instance an entry is an
  extended real, |x| is max x (-x), and the comparison is the strict order of
  the extended reals; so each conjunct says that no entry is an infinity, that
  is, every entry is (the image of) a real number.
-/
import proofs.«181917_j74500502716662_2_alg».proof.Pre_finite_inputs
import Idealize.ShloMosaic.Lib.ReduceAll
import Idealize.ShloMosaic.Lib.IdealHost

noncomputable section

namespace Cert.Finite

open Idealize.ShloMosaic Idealize.ShloMosaic.ValueIdx Cert.Pre_finite_inputs

/-- The scalar shape has exactly one index. -/
instance : Subsingleton S_.Idx := ⟨fun a b => funext fun d => d.elim0⟩

/-- The f32 pattern 0x7F800000 denotes +infinity. -/
theorem ofBits_inf : Ideal.ofBits .f32 0x7F800000#32 = (⊤ : EReal) := by
  simp [Ideal.ofBits, Ideal.ieee]

/-- An extended real whose absolute value max x (-x) lies strictly below +infinity is a real number:
    x = +infinity gives max = +infinity, and x = -infinity gives -x = +infinity. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element fact of the precondition: the comparison |x| < +infinity coming out 1 makes x real. -/
theorem real_of_cmp (x : Ideal .f32)
    (h : FloatOps.cmpf (F := Ideal) .olt (FloatOps.hostAbsf x) (FloatOps.ofBits (F := Ideal) .f32 0x7F800000#32) = 1#1) :
    ∃ r : ℝ, x = (r : EReal) := by
  apply real_of_abs_lt_top
  have h' : BitVec.ofBool (decide (max x (-x) < Ideal.ofBits .f32 0x7F800000#32)) = 1#1 := h
  rw [ofBits_inf] at h'
  by_contra hn
  rw [decide_eq_false hn] at h'
  exact absurd h' (by decide)

/-- One conjunct of the precondition: when the conjunction (a reduction by "and" over all axes) of the
    comparisons |a i| < +infinity is 1, every entry of a is a real number. -/
theorem all_real {s : Shape} {axes : List (Fin s.rank)}
    (hb : S_.BroadcastsInDim s (![] : Fin 0 → Fin s.rank)) (hr : s.ReducesTo axes S_) (hu : 0 < S_.numel)
    (a : FVec Ideal s .f32) (init : IVec S_ 1)
    (e : Host.reduce IntOp.andi
        (cmpf .olt (Host.absf a) (broadcastInDim s ![] hb (constant (F := Ideal) S_ .f32 0x7F800000#32)))
        init hr hu ix0 = 1#1)
    (i : s.Idx) : ∃ r : ℝ, a i = (r : EReal) :=
  real_of_cmp (a i) (Host.reduce_andi_all _ init hr hu ix0 e i)

/-- Under the precondition every entry of every float argument is a real number.  The precondition's
    value is the "and" of eight conjunctions, one per float argument (the two integer arguments are
    unconstrained); it is 1 exactly when each of them is. -/
theorem reals [Facts]
    (a0 : FVec Ideal S100000x128 .f32) (a1 : IVec S2x800000 32) (a2 : IVec S100000 32)
    (a3 : FVec Ideal S128x128 .f32) (a4 : FVec Ideal S128 .f32)
    (a5 : FVec Ideal S128x128 .f32) (a6 : FVec Ideal S128x128 .f32)
    (a7 : FVec Ideal S128 .f32) (a8 : FVec Ideal S128 .f32) (a9 : FVec Ideal S128 .f32)
    (h : fn (F := Ideal) a0 a1 a2 a3 a4 a5 a6 a7 a8 a9 = fun _ => 1#1) :
    (∀ i, ∃ r : ℝ, a0 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) := by
  have h0 := congrFun h ix0
  dsimp only [fn, fn_part1, fn_part2, andi] at h0
  simp only [IntOp.andi_eq_one] at h0
  obtain ⟨⟨⟨⟨⟨⟨⟨e0, e3⟩, e4⟩, e5⟩, e6⟩, e7⟩, e8⟩, e9⟩ := h0
  exact ⟨all_real _ _ _ a0 _ e0, all_real _ _ _ a3 _ e3, all_real _ _ _ a4 _ e4, all_real _ _ _ a5 _ e5,
    all_real _ _ _ a6 _ e6, all_real _ _ _ a7 _ e7, all_real _ _ _ a8 _ e8, all_real _ _ _ a9 _ e9⟩

end Cert.Finite

end
-- ==== Proof.lean ====
/-
  The certificate of the boundary-convolution layer: the kernel's program — a projection kernel, the edge
  aggregation on the host, a normalising kernel — against its jnp reference, at the ideal values.

  Both compute, for node r and lane q, the layer normalisation over the 128 lanes of
      y k = (rate k · agg k + gamma k) / (1 + rate k · degree r + 1e-4),
  with rate = softplus (x W_rate) + 1e-4, gamma = x W_rob + b_rob and h = x W_fc + b_fc.  The reference aggregates
  agg = the sum over the edges e into r of h[dst e] + h[src e]; the kernel's program uses the rewriting
  agg = count r · h r + the sum over those edges of h[src e], count r the number of edges into r.  The two agree
  because an edge into r gathers row r of h as its destination row, and because on REAL entries a sum of |S| copies
  of a number is |S| times it: this is the one place where the finiteness of the float inputs is used (OutSpec.lean,
  SegSum.lean).  Tiling (20 blocks of 5000 nodes), the order of every sum, and the layout of the statistics as a
  two-column array make no difference at the ideal values.

  The kernel program's result is followed through its two launches in KRun, KRegion0/1, KHost, KArgs and KValue; the
  reference's run and its reading are RefRun, RefValue* and RefTail; the closed forms and their agreement are Spec,
  GraphSpec and OutSpec; that the inputs are real numbers is Finite.
-/
import proofs.«181917_j74500502716662_2_alg».proof.Defs
import proofs.«181917_j74500502716662_2_alg».proof.Proof.Gen.Kernel.Frame
import proofs.«181917_j74500502716662_2_alg».proof.Proof.Gen.KernelIdeal.Frame
import proofs.«181917_j74500502716662_2_alg».proof.Proof.Gen.Pre_finite_inputs
import proofs.«181917_j74500502716662_2_alg».proof.Proof.KRun
import proofs.«181917_j74500502716662_2_alg».proof.Proof.KValue
import proofs.«181917_j74500502716662_2_alg».proof.Proof.RefValue
import proofs.«181917_j74500502716662_2_alg».proof.Proof.Finite
import proofs.«181917_j74500502716662_2_alg».proof.Proof.OutSpec

noncomputable section

namespace Cert.Proof

open Idealize.ShloMosaic Idealize.ShloMosaic.ValueIdx Idealize.SL.Sem

/-- A node-by-lane array from its entries. -/
def outArr (f : Fin 100000 → Fin 128 → EReal) : (⟨2, ![100000, 128]⟩ : Shape).Idx → EReal :=
  fun i => f ⟨(i 0).val, idx2_lt0 i⟩ ⟨(i 1).val, idx2_lt1 i⟩

theorem outArr_apply (f : Fin 100000 → Fin 128 → EReal) (r : Fin 100000) (q : Fin 128) : outArr f (ix2 r q) = f r q := rfl

/-- An array that reads f at every (r, q) is the array of f. -/
theorem eq_outArr (g : (⟨2, ![100000, 128]⟩ : Shape).Idx → EReal) (f : Fin 100000 → Fin 128 → EReal)
    (h : ∀ r q, g (ix2 r q) = f r q) : g = outArr f := by
  funext i
  obtain ⟨r, q, rfl⟩ : ∃ (r : Fin 100000) (q : Fin 128), i = ix2 r q := ⟨i 0, i 1, eq_ix2 i⟩
  exact h r q

theorem frame_p : Cert.frame_Kernel := fun m ρ _ => Cert.Kernel.Gen.frame m ρ

theorem frame_pi : Cert.frame_KernelIdeal := fun m ρ _ => Cert.KernelIdeal.Gen.frame m ρ

/-- The reference terminates with its arguments unchanged: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- At the ideal values both programs end with the closed form of the kernel's program in their result arrays: the
    kernel's by following its segments, the reference's by its run read at an index and the agreement of the two closed
    forms on real inputs. -/
theorem algebraic : Cert.algebraic_KernelIdeal_ReferenceIdeal := by
  intro m ρ m' ρ' hpre hagree
  refine ⟨fun c => outArr (Cert.Layer.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))), ?_, ?_⟩
  · refine (θ_run Cert.KernelIdeal.defs _ _).mono (fun r h c => ⟨(h c).1.trans ?_, (h c).2⟩)
      (Cert.KernelIdeal.GenP.run_main (F := Ideal) m ρ)
    exact eq_outArr _ _ (fun r q => Cert.KernelIdeal.KValue.out_apply m ρ c r q)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9⟩ := hagree c
    rw [e0, e1, e2, e3, e4, e5, e6, e7, e8, e9]
    obtain ⟨h0, h3, h4, -⟩ := Cert.Finite.reals _ _ _ _ _ _ _ _ _ _ (hpre c)
    refine eq_outArr _ _ (fun r q => ?_)
    rw [Cert.ReferenceIdeal.RefValue.val_out_apply]
    exact (Cert.Layer.kernelOut_eq_refOut _ _ _ _ _ _ _ _ _ _ h0 h3 h4 r q).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
